-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4x84x84 : Shape := ⟨4, ![256, 4, 84, 84]⟩
abbrev S128x128 : Shape := ⟨2, ![128, 128]⟩
abbrev S1x128 : Shape := ⟨2, ![1, 128]⟩
abbrev S3200x64 : Shape := ⟨2, ![3200, 64]⟩
abbrev S1x64 : Shape := ⟨2, ![1, 64]⟩
abbrev S9x64x256 : Shape := ⟨3, ![9, 64, 256]⟩
abbrev S1x256 : Shape := ⟨2, ![1, 256]⟩
abbrev S128x51 : Shape := ⟨2, ![128, 51]⟩
abbrev S1x51 : Shape := ⟨2, ![1, 51]⟩
abbrev S4x128x51 : Shape := ⟨3, ![4, 128, 51]⟩
abbrev S4x1x51 : Shape := ⟨3, ![4, 1, 51]⟩
abbrev S_ : Shape := ⟨0, ![]⟩

class Facts : Prop where
  bcast_S_S256x4x84x84 : S_.BroadcastsInDim S256x4x84x84 (![] : Fin 0 → Fin S256x4x84x84.rank)
  reducesTo_S256x4x84x84_S_d0_1_2_3 : S256x4x84x84.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S3200x64 : S_.BroadcastsInDim S3200x64 (![] : Fin 0 → Fin S3200x64.rank)
  reducesTo_S3200x64_S_d0_1 : S3200x64.ReducesTo [0, 1] S_
  bcast_S_S1x64 : S_.BroadcastsInDim S1x64 (![] : Fin 0 → Fin S1x64.rank)
  reducesTo_S1x64_S_d0_1 : S1x64.ReducesTo [0, 1] S_
  bcast_S_S9x64x256 : S_.BroadcastsInDim S9x64x256 (![] : Fin 0 → Fin S9x64x256.rank)
  reducesTo_S9x64x256_S_d0_1_2 : S9x64x256.ReducesTo [0, 1, 2] S_
  bcast_S_S1x256 : S_.BroadcastsInDim S1x256 (![] : Fin 0 → Fin S1x256.rank)
  reducesTo_S1x256_S_d0_1 : S1x256.ReducesTo [0, 1] S_
  bcast_S_S128x51 : S_.BroadcastsInDim S128x51 (![] : Fin 0 → Fin S128x51.rank)
  reducesTo_S128x51_S_d0_1 : S128x51.ReducesTo [0, 1] S_
  bcast_S_S1x51 : S_.BroadcastsInDim S1x51 (![] : Fin 0 → Fin S1x51.rank)
  reducesTo_S1x51_S_d0_1 : S1x51.ReducesTo [0, 1] S_
  bcast_S_S4x128x51 : S_.BroadcastsInDim S4x128x51 (![] : Fin 0 → Fin S4x128x51.rank)
  reducesTo_S4x128x51_S_d0_1_2 : S4x128x51.ReducesTo [0, 1, 2] S_
  bcast_S_S4x1x51 : S_.BroadcastsInDim S4x1x51 (![] : Fin 0 → Fin S4x1x51.rank)
  reducesTo_S4x1x51_S_d0_1_2 : S4x1x51.ReducesTo [0, 1, 2] S_

variable [Facts]

def fn_part3 {F : FTy → Type} [FloatOps F] (main_v48 : IVec S_ 1) (main_v49 : FVec F S4x1x51 .f32) (main_v50 : FVec F S4x1x51 .f32) : IVec S_ 1 :=
  let main_v51 : IVec S4x1x51 1 := cmpf .olt main_v49 main_v50
  let main_c_19 : IVec S_ 1 := constantI S_ 1 1#1
  let main_v52 : IVec S_ 1 := (fun x v => Host.reduce IntOp.andi x v reducesTo_S4x1x51_S_d0_1_2 h_S_) main_v51 main_c_19
  let main_v53 : IVec S_ 1 := andi main_v48 main_v52
  main_v53

def fn_part2 {F : FTy → Type} [FloatOps F] (main_arg7 : FVec F S128x51 .f32) (main_arg8 : FVec F S1x51 .f32) (main_arg9 : FVec F S4x128x51 .f32) (main_arg10 : FVec F S4x1x51 .f32) (main_v33 : IVec S_ 1) : IVec S_ 1 :=
  let main_v34 : FVec F S128x51 .f32 := Host.absf main_arg7
  let main_cst_12 : FVec F S_ .f32 := constant S_ .f32 0x7F800000#32
  let main_v35 : FVec F S128x51 .f32 := broadcastInDim S128x51 ![] bcast_S_S128x51 main_cst_12
  let main_v36 : IVec S128x51 1 := cmpf .olt main_v34 main_v35
  let main_c_13 : IVec S_ 1 := constantI S_ 1 1#1
  let main_v37 : IVec S_ 1 := (fun x v => Host.reduce IntOp.andi x v reducesTo_S128x51_S_d0_1 h_S_) main_v36 main_c_13
  let main_v38 : IVec S_ 1 := andi main_v33 main_v37
  let main_v39 : FVec F S1x51 .f32 := Host.absf main_arg8
  let main_cst_14 : FVec F S_ .f32 := constant S_ .f32 0x7F800000#32
  let main_v40 : FVec F S1x51 .f32 := broadcastInDim S1x51 ![] bcast_S_S1x51 main_cst_14
  let main_v41 : IVec S1x51 1 := cmpf .olt main_v39 main_v40
  let main_c_15 : IVec S_ 1 := constantI S_ 1 1#1
  let main_v42 : IVec S_ 1 := (fun x v => Host.reduce IntOp.andi x v reducesTo_S1x51_S_d0_1 h_S_) main_v41 main_c_15
  let main_v43 : IVec S_ 1 := andi main_v38 main_v42
  let main_v44 : FVec F S4x128x51 .f32 := Host.absf main_arg9
  let main_cst_16 : FVec F S_ .f32 := constant S_ .f32 0x7F800000#32
  let main_v45 : FVec F S4x128x51 .f32 := broadcastInDim S4x128x51 ![] bcast_S_S4x128x51 main_cst_16
  let main_v46 : IVec S4x128x51 1 := cmpf .olt main_v44 main_v45
  let main_c_17 : IVec S_ 1 := constantI S_ 1 1#1
  let main_v47 : IVec S_ 1 := (fun x v => Host.reduce IntOp.andi x v reducesTo_S4x128x51_S_d0_1_2 h_S_) main_v46 main_c_17
  let main_v48 : IVec S_ 1 := andi main_v43 main_v47
  let main_v49 : FVec F S4x1x51 .f32 := Host.absf main_arg10
  let main_cst_18 : FVec F S_ .f32 := constant S_ .f32 0x7F800000#32
  let main_v50 : FVec F S4x1x51 .f32 := broadcastInDim S4x1x51 ![] bcast_S_S4x1x51 main_cst_18
  fn_part3 (F := F) main_v48 main_v49 main_v50

def fn_part1 {F : FTy → Type} [FloatOps F] (main_arg4 : FVec F S1x64 .f32) (main_arg5 : FVec F S9x64x256 .f32) (main_arg6 : FVec F S1x256 .f32) (main_arg7 : FVec F S128x51 .f32) (main_arg8 : FVec F S1x51 .f32) (main_arg9 : FVec F S4x128x51 .f32) (main_arg10 : FVec F S4x1x51 .f32) (main_v13 : IVec S_ 1) (main_v16 : IVec S3200x64 1) : IVec S_ 1 :=
  let main_c_5 : IVec S_ 1 := constantI S_ 1 1#1
  let main_v17 : IVec S_ 1 := (fun x v => Host.reduce IntOp.andi x v reducesTo_S3200x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S9x64x256 .f32 := Host.absf main_arg5
  let main_cst_8 : FVec F S_ .f32 := constant S_ .f32 0x7F800000#32
  let main_v25 : FVec F S9x64x256 .f32 := broadcastInDim S9x64x256 ![] bcast_S_S9x64x256 main_cst_8
  let main_v26 : IVec S9x64x256 1 := cmpf .olt main_v24 main_v25
  let main_c_9 : IVec S_ 1 := constantI S_ 1 1#1
  let main_v27 : IVec S_ 1 := (fun x v => Host.reduce IntOp.andi x v reducesTo_S9x64x256_S_d0_1_2 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S256x4x84x84 .f32) (main_arg1 : FVec F S128x128 .f32) (main_arg2 : FVec F S1x128 .f32) (main_arg3 : FVec F S3200x64 .f32) (main_arg4 : FVec F S1x64 .f32) (main_arg5 : FVec F S9x64x256 .f32) (main_arg6 : FVec F S1x256 .f32) (main_arg7 : FVec F S128x51 .f32) (main_arg8 : FVec F S1x51 .f32) (main_arg9 : FVec F S4x128x51 .f32) (main_arg10 : FVec F S4x1x51 .f32) : IVec S_ 1 :=
  let main_v0 : FVec F S256x4x84x84 .f32 := Host.absf main_arg0
  let main_cst : FVec F S_ .f32 := constant S_ .f32 0x7F800000#32
  let main_v1 : FVec F S256x4x84x84 .f32 := broadcastInDim S256x4x84x84 ![] bcast_S_S256x4x84x84 main_cst
  let main_v2 : IVec S256x4x84x84 1 := cmpf .olt main_v0 main_v1
  let main_c : IVec S_ 1 := constantI S_ 1 1#1
  let main_v3 : IVec S_ 1 := (fun x v => Host.reduce IntOp.andi x v reducesTo_S256x4x84x84_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S3200x64 .f32 := Host.absf main_arg3
  let main_cst_4 : FVec F S_ .f32 := constant S_ .f32 0x7F800000#32
  let main_v15 : FVec F S3200x64 .f32 := broadcastInDim S3200x64 ![] bcast_S_S3200x64 main_cst_4
  let main_v16 : IVec S3200x64 1 := cmpf .olt main_v14 main_v15
  fn_part1 (F := F) main_arg4 main_arg5 main_arg6 main_arg7 main_arg8 main_arg9 main_arg10 main_v13 main_v16
-- ==== Kernel.lean ====
abbrev S256x4x84x84 : Shape := ⟨4, ![256, 4, 84, 84]⟩
abbrev S128x128 : Shape := ⟨2, ![128, 128]⟩
abbrev S1x128 : Shape := ⟨2, ![1, 128]⟩
abbrev S3200x64 : Shape := ⟨2, ![3200, 64]⟩
abbrev S1x64 : Shape := ⟨2, ![1, 64]⟩
abbrev S9x64x256 : Shape := ⟨3, ![9, 64, 256]⟩
abbrev S1x256 : Shape := ⟨2, ![1, 256]⟩
abbrev S128x51 : Shape := ⟨2, ![128, 51]⟩
abbrev S1x51 : Shape := ⟨2, ![1, 51]⟩
abbrev S4x128x51 : Shape := ⟨3, ![4, 128, 51]⟩
abbrev S4x1x51 : Shape := ⟨3, ![4, 1, 51]⟩
abbrev S256x4x75x75 : Shape := ⟨4, ![256, 4, 75, 75]⟩
abbrev S256x4x3x5x5x3x5x5 : Shape := ⟨8, ![256, 4, 3, 5, 5, 3, 5, 5]⟩
abbrev S3x3x256x5x5x4x5x5 : Shape := ⟨8, ![3, 3, 256, 5, 5, 4, 5, 5]⟩
abbrev S57600x100 : Shape := ⟨2, ![57600, 100]⟩
abbrev S_ : Shape := ⟨0, ![]⟩
abbrev S57600x128 : Shape := ⟨2, ![57600, 128]⟩
abbrev S1440x128 : Shape := ⟨2, ![1440, 128]⟩
abbrev S9x256x3200 : Shape := ⟨3, ![9, 256, 3200]⟩
abbrev S4x256x51 : Shape := ⟨3, ![4, 256, 51]⟩
abbrev S9x64x3200 : Shape := ⟨3, ![9, 64, 3200]⟩
abbrev S4x64x51 : Shape := ⟨3, ![4, 64, 51]⟩
abbrev S576x3200 : Shape := ⟨2, ![576, 3200]⟩
abbrev S576x64 : Shape := ⟨2, ![576, 64]⟩
abbrev S64x64 : Shape := ⟨2, ![64, 64]⟩
abbrev S1x64x256 : Shape := ⟨3, ![1, 64, 256]⟩
abbrev S64x256 : Shape := ⟨2, ![64, 256]⟩
abbrev S64x128 : Shape := ⟨2, ![64, 128]⟩
abbrev S64x51 : Shape := ⟨2, ![64, 51]⟩
abbrev S1x128x51 : Shape := ⟨3, ![1, 128, 51]⟩
abbrev S1x1x51 : Shape := ⟨3, ![1, 1, 51]⟩
abbrev S64 : Shape := ⟨1, ![64]⟩
abbrev S64x1 : Shape := ⟨2, ![64, 1]⟩
abbrev S1x64x51 : Shape := ⟨3, ![1, 64, 51]⟩
abbrev S256x4x51 : Shape := ⟨3, ![256, 4, 51]⟩

abbrev nBuf : Space → Nat
  | .hbm => 25
  | .vmem => 18
  | .smem => 0
  | _ => 0

abbrev bufTy : (tb : Table) → Fin (tcTables nBuf tb) → BufTy
  | .hbm, ⟨0, _⟩ => ⟨S256x4x84x84, .f32⟩
  | .hbm, ⟨1, _⟩ => ⟨S128x128, .f32⟩
  | .hbm, ⟨2, _⟩ => ⟨S1x128, .f32⟩
  | .hbm, ⟨3, _⟩ => ⟨S3200x64, .f32⟩
  | .hbm, ⟨4, _⟩ => ⟨S1x64, .f32⟩
  | .hbm, ⟨5, _⟩ => ⟨S9x64x256, .f32⟩
  | .hbm, ⟨6, _⟩ => ⟨S1x256, .f32⟩
  | .hbm, ⟨7, _⟩ => ⟨S128x51, .f32⟩
  | .hbm, ⟨8, _⟩ => ⟨S1x51, .f32⟩
  | .hbm, ⟨9, _⟩ => ⟨S4x128x51, .f32⟩
  | .hbm, ⟨10, _⟩ => ⟨S4x1x51, .f32⟩
  | .hbm, ⟨11, _⟩ => ⟨S256x4x75x75, .f32⟩
  | .hbm, ⟨12, _⟩ => ⟨S256x4x3x5x5x3x5x5, .f32⟩
  | .hbm, ⟨13, _⟩ => ⟨S3x3x256x5x5x4x5x5, .f32⟩
  | .hbm, ⟨14, _⟩ => ⟨S57600x100, .f32⟩
  | .hbm, ⟨15, _⟩ => ⟨S57600x100, .bf16⟩
  | .hbm, ⟨16, _⟩ => ⟨S_, .i32⟩
  | .hbm, ⟨17, _⟩ => ⟨S_, .bf16⟩
  | .hbm, ⟨18, _⟩ => ⟨S57600x128, .bf16⟩
  | .hbm, ⟨19, _⟩ => ⟨S128x128, .bf16⟩
  | .hbm, ⟨20, _⟩ => ⟨S57600x128, .bf16⟩
  | .hbm, ⟨21, _⟩ => ⟨S9x256x3200, .bf16⟩
  | .hbm, ⟨22, _⟩ => ⟨S3200x64, .bf16⟩
  | .hbm, ⟨23, _⟩ => ⟨S4x256x51, .f32⟩
  | .hbm, ⟨24, _⟩ => ⟨S256x4x51, .f32⟩
  | .local _ .vmem, ⟨0, _⟩ => ⟨S1440x128, .bf16⟩
  | .local _ .vmem, ⟨1, _⟩ => ⟨S1440x128, .bf16⟩
  | .local _ .vmem, ⟨2, _⟩ => ⟨S128x128, .bf16⟩
  | .local _ .vmem, ⟨3, _⟩ => ⟨S1x128, .f32⟩
  | .local _ .vmem, ⟨4, _⟩ => ⟨S1440x128, .bf16⟩
  | .local _ .vmem, ⟨5, _⟩ => ⟨S1440x128, .bf16⟩
  | .local _ .vmem, ⟨6, _⟩ => ⟨S9x64x3200, .bf16⟩
  | .local _ .vmem, ⟨7, _⟩ => ⟨S9x64x3200, .bf16⟩
  | .local _ .vmem, ⟨8, _⟩ => ⟨S3200x64, .bf16⟩
  | .local _ .vmem, ⟨9, _⟩ => ⟨S1x64, .f32⟩
  | .local _ .vmem, ⟨10, _⟩ => ⟨S9x64x256, .f32⟩
  | .local _ .vmem, ⟨11, _⟩ => ⟨S1x256, .f32⟩
  | .local _ .vmem, ⟨12, _⟩ => ⟨S128x51, .f32⟩
  | .local _ .vmem, ⟨13, _⟩ => ⟨S1x51, .f32⟩
  | .local _ .vmem, ⟨14, _⟩ => ⟨S4x128x51, .f32⟩
  | .local _ .vmem, ⟨15, _⟩ => ⟨S4x1x51, .f32⟩
  | .local _ .vmem, ⟨16, _⟩ => ⟨S4x64x51, .f32⟩
  | .local _ .vmem, ⟨17, _⟩ => ⟨S4x64x51, .f32⟩
  | _, _ => ⟨S256x4x84x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1440x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1440x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S9x64x3200 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3200x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S9x64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x51 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x51 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x128x51 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x1x51 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4x64x51 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S256x4x84x84_S256x4x75x75_0_0_0_0 : S256x4x84x84.Slices ![0, 0, 0, 0] S256x4x75x75
  shapeCasts_S256x4x75x75_S256x4x3x5x5x3x5x5 : S256x4x75x75.ShapeCasts S256x4x3x5x5x3x5x5
  transposes_S256x4x3x5x5x3x5x5_S3x3x256x5x5x4x5x5_2_5_0_3_6_1_4_7 : S256x4x3x5x5x3x5x5.Transposes [2, 5, 0, 3, 6, 1, 4, 7] S3x3x256x5x5x4x5x5
  shapeCasts_S3x3x256x5x5x4x5x5_S57600x100 : S3x3x256x5x5x4x5x5.ShapeCasts S57600x100
  bitsLt_bf16_f32 : FTy.bits .bf16 < FTy.bits .f32
  pads_S57600x100_S57600x128_000_0280 : S57600x100.Pads (![0, 0] : Fin 2 → Nat) ![0, 28] ![0, 0] S57600x128
  h_S_ : 0 < S_.numel
  inb_S1440x128_S1440x128_0_0 : ∀ a, (![0, 0] : Fin 2 → Nat) a + S1440x128.size a ≤ S1440x128.size a
  h_S1440x128 : 0 < S1440x128.numel
  shapeCasts_S1440x128_S1440x128 : S1440x128.ShapeCasts S1440x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  broadcasts_S1x128_S1440x128 : S1x128.Broadcasts S1440x128
  packedbf16_S1440x128_S1440x128_0_0 : (Rect.unit (s := S1440x128) ![0, 0] S1440x128.size inb_S1440x128_S1440x128_0_0).PackedRows (EltTy.packing .bf16)
  shapeCasts_S57600x128_S9x256x3200 : S57600x128.ShapeCasts S9x256x3200
  inb_S9x64x3200_S9x64x3200_0_0_0 : ∀ a, (![0, 0, 0] : Fin 3 → Nat) a + S9x64x3200.size a ≤ S9x64x3200.size a
  h_S9x64x3200 : 0 < S9x64x3200.numel
  shapeCasts_S9x64x3200_S9x64x3200 : S9x64x3200.ShapeCasts S9x64x3200
  shapeCasts_S9x64x3200_S576x3200 : S9x64x3200.ShapeCasts S576x3200
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S1x64_S1x64_0_0 : ∀ a, (![0, 0] : Fin 2 → Nat) a + S1x64.size a ≤ S1x64.size a
  h_S1x64 : 0 < S1x64.numel
  broadcasts_S1x64_S576x64 : S1x64.Broadcasts S576x64
  inb_S1x256_S1x256_0_0 : ∀ a, (![0, 0] : Fin 2 → Nat) a + S1x256.size a ≤ S1x256.size a
  h_S1x256 : 0 < S1x256.numel
  slices_S576x64_o0_0_S64x64 : S576x64.Slices ![0, 0] S64x64
  inb_S9x64x256_S1x64x256_0_0_0 : ∀ a, (![0, 0, 0] : Fin 3 → Nat) a + S1x64x256.size a ≤ S9x64x256.size a
  h_S1x64x256 : 0 < S1x64x256.numel
  shapeCasts_S1x64x256_S64x256 : S1x64x256.ShapeCasts S64x256
  broadcasts_S1x256_S64x256 : S1x256.Broadcasts S64x256
  slices_S576x64_o64_0_S64x64 : S576x64.Slices ![64, 0] S64x64
  inb_S9x64x256_S1x64x256_1_0_0 : ∀ a, (![1, 0, 0] : Fin 3 → Nat) a + S1x64x256.size a ≤ S9x64x256.size a
  slices_S576x64_o128_0_S64x64 : S576x64.Slices ![128, 0] S64x64
  inb_S9x64x256_S1x64x256_2_0_0 : ∀ a, (![2, 0, 0] : Fin 3 → Nat) a + S1x64x256.size a ≤ S9x64x256.size a
  slices_S576x64_o192_0_S64x64 : S576x64.Slices ![192, 0] S64x64
  inb_S9x64x256_S1x64x256_3_0_0 : ∀ a, (![3, 0, 0] : Fin 3 → Nat) a + S1x64x256.size a ≤ S9x64x256.size a
  slices_S576x64_o256_0_S64x64 : S576x64.Slices ![256, 0] S64x64
  inb_S9x64x256_S1x64x256_4_0_0 : ∀ a, (![4, 0, 0] : Fin 3 → Nat) a + S1x64x256.size a ≤ S9x64x256.size a
  slices_S576x64_o320_0_S64x64 : S576x64.Slices ![320, 0] S64x64
  inb_S9x64x256_S1x64x256_5_0_0 : ∀ a, (![5, 0, 0] : Fin 3 → Nat) a + S1x64x256.size a ≤ S9x64x256.size a
  slices_S576x64_o384_0_S64x64 : S576x64.Slices ![384, 0] S64x64
  inb_S9x64x256_S1x64x256_6_0_0 : ∀ a, (![6, 0, 0] : Fin 3 → Nat) a + S1x64x256.size a ≤ S9x64x256.size a
  slices_S576x64_o448_0_S64x64 : S576x64.Slices ![448, 0] S64x64
  inb_S9x64x256_S1x64x256_7_0_0 : ∀ a, (![7, 0, 0] : Fin 3 → Nat) a + S1x64x256.size a ≤ S9x64x256.size a
  slices_S576x64_o512_0_S64x64 : S576x64.Slices ![512, 0] S64x64
  inb_S9x64x256_S1x64x256_8_0_0 : ∀ a, (![8, 0, 0] : Fin 3 → Nat) a + S1x64x256.size a ≤ S9x64x256.size a
  slices_S64x256_o0_0_S64x128 : S64x256.Slices ![0, 0] S64x128
  slices_S64x256_o0_128_S64x128 : S64x256.Slices ![0, 128] S64x128
  inb_S128x51_S128x51_0_0 : ∀ a, (![0, 0] : Fin 2 → Nat) a + S128x51.size a ≤ S128x51.size a
  h_S128x51 : 0 < S128x51.numel
  inb_S1x51_S1x51_0_0 : ∀ a, (![0, 0] : Fin 2 → Nat) a + S1x51.size a ≤ S1x51.size a
  h_S1x51 : 0 < S1x51.numel
  broadcasts_S1x51_S64x51 : S1x51.Broadcasts S64x51
  inb_S4x128x51_S1x128x51_0_0_0 : ∀ a, (![0, 0, 0] : Fin 3 → Nat) a + S1x128x51.size a ≤ S4x128x51.size a
  h_S1x128x51 : 0 < S1x128x51.numel
  shapeCasts_S1x128x51_S128x51 : S1x128x51.ShapeCasts S128x51
  inb_S4x1x51_S1x1x51_0_0_0 : ∀ a, (![0, 0, 0] : Fin 3 → Nat) a + S1x1x51.size a ≤ S4x1x51.size a
  h_S1x1x51 : 0 < S1x1x51.numel
  shapeCasts_S1x1x51_S1x51 : S1x1x51.ShapeCasts S1x51
  inb_S4x128x51_S1x128x51_1_0_0 : ∀ a, (![1, 0, 0] : Fin 3 → Nat) a + S1x128x51.size a ≤ S4x128x51.size a
  inb_S4x1x51_S1x1x51_1_0_0 : ∀ a, (![1, 0, 0] : Fin 3 → Nat) a + S1x1x51.size a ≤ S4x1x51.size a
  inb_S4x128x51_S1x128x51_2_0_0 : ∀ a, (![2, 0, 0] : Fin 3 → Nat) a + S1x128x51.size a ≤ S4x128x51.size a
  inb_S4x1x51_S1x1x51_2_0_0 : ∀ a, (![2, 0, 0] : Fin 3 → Nat) a + S1x1x51.size a ≤ S4x1x51.size a
  inb_S4x128x51_S1x128x51_3_0_0 : ∀ a, (![3, 0, 0] : Fin 3 → Nat) a + S1x128x51.size a ≤ S4x128x51.size a
  inb_S4x1x51_S1x1x51_3_0_0 : ∀ a, (![3, 0, 0] : Fin 3 → Nat) a + S1x1x51.size a ≤ S4x1x51.size a
  reduces_S64x51_S64 : S64x51.Reduces [1] S64
  shapeCasts_S64_S64x1 : S64.ShapeCasts S64x1
  broadcasts_S64x1_S64x51 : S64x1.Broadcasts S64x51
  inb_S4x64x51_S1x64x51_0_0_0 : ∀ a, (![0, 0, 0] : Fin 3 → Nat) a + S1x64x51.size a ≤ S4x64x51.size a
  h_S1x64x51 : 0 < S1x64x51.numel
  shapeCasts_S1x64x51_S64x51 : S1x64x51.ShapeCasts S64x51
  shapeCasts_S64x51_S1x64x51 : S64x51.ShapeCasts S1x64x51
  inb_S4x64x51_S1x64x51_1_0_0 : ∀ a, (![1, 0, 0] : Fin 3 → Nat) a + S1x64x51.size a ≤ S4x64x51.size a
  inb_S4x64x51_S1x64x51_2_0_0 : ∀ a, (![2, 0, 0] : Fin 3 → Nat) a + S1x64x51.size a ≤ S4x64x51.size a
  inb_S4x64x51_S1x64x51_3_0_0 : ∀ a, (![3, 0, 0] : Fin 3 → Nat) a + S1x64x51.size a ≤ S4x64x51.size a
  transposes_S4x256x51_S256x4x51_1_0_2 : S4x256x51.Transposes [1, 0, 2] S256x4x51
  dot_S1440x128_S128x128_S1440x128_1_0_0_1_n_n_wf : DotDims.WF S1440x128 S128x128 S1440x128 [1] [0] [0] [1] [] []
  dot_S576x3200_S3200x64_S576x64_1_0_0_1_n_n_wf : DotDims.WF S576x3200 S3200x64 S576x64 [1] [0] [0] [1] [] []
  dot_S64x64_S64x256_S64x256_1_0_0_1_n_n_wf : DotDims.WF S64x64 S64x256 S64x256 [1] [0] [0] [1] [] []
  dot_S64x128_S128x51_S64x51_1_0_0_1_n_n_wf : DotDims.WF S64x128 S128x51 S64x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1440x128.size a ≤ S57600x128.size a
  hwx0_0 : ∀ i : grid0.Coords, EltTy.bits .bf16 = 32 ∨ (Rect.block (s := S57600x128) S1440x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1440x128.size a ≤ S57600x128.size a
  hwx0_3 : ∀ i : grid0.Coords, EltTy.bits .bf16 = 32 ∨ (Rect.block (s := S57600x128) S1440x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S9x64x3200.size a ≤ S9x256x3200.size a
  hwx1_0 : ∀ i : grid1.Coords, EltTy.bits .bf16 = 32 ∨ (Rect.block (s := S9x256x3200) S9x64x3200.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S3200x64.size a
  hwx1_1 : ∀ i : grid1.Coords, EltTy.bits .bf16 = 32 ∨ (Rect.block (s := S3200x64) S3200x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x64x256.size a ≤ S9x64x256.size a
  hwx1_3 : ∀ i : grid1.Coords, EltTy.bits .f32 = 32 ∨ (Rect.block (s := S9x64x256) S9x64x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x51.size a ≤ S128x51.size a
  hwx1_5 : ∀ i : grid1.Coords, EltTy.bits .f32 = 32 ∨ (Rect.block (s := S128x51) S128x51.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x51.size a ≤ S1x51.size a
  hwx1_6 : ∀ i : grid1.Coords, EltTy.bits .f32 = 32 ∨ (Rect.block (s := S1x51) S1x51.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4x128x51.size a ≤ S4x128x51.size a
  hwx1_7 : ∀ i : grid1.Coords, EltTy.bits .f32 = 32 ∨ (Rect.block (s := S4x128x51) S4x128x51.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4x1x51.size a ≤ S4x1x51.size a
  hwx1_8 : ∀ i : grid1.Coords, EltTy.bits .f32 = 32 ∨ (Rect.block (s := S4x1x51) S4x1x51.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4x64x51.size a ≤ S4x256x51.size a
  hwx1_9 : ∀ i : grid1.Coords, EltTy.bits .f32 = 32 ∨ (Rect.block (s := S4x256x51) S4x64x51.size (cc1_transform_9 i) (hinb1_9 i)).WholeWords (EltTy.packing .f32)

variable [Facts₀]

def dot_S1440x128_S128x128_S1440x128_1_0_0_1_n_n : DotDims S1440x128 S128x128 S1440x128 where
  lhsContracting := [1]
  rhsContracting := [0]
  lhsNonContracting := [0]
  rhsNonContracting := [1]
  lhsBatch := []
  rhsBatch := []
  wf := dot_S1440x128_S128x128_S1440x128_1_0_0_1_n_n_wf
def dot_S576x3200_S3200x64_S576x64_1_0_0_1_n_n : DotDims S576x3200 S3200x64 S576x64 where
  lhsContracting := [1]
  rhsContracting := [0]
  lhsNonContracting := [0]
  rhsNonContracting := [1]
  lhsBatch := []
  rhsBatch := []
  wf := dot_S576x3200_S3200x64_S576x64_1_0_0_1_n_n_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S64x128_S128x51_S64x51_1_0_0_1_n_n : DotDims S64x128 S128x51 S64x51 where
  lhsContracting := [1]
  rhsContracting := [0]
  lhsNonContracting := [0]
  rhsNonContracting := [1]
  lhsBatch := []
  rhsBatch := []
  wf := dot_S64x128_S128x51_S64x51_1_0_0_1_n_n_wf

abbrev win0_0 : Pipeline.Window sig grid0 :=
  Pipeline.Window.ofSpec (Memref.whole main_v5) S1440x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1440x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S9x64x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S3200x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S9x64x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x51.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S1x51.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S4x128x51.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S4x1x51.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v10) S4x64x51.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S256x4x84x84 : Shape := ⟨4, ![256, 4, 84, 84]⟩
abbrev S128x128 : Shape := ⟨2, ![128, 128]⟩
abbrev S1x128 : Shape := ⟨2, ![1, 128]⟩
abbrev S3200x64 : Shape := ⟨2, ![3200, 64]⟩
abbrev S1x64 : Shape := ⟨2, ![1, 64]⟩
abbrev S9x64x256 : Shape := ⟨3, ![9, 64, 256]⟩
abbrev S1x256 : Shape := ⟨2, ![1, 256]⟩
abbrev S128x51 : Shape := ⟨2, ![128, 51]⟩
abbrev S1x51 : Shape := ⟨2, ![1, 51]⟩
abbrev S4x128x51 : Shape := ⟨3, ![4, 128, 51]⟩
abbrev S4x1x51 : Shape := ⟨3, ![4, 1, 51]⟩
abbrev S256x4x80x80 : Shape := ⟨4, ![256, 4, 80, 80]⟩
abbrev S256x4x16x5x16x5 : Shape := ⟨6, ![256, 4, 16, 5, 16, 5]⟩
abbrev S256x16x16x4x5x5 : Shape := ⟨6, ![256, 16, 16, 4, 5, 5]⟩
abbrev S65536x100 : Shape := ⟨2, ![65536, 100]⟩
abbrev S_ : Shape := ⟨0, ![]⟩
abbrev S65536x128 : Shape := ⟨2, ![65536, 128]⟩
abbrev S256x128 : Shape := ⟨2, ![256, 128]⟩
abbrev S256x16x16x128 : Shape := ⟨4, ![256, 16, 16, 128]⟩
abbrev S256x15x15x128 : Shape := ⟨4, ![256, 15, 15, 128]⟩
abbrev S256x3x5x3x5x128 : Shape := ⟨6, ![256, 3, 5, 3, 5, 128]⟩
abbrev S3x3x256x5x5x128 : Shape := ⟨6, ![3, 3, 256, 5, 5, 128]⟩
abbrev S9x256x3200 : Shape := ⟨3, ![9, 256, 3200]⟩
abbrev S4x256x51 : Shape := ⟨3, ![4, 256, 51]⟩
abbrev S256x256 : Shape := ⟨2, ![256, 256]⟩
abbrev S1x256x3200 : Shape := ⟨3, ![1, 256, 3200]⟩
abbrev S256x3200 : Shape := ⟨2, ![256, 3200]⟩
abbrev S256x64 : Shape := ⟨2, ![256, 64]⟩
abbrev S1x64x256 : Shape := ⟨3, ![1, 64, 256]⟩
abbrev S64x256 : Shape := ⟨2, ![64, 256]⟩
abbrev S256x51 : Shape := ⟨2, ![256, 51]⟩
abbrev S1x128x51 : Shape := ⟨3, ![1, 128, 51]⟩
abbrev S1x1x51 : Shape := ⟨3, ![1, 1, 51]⟩
abbrev S256 : Shape := ⟨1, ![256]⟩
abbrev S256x1 : Shape := ⟨2, ![256, 1]⟩
abbrev S1x256x51 : Shape := ⟨3, ![1, 256, 51]⟩
abbrev S256x4x51 : Shape := ⟨3, ![256, 4, 51]⟩

abbrev nBuf : Space → Nat
  | .hbm => 26
  | .vmem => 16
  | .smem => 0
  | _ => 0

abbrev bufTy : (tb : Table) → Fin (tcTables nBuf tb) → BufTy
  | .hbm, ⟨0, _⟩ => ⟨S256x4x84x84, .f32⟩
  | .hbm, ⟨1, _⟩ => ⟨S128x128, .f32⟩
  | .hbm, ⟨2, _⟩ => ⟨S1x128, .f32⟩
  | .hbm, ⟨3, _⟩ => ⟨S3200x64, .f32⟩
  | .hbm, ⟨4, _⟩ => ⟨S1x64, .f32⟩
  | .hbm, ⟨5, _⟩ => ⟨S9x64x256, .f32⟩
  | .hbm, ⟨6, _⟩ => ⟨S1x256, .f32⟩
  | .hbm, ⟨7, _⟩ => ⟨S128x51, .f32⟩
  | .hbm, ⟨8, _⟩ => ⟨S1x51, .f32⟩
  | .hbm, ⟨9, _⟩ => ⟨S4x128x51, .f32⟩
  | .hbm, ⟨10, _⟩ => ⟨S4x1x51, .f32⟩
  | .hbm, ⟨11, _⟩ => ⟨S256x4x80x80, .f32⟩
  | .hbm, ⟨12, _⟩ => ⟨S256x4x16x5x16x5, .f32⟩
  | .hbm, ⟨13, _⟩ => ⟨S256x16x16x4x5x5, .f32⟩
  | .hbm, ⟨14, _⟩ => ⟨S65536x100, .f32⟩
  | .hbm, ⟨15, _⟩ => ⟨S_, .i32⟩
  | .hbm, ⟨16, _⟩ => ⟨S_, .f32⟩
  | .hbm, ⟨17, _⟩ => ⟨S65536x128, .f32⟩
  | .hbm, ⟨18, _⟩ => ⟨S65536x128, .f32⟩
  | .hbm, ⟨19, _⟩ => ⟨S256x16x16x128, .f32⟩
  | .hbm, ⟨20, _⟩ => ⟨S256x15x15x128, .f32⟩
  | .hbm, ⟨21, _⟩ => ⟨S256x3x5x3x5x128, .f32⟩
  | .hbm, ⟨22, _⟩ => ⟨S3x3x256x5x5x128, .f32⟩
  | .hbm, ⟨23, _⟩ => ⟨S9x256x3200, .f32⟩
  | .hbm, ⟨24, _⟩ => ⟨S4x256x51, .f32⟩
  | .hbm, ⟨25, _⟩ => ⟨S256x4x51, .f32⟩
  | .local _ .vmem, ⟨0, _⟩ => ⟨S256x128, .f32⟩
  | .local _ .vmem, ⟨1, _⟩ => ⟨S256x128, .f32⟩
  | .local _ .vmem, ⟨2, _⟩ => ⟨S128x128, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S9x256x3200, .f32⟩
  | .local _ .vmem, ⟨7, _⟩ => ⟨S3200x64, .f32⟩
  | .local _ .vmem, ⟨8, _⟩ => ⟨S1x64, .f32⟩
  | .local _ .vmem, ⟨9, _⟩ => ⟨S9x64x256, .f32⟩
  | .local _ .vmem, ⟨10, _⟩ => ⟨S1x256, .f32⟩
  | .local _ .vmem, ⟨11, _⟩ => ⟨S128x51, .f32⟩
  | .local _ .vmem, ⟨12, _⟩ => ⟨S1x51, .f32⟩
  | .local _ .vmem, ⟨13, _⟩ => ⟨S4x128x51, .f32⟩
  | .local _ .vmem, ⟨14, _⟩ => ⟨S4x1x51, .f32⟩
  | .local _ .vmem, ⟨15, _⟩ => ⟨S4x256x51, .f32⟩
  | _, _ => ⟨S256x4x84x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S9x256x3200 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3200x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S9x64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x51 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x51 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S4x128x51 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S4x1x51 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S4x256x51 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

class Facts₀ : Prop where
  slices_S256x4x84x84_S256x4x80x80_0_0_0_0 : S256x4x84x84.Slices ![0, 0, 0, 0] S256x4x80x80
  shapeCasts_S256x4x80x80_S256x4x16x5x16x5 : S256x4x80x80.ShapeCasts S256x4x16x5x16x5
  transposes_S256x4x16x5x16x5_S256x16x16x4x5x5_0_2_4_1_3_5 : S256x4x16x5x16x5.Transposes [0, 2, 4, 1, 3, 5] S256x16x16x4x5x5
  shapeCasts_S256x16x16x4x5x5_S65536x100 : S256x16x16x4x5x5.ShapeCasts S65536x100
  pads_S65536x100_S65536x128_000_0280 : S65536x100.Pads (![0, 0] : Fin 2 → Nat) ![0, 28] ![0, 0] S65536x128
  h_S_ : 0 < S_.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  shapeCasts_S65536x128_S256x16x16x128 : S65536x128.ShapeCasts S256x16x16x128
  slices_S256x16x16x128_S256x15x15x128_0_0_0_0 : S256x16x16x128.Slices ![0, 0, 0, 0] S256x15x15x128
  shapeCasts_S256x15x15x128_S256x3x5x3x5x128 : S256x15x15x128.ShapeCasts S256x3x5x3x5x128
  transposes_S256x3x5x3x5x128_S3x3x256x5x5x128_1_3_0_2_4_5 : S256x3x5x3x5x128.Transposes [1, 3, 0, 2, 4, 5] S3x3x256x5x5x128
  shapeCasts_S3x3x256x5x5x128_S9x256x3200 : S3x3x256x5x5x128.ShapeCasts S9x256x3200
  inb_S9x256x3200_S1x256x3200_0_0_0 : ∀ a, (![0, 0, 0] : Fin 3 → Nat) a + S1x256x3200.size a ≤ S9x256x3200.size a
  h_S1x256x3200 : 0 < S1x256x3200.numel
  shapeCasts_S1x256x3200_S256x3200 : S1x256x3200.ShapeCasts S256x3200
  inb_S3200x64_S3200x64_0_0 : ∀ a, (![0, 0] : Fin 2 → Nat) a + S3200x64.size a ≤ S3200x64.size a
  h_S3200x64 : 0 < S3200x64.numel
  inb_S1x64_S1x64_0_0 : ∀ a, (![0, 0] : Fin 2 → Nat) a + S1x64.size a ≤ S1x64.size a
  h_S1x64 : 0 < S1x64.numel
  broadcasts_S1x64_S256x64 : S1x64.Broadcasts S256x64
  inb_S9x64x256_S1x64x256_0_0_0 : ∀ a, (![0, 0, 0] : Fin 3 → Nat) a + S1x64x256.size a ≤ S9x64x256.size a
  h_S1x64x256 : 0 < S1x64x256.numel
  shapeCasts_S1x64x256_S64x256 : S1x64x256.ShapeCasts S64x256
  inb_S9x256x3200_S1x256x3200_1_0_0 : ∀ a, (![1, 0, 0] : Fin 3 → Nat) a + S1x256x3200.size a ≤ S9x256x3200.size a
  inb_S9x64x256_S1x64x256_1_0_0 : ∀ a, (![1, 0, 0] : Fin 3 → Nat) a + S1x64x256.size a ≤ S9x64x256.size a
  inb_S9x256x3200_S1x256x3200_2_0_0 : ∀ a, (![2, 0, 0] : Fin 3 → Nat) a + S1x256x3200.size a ≤ S9x256x3200.size a
  inb_S9x64x256_S1x64x256_2_0_0 : ∀ a, (![2, 0, 0] : Fin 3 → Nat) a + S1x64x256.size a ≤ S9x64x256.size a
  inb_S9x256x3200_S1x256x3200_3_0_0 : ∀ a, (![3, 0, 0] : Fin 3 → Nat) a + S1x256x3200.size a ≤ S9x256x3200.size a
  inb_S9x64x256_S1x64x256_3_0_0 : ∀ a, (![3, 0, 0] : Fin 3 → Nat) a + S1x64x256.size a ≤ S9x64x256.size a
  inb_S9x256x3200_S1x256x3200_4_0_0 : ∀ a, (![4, 0, 0] : Fin 3 → Nat) a + S1x256x3200.size a ≤ S9x256x3200.size a
  inb_S9x64x256_S1x64x256_4_0_0 : ∀ a, (![4, 0, 0] : Fin 3 → Nat) a + S1x64x256.size a ≤ S9x64x256.size a
  inb_S9x256x3200_S1x256x3200_5_0_0 : ∀ a, (![5, 0, 0] : Fin 3 → Nat) a + S1x256x3200.size a ≤ S9x256x3200.size a
  inb_S9x64x256_S1x64x256_5_0_0 : ∀ a, (![5, 0, 0] : Fin 3 → Nat) a + S1x64x256.size a ≤ S9x64x256.size a
  inb_S9x256x3200_S1x256x3200_6_0_0 : ∀ a, (![6, 0, 0] : Fin 3 → Nat) a + S1x256x3200.size a ≤ S9x256x3200.size a
  inb_S9x64x256_S1x64x256_6_0_0 : ∀ a, (![6, 0, 0] : Fin 3 → Nat) a + S1x64x256.size a ≤ S9x64x256.size a
  inb_S9x256x3200_S1x256x3200_7_0_0 : ∀ a, (![7, 0, 0] : Fin 3 → Nat) a + S1x256x3200.size a ≤ S9x256x3200.size a
  inb_S9x64x256_S1x64x256_7_0_0 : ∀ a, (![7, 0, 0] : Fin 3 → Nat) a + S1x64x256.size a ≤ S9x64x256.size a
  inb_S9x256x3200_S1x256x3200_8_0_0 : ∀ a, (![8, 0, 0] : Fin 3 → Nat) a + S1x256x3200.size a ≤ S9x256x3200.size a
  inb_S9x64x256_S1x64x256_8_0_0 : ∀ a, (![8, 0, 0] : Fin 3 → Nat) a + S1x64x256.size a ≤ S9x64x256.size a
  inb_S1x256_S1x256_0_0 : ∀ a, (![0, 0] : Fin 2 → Nat) a + S1x256.size a ≤ S1x256.size a
  h_S1x256 : 0 < S1x256.numel
  broadcasts_S1x256_S256x256 : S1x256.Broadcasts S256x256
  slices_S256x256_o0_0_S256x128 : S256x256.Slices ![0, 0] S256x128
  slices_S256x256_o0_128_S256x128 : S256x256.Slices ![0, 128] S256x128
  inb_S128x51_S128x51_0_0 : ∀ a, (![0, 0] : Fin 2 → Nat) a + S128x51.size a ≤ S128x51.size a
  h_S128x51 : 0 < S128x51.numel
  inb_S1x51_S1x51_0_0 : ∀ a, (![0, 0] : Fin 2 → Nat) a + S1x51.size a ≤ S1x51.size a
  h_S1x51 : 0 < S1x51.numel
  broadcasts_S1x51_S256x51 : S1x51.Broadcasts S256x51
  inb_S4x128x51_S1x128x51_0_0_0 : ∀ a, (![0, 0, 0] : Fin 3 → Nat) a + S1x128x51.size a ≤ S4x128x51.size a
  h_S1x128x51 : 0 < S1x128x51.numel
  shapeCasts_S1x128x51_S128x51 : S1x128x51.ShapeCasts S128x51
  inb_S4x1x51_S1x1x51_0_0_0 : ∀ a, (![0, 0, 0] : Fin 3 → Nat) a + S1x1x51.size a ≤ S4x1x51.size a
  h_S1x1x51 : 0 < S1x1x51.numel
  shapeCasts_S1x1x51_S1x51 : S1x1x51.ShapeCasts S1x51
  inb_S4x128x51_S1x128x51_1_0_0 : ∀ a, (![1, 0, 0] : Fin 3 → Nat) a + S1x128x51.size a ≤ S4x128x51.size a
  inb_S4x1x51_S1x1x51_1_0_0 : ∀ a, (![1, 0, 0] : Fin 3 → Nat) a + S1x1x51.size a ≤ S4x1x51.size a
  inb_S4x128x51_S1x128x51_2_0_0 : ∀ a, (![2, 0, 0] : Fin 3 → Nat) a + S1x128x51.size a ≤ S4x128x51.size a
  inb_S4x1x51_S1x1x51_2_0_0 : ∀ a, (![2, 0, 0] : Fin 3 → Nat) a + S1x1x51.size a ≤ S4x1x51.size a
  inb_S4x128x51_S1x128x51_3_0_0 : ∀ a, (![3, 0, 0] : Fin 3 → Nat) a + S1x128x51.size a ≤ S4x128x51.size a
  inb_S4x1x51_S1x1x51_3_0_0 : ∀ a, (![3, 0, 0] : Fin 3 → Nat) a + S1x1x51.size a ≤ S4x1x51.size a
  reduces_S256x51_S256 : S256x51.Reduces [1] S256
  shapeCasts_S256_S256x1 : S256.ShapeCasts S256x1
  broadcasts_S256x1_S256x51 : S256x1.Broadcasts S256x51
  inb_S4x256x51_S1x256x51_0_0_0 : ∀ a, (![0, 0, 0] : Fin 3 → Nat) a + S1x256x51.size a ≤ S4x256x51.size a
  h_S1x256x51 : 0 < S1x256x51.numel
  shapeCasts_S1x256x51_S256x51 : S1x256x51.ShapeCasts S256x51
  shapeCasts_S256x51_S1x256x51 : S256x51.ShapeCasts S1x256x51
  inb_S4x256x51_S1x256x51_1_0_0 : ∀ a, (![1, 0, 0] : Fin 3 → Nat) a + S1x256x51.size a ≤ S4x256x51.size a
  inb_S4x256x51_S1x256x51_2_0_0 : ∀ a, (![2, 0, 0] : Fin 3 → Nat) a + S1x256x51.size a ≤ S4x256x51.size a
  inb_S4x256x51_S1x256x51_3_0_0 : ∀ a, (![3, 0, 0] : Fin 3 → Nat) a + S1x256x51.size a ≤ S4x256x51.size a
  transposes_S4x256x51_S256x4x51_1_0_2 : S4x256x51.Transposes [1, 0, 2] S256x4x51
  dot_S256x128_S128x128_S256x128_1_0_0_1_n_n_wf : DotDims.WF S256x128 S128x128 S256x128 [1] [0] [0] [1] [] []
  dot_S256x3200_S3200x64_S256x64_1_0_0_1_n_n_wf : DotDims.WF S256x3200 S3200x64 S256x64 [1] [0] [0] [1] [] []
  dot_S256x64_S64x256_S256x256_1_0_0_1_n_n_wf : DotDims.WF S256x64 S64x256 S256x256 [1] [0] [0] [1] [] []
  dot_S256x128_S128x51_S256x51_1_0_0_1_n_n_wf : DotDims.WF S256x128 S128x51 S256x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S65536x128.size a
  hwx0_0 : ∀ i : grid0.Coords, EltTy.bits .f32 = 32 ∨ (Rect.block (s := S65536x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S65536x128.size a
  hwx0_3 : ∀ i : grid0.Coords, EltTy.bits .f32 = 32 ∨ (Rect.block (s := S65536x128) S256x128.size (cc0_transform_3 i) (hinb0_3 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hstage1_9 : ∀ j, (stage1_9 j).IsWhole

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x3200_S3200x64_S256x64_1_0_0_1_n_n : DotDims S256x3200 S3200x64 S256x64 where
  lhsContracting := [1]
  rhsContracting := [0]
  lhsNonContracting := [0]
  rhsNonContracting := [1]
  lhsBatch := []
  rhsBatch := []
  wf := dot_S256x3200_S3200x64_S256x64_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x128_S128x51_S256x51_1_0_0_1_n_n : DotDims S256x128 S128x51 S256x51 where
  lhsContracting := [1]
  rhsContracting := [0]
  lhsNonContracting := [0]
  rhsNonContracting := [1]
  lhsBatch := []
  rhsBatch := []
  wf := dot_S256x128_S128x51_S256x51_1_0_0_1_n_n_wf

abbrev win0_0 : Pipeline.Window sig grid0 :=
  Pipeline.Window.ofSpec (Memref.whole main_v4) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.whole (Memref.whole main_v10) false false (stage1_0 0) (sem1_0 0) (Memref.isWhole_whole _) (hstage1_0 0)

abbrev win1_1 : Pipeline.Window sig grid1 :=
  Pipeline.Window.whole (Memref.whole main_arg3) false false (stage1_1 0) (sem1_1 0) (Memref.isWhole_whole _) (hstage1_1 0)

abbrev win1_2 : Pipeline.Window sig grid1 :=
  Pipeline.Window.whole (Memref.whole main_arg4) false false (stage1_2 0) (sem1_2 0) (Memref.isWhole_whole _) (hstage1_2 0)

abbrev win1_3 : Pipeline.Window sig grid1 :=
  Pipeline.Window.whole (Memref.whole main_arg5) false false (stage1_3 0) (sem1_3 0) (Memref.isWhole_whole _) (hstage1_3 0)

abbrev win1_4 : Pipeline.Window sig grid1 :=
  Pipeline.Window.whole (Memref.whole main_arg6) false false (stage1_4 0) (sem1_4 0) (Memref.isWhole_whole _) (hstage1_4 0)

abbrev win1_5 : Pipeline.Window sig grid1 :=
  Pipeline.Window.whole (Memref.whole main_arg7) false false (stage1_5 0) (sem1_5 0) (Memref.isWhole_whole _) (hstage1_5 0)

abbrev win1_6 : Pipeline.Window sig grid1 :=
  Pipeline.Window.whole (Memref.whole main_arg8) false false (stage1_6 0) (sem1_6 0) (Memref.isWhole_whole _) (hstage1_6 0)

abbrev win1_7 : Pipeline.Window sig grid1 :=
  Pipeline.Window.whole (Memref.whole main_arg9) false false (stage1_7 0) (sem1_7 0) (Memref.isWhole_whole _) (hstage1_7 0)

abbrev win1_8 : Pipeline.Window sig grid1 :=
  Pipeline.Window.whole (Memref.whole main_arg10) false false (stage1_8 0) (sem1_8 0) (Memref.isWhole_whole _) (hstage1_8 0)

abbrev win1_9 : Pipeline.Window sig grid1 :=
  Pipeline.Window.whole (Memref.whole main_v11) true false (stage1_9 0) (sem1_9 0) (Memref.isWhole_whole _) (hstage1_9 0)

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== Proof.RunK.lean ====
/-
  The run of the whole program with EVERY unscoped buffer of the final state named: every weakly fair execution from a
  memory with zero counters terminates without a fault, and each buffer of each core ends at the contents the fold of
  the host operations and the two regions' write-backs gives it (the last boundary's valuation). The argument arrays and
  the result array are read off this one statement.
-/
import proofs.«161365_g2000107080715666_pallasbulk_1227_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last boundary's valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Run

end
-- ==== Proof.ChainK.lean ====
/-
  What each buffer holds at the boundaries of the program's segments, read back through the fold of the host
  operations: the first region's three operand arrays as host terms of the argument arrays, the second region's operand
  arrays as a re-laid copy of the first region's result and as argument arrays, the result as the transpose of the
  second region's result. An argument array is written by nothing, so at every boundary it holds its launch contents.
-/
import proofs.«161365_g2000107080715666_pallasbulk_1227_2_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

theorem W3_arg0 (c : Dev nD) : W3 (F := Ideal) m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_arg1 (c : Dev nD) : W3 (F := Ideal) m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_arg2 (c : Dev nD) : W3 (F := Ideal) m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_arg3 (c : Dev nD) : W3 (F := Ideal) m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_arg3 (c : Dev nD) : W5 (F := Ideal) m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = m ((c : Thread nD τ).loc main_arg3) := W3_arg3 m ρ c

theorem W3_arg4 (c : Dev nD) : W3 (F := Ideal) m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W5_arg4 (c : Dev nD) : W5 (F := Ideal) m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = m ((c : Thread nD τ).loc main_arg4) := W3_arg4 m ρ c

theorem W3_arg5 (c : Dev nD) : W3 (F := Ideal) m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W5_arg5 (c : Dev nD) : W5 (F := Ideal) m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = m ((c : Thread nD τ).loc main_arg5) := W3_arg5 m ρ c

theorem W3_arg6 (c : Dev nD) : W3 (F := Ideal) m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W5_arg6 (c : Dev nD) : W5 (F := Ideal) m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = m ((c : Thread nD τ).loc main_arg6) := W3_arg6 m ρ c

theorem W3_arg7 (c : Dev nD) : W3 (F := Ideal) m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W5_arg7 (c : Dev nD) : W5 (F := Ideal) m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = m ((c : Thread nD τ).loc main_arg7) := W3_arg7 m ρ c

theorem W3_arg8 (c : Dev nD) : W3 (F := Ideal) m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W5_arg8 (c : Dev nD) : W5 (F := Ideal) m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = m ((c : Thread nD τ).loc main_arg8) := W3_arg8 m ρ c

theorem W3_arg9 (c : Dev nD) : W3 (F := Ideal) m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W5_arg9 (c : Dev nD) : W5 (F := Ideal) m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = m ((c : Thread nD τ).loc main_arg9) := W3_arg9 m ρ c

theorem W3_arg10 (c : Dev nD) : W3 (F := Ideal) m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W5_arg10 (c : Dev nD) : W5 (F := Ideal) m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = m ((c : Thread nD τ).loc main_arg10) := W3_arg10 m ρ c

/-- The patch rows as the host operations build them from the images: cut to 75×75, split into the 3×3 grid of 5×5
    neighbourhoods of 5×5 pixels, the neighbourhood and position axes moved in front of the batch, flattened to rows of
    100 pixels and filled up to 128 columns. -/
def patchesOf (x : FVec Ideal S256x4x84x84 .f32) : FVec Ideal S57600x128 .bf16 :=
  pad S57600x128 ![0, 0] ![0, 28] ![0, 0]
    (truncf .bf16 (shapeCast S57600x100 (transpose S3x3x256x5x5x4x5x5 [2, 5, 0, 3, 6, 1, 4, 7]
      (shapeCast S256x4x3x5x5x3x5x5 (extractStridedSlice S256x4x75x75 ![0, 0, 0, 0] x slices_S256x4x84x84_S256x4x75x75_0_0_0_0)
        shapeCasts_S256x4x75x75_S256x4x3x5x5x3x5x5)
      transposes_S256x4x3x5x5x3x5x5_S3x3x256x5x5x4x5x5_2_5_0_3_6_1_4_7) shapeCasts_S3x3x256x5x5x4x5x5_S57600x100) bitsLt_bf16_f32)
    (sitofp .bf16 (constantI S_ 32 0#32)) pads_S57600x100_S57600x128_000_0280 h_S_

theorem W3_v5 (c : Dev nD) :
    (W3 (F := Ideal) m ρ c (Proc.devRef .tc main_v5) : S57600x128.Idx → EReal) = patchesOf (m ((c : Thread nD τ).loc main_arg0)) := by
  dsimp only [W3, W2, W1, W0, hostOps0, hostOps0_1, hostOps0_2]
  after_results
  rfl

theorem W3_v6 (c : Dev nD) :
    (W3 (F := Ideal) m ρ c (Proc.devRef .tc main_v6) : S128x128.Idx → EReal) = m ((c : Thread nD τ).loc main_arg1) := by
  dsimp only [W3, W2, W1, W0, hostOps0, hostOps0_1, hostOps0_2]
  after_results
  rfl

theorem W5_v8 (c : Dev nD) :
    (W5 (F := Ideal) m ρ c (Proc.devRef .tc main_v8) : S9x256x3200.Idx → EReal)
      = shapeCast S9x256x3200 (W4 (F := Ideal) m ρ c (Proc.devRef .tc main_v7) : S57600x128.Idx → EReal) shapeCasts_S57600x128_S9x256x3200 := by
  dsimp only [W5, hostOps1]
  after_results
  rfl

theorem W5_v9 (c : Dev nD) :
    (W5 (F := Ideal) m ρ c (Proc.devRef .tc main_v9) : S3200x64.Idx → EReal) = m ((c : Thread nD τ).loc main_arg3) := by
  have h : (W5 (F := Ideal) m ρ c (Proc.devRef .tc main_v9) : S3200x64.Idx → EReal)
      = (W4 (F := Ideal) m ρ c (Proc.devRef .tc main_arg3) : S3200x64.Idx → EReal) := by
    dsimp only [W5, hostOps1]
    after_results
    rfl
  rw [h]
  exact (W4_of_ne m ρ c main_arg3 (by decide)).trans (W3_arg3 m ρ c)

theorem W4_v7 (c : Dev nD) : W4 (F := Ideal) m ρ c (Proc.devRef .tc main_v7) = (dat0 (V3 m ρ) c).arrAt 3 cfg0.N :=
  W4_arr m ρ c 3

theorem W6_v10 (c : Dev nD) : W6 (F := Ideal) m ρ c (Proc.devRef .tc main_v10) = (dat1 (V5 m ρ) c).arrAt 9 cfg1.N :=
  W6_arr m ρ c 9

theorem W7_v11 (c : Dev nD) :
    (W7 (F := Ideal) m ρ c (Proc.devRef .tc main_v11) : S256x4x51.Idx → EReal)
      = transpose S256x4x51 [1, 0, 2] (W6 (F := Ideal) m ρ c (Proc.devRef .tc main_v10) : S4x256x51.Idx → EReal) transposes_S4x256x51_S256x4x51_1_0_2 := by
  dsimp only [W7, hostOps2]
  after_results

end Cert.KernelIdeal.Chain

end
-- ==== Proof.Spec.lean ====
/-
  A dueling distributional value network on image stacks, as functions over the extended reals.

  Stage one is a 5×5 stride-5 convolution written as a product of patch rows with a weight matrix: the patch at output
  position (oh, ow) of image b is the row k ↦ x(b, k / 25, 5·oh + (k mod 25) / 5, 5·ow + k mod 5) for k < 100, filled up
  to 128 columns by a padding value; its output channel ch is max(Σ_k patch(k)·w1(k, ch) + b1(ch), 0).
  Stage two takes, for each image and each of the 9 positions pp = 3·ph + pw of a 3×3 grid, the 25·128 stage-one outputs
  of the 5×5 neighbourhood (column j = 128·(5·kh + kw) + ch is stage one at (5·ph + kh, 5·pw + kw), channel ch), applies
  a second rectified dense layer to 64 features per position, contracts the 9·64 features with a weight array into 256
  hidden units plus a bias, rectifies, and splits the hidden row into a value half and an advantage half. The value half
  gives 51 rectified value logits, the advantage half 51 rectified logits for each of 4 actions; the logits of action i
  are value + advantage_i − mean of the advantages, and the result is their softmax along the 51 atoms, computed with the
  row maximum subtracted.
  Every entry of the result depends on ONE image only (one row of every intermediate matrix), so a tiling of the batch
  into blocks of rows computes the same entries. The one place where two spellings differ is the order of the hidden
  units' sum: bias first then the nine partial sums, or zero first, the nine partial sums and the bias last; addition of
  extended reals is commutative and associative, so the two orders agree (`pre_comm`).
  The f32 words of 0, 1/4 and −∞ are kept as words: both spellings use the same words.
-/
import Idealize.ShloMosaic.PureOps.Ideal.Laws
import Idealize.ShloMosaic.Lib.ValueIdx

noncomputable section

namespace Cert.Dueling

open Idealize.ShloMosaic Idealize.ShloMosaic.ValueIdx

/-- An array of extended reals of a given shape. -/
abbrev Arr (s : Shape) : Type := s.Idx → EReal

abbrev zeroW : EReal := Ideal.ofBits .f32 0x00000000#32
abbrev quarterW : EReal := Ideal.ofBits .f32 0x3E800000#32
abbrev negInfW : EReal := Ideal.ofBits .f32 0xFF800000#32

/-! ## Stage one -/

/-- Column `k` of the patch row of image `b` at output position `(oh, ow)`: a pixel for `k < 100`, else the padding. -/
def patch (x : Arr ⟨4, ![256, 4, 84, 84]⟩) (padv : EReal) (b : Fin 256) (oh ow : Fin 16) (k : Fin 128) : EReal :=
  if h : k.val < 100 then
    x (ix4 b (⟨k.val / 25, by omega⟩ : Fin 4) (⟨oh.val * 5 + k.val % 25 / 5, by omega⟩ : Fin 84)
      (⟨ow.val * 5 + k.val % 5, by omega⟩ : Fin 84))
  else padv

/-- A rectified dense output over `K` inputs given as a row and a weight column. -/
def dense {K : ℕ} (x w : Fin K → EReal) (b : EReal) : EReal := max ((∑ k : Fin K, x k * w k) + b) zeroW

/-- Rows times weights plus a bias row, rectified: the stage-one layer as a whole-array function, any number of rows. -/
def convArr {A : ℕ} (P : Arr ⟨2, ![A, 128]⟩) (W : Arr ⟨2, ![128, 128]⟩) (b : Arr ⟨2, ![1, 128]⟩) : Arr ⟨2, ![A, 128]⟩ :=
  fun i => max ((∑ k : Fin 128, P (ix2 ⟨(i 0).val, idx2_lt0 i⟩ k) * W (ix2 k ⟨(i 1).val, idx2_lt1 i⟩))
    + b (ix2 (0 : Fin 1) ⟨(i 1).val, idx2_lt1 i⟩)) zeroW

theorem convArr_ix2 {A : ℕ} (P : Arr ⟨2, ![A, 128]⟩) (W : Arr ⟨2, ![128, 128]⟩) (b : Arr ⟨2, ![1, 128]⟩) (r : Fin A) (ch : Fin 128) :
    convArr P W b (ix2 r ch) = max ((∑ k : Fin 128, P (ix2 r k) * W (ix2 k ch)) + b (ix2 (0 : Fin 1) ch)) zeroW := rfl

/-- Stage one at image `b`, position `(oh, ow)`, channel `ch`. -/
def conv1 (x : Arr ⟨4, ![256, 4, 84, 84]⟩) (padv : EReal) (w1 : Arr ⟨2, ![128, 128]⟩) (b1 : Arr ⟨2, ![1, 128]⟩)
    (b : Fin 256) (oh ow : Fin 16) (ch : Fin 128) : EReal :=
  max ((∑ k : Fin 128, patch x padv b oh ow k * w1 (ix2 k ch)) + b1 (ix2 (0 : Fin 1) ch)) zeroW

/-- Stage two's input: position `pp = 3·ph + pw`, image `b`, column `j = 128·(5·kh + kw) + ch`. -/
def stage2In (x : Arr ⟨4, ![256, 4, 84, 84]⟩) (padv : EReal) (w1 : Arr ⟨2, ![128, 128]⟩) (b1 : Arr ⟨2, ![1, 128]⟩)
    (pp : Fin 9) (b : Fin 256) (j : Fin 3200) : EReal :=
  conv1 x padv w1 b1 b (⟨pp.val / 3 * 5 + j.val / 128 / 5, by omega⟩ : Fin 16)
    (⟨pp.val % 3 * 5 + j.val / 128 % 5, by omega⟩ : Fin 16) (⟨j.val % 128, Nat.mod_lt _ (by norm_num)⟩ : Fin 128)

/-! ## Stage two, on one image: `X p j` is the image's row of stage two's input at position `p` -/

section row

variable (X : Fin 9 → Fin 3200 → EReal)
  (w2 : Arr ⟨2, ![3200, 64]⟩) (b2 : Arr ⟨2, ![1, 64]⟩) (w0 : Arr ⟨3, ![9, 64, 256]⟩) (b0 : Arr ⟨2, ![1, 256]⟩)
  (wv : Arr ⟨2, ![128, 51]⟩) (bv : Arr ⟨2, ![1, 51]⟩) (wa : Arr ⟨3, ![4, 128, 51]⟩) (ba : Arr ⟨3, ![4, 1, 51]⟩)

/-- Feature `c` of position `p`. -/
def feat (p : Fin 9) (c : Fin 64) : EReal :=
  max ((∑ j : Fin 3200, X p j * w2 (ix2 j c)) + b2 (ix2 (0 : Fin 1) c)) zeroW

/-- Position `p`'s contribution to hidden unit `n`. -/
def part (p : Fin 9) (n : Fin 256) : EReal := ∑ c : Fin 64, feat X w2 b2 p c * w0 (ix3 p c n)

/-- The hidden pre-activation, bias first. -/
def preBiasFirst (n : Fin 256) : EReal :=
  b0 (ix2 (0 : Fin 1) n) + part X w2 b2 w0 0 n + part X w2 b2 w0 1 n + part X w2 b2 w0 2 n + part X w2 b2 w0 3 n
    + part X w2 b2 w0 4 n + part X w2 b2 w0 5 n + part X w2 b2 w0 6 n + part X w2 b2 w0 7 n + part X w2 b2 w0 8 n

/-- The hidden pre-activation, from zero, bias last. -/
def preBiasLast (n : Fin 256) : EReal :=
  zeroW + part X w2 b2 w0 0 n + part X w2 b2 w0 1 n + part X w2 b2 w0 2 n + part X w2 b2 w0 3 n
    + part X w2 b2 w0 4 n + part X w2 b2 w0 5 n + part X w2 b2 w0 6 n + part X w2 b2 w0 7 n + part X w2 b2 w0 8 n
    + b0 (ix2 (0 : Fin 1) n)

/-- The two orders agree: addition of extended reals is commutative and associative, and the zero word is 0. -/
theorem pre_comm (n : Fin 256) : preBiasLast X w2 b2 w0 b0 n = preBiasFirst X w2 b2 w0 b0 n := by
  unfold preBiasLast preBiasFirst
  rw [show zeroW = (0 : EReal) from Ideal.ofBits_zero_f32, zero_add]
  abel

end row

section tail

variable (h : Fin 256 → EReal)
  (wv : Arr ⟨2, ![128, 51]⟩) (bv : Arr ⟨2, ![1, 51]⟩) (wa : Arr ⟨3, ![4, 128, 51]⟩) (ba : Arr ⟨3, ![4, 1, 51]⟩)

/-- Value logit `z` from the first 128 hidden units. -/
def value (z : Fin 51) : EReal :=
  max ((∑ k : Fin 128, h ⟨k.val, by omega⟩ * wv (ix2 k z)) + bv (ix2 (0 : Fin 1) z)) zeroW

/-- Advantage logit `z` of action `i` from the last 128 hidden units. -/
def adv (i : Fin 4) (z : Fin 51) : EReal :=
  max ((∑ k : Fin 128, h ⟨128 + k.val, by omega⟩ * wa (ix3 i k z)) + ba (ix3 i (0 : Fin 1) z)) zeroW

/-- The mean advantage: the four advantages summed from the zero word, times the word of 1/4. -/
def advMean (z : Fin 51) : EReal :=
  (zeroW + adv h wa ba 0 z + adv h wa ba 1 z + adv h wa ba 2 z + adv h wa ba 3 z) * quarterW

/-- The dueling logit of action `i`, atom `z`. -/
def logit (i : Fin 4) (z : Fin 51) : EReal := value h wv bv z + adv h wa ba i z - advMean h wa ba z

/-- The softmax over the atoms, the row maximum (a fold from the −∞ word) subtracted first. -/
def prob (i : Fin 4) (z : Fin 51) : EReal :=
  Ideal.div
    (Ideal.exp (logit h wv bv wa ba i z
      - (Finset.univ : Finset (Fin 51)).fold max negInfW (fun z' => logit h wv bv wa ba i z')))
    (∑ z'' : Fin 51, Ideal.exp (logit h wv bv wa ba i z''
      - (Finset.univ : Finset (Fin 51)).fold max negInfW (fun z' => logit h wv bv wa ba i z')))

end tail

/-! ## Stage two on a block of `A` images, as a whole-array function of the block's input `[9, A, 3200]` -/

section arrays

variable {A : ℕ} (P2 : Arr ⟨3, ![9, A, 3200]⟩)
  (w2 : Arr ⟨2, ![3200, 64]⟩) (b2 : Arr ⟨2, ![1, 64]⟩) (w0 : Arr ⟨3, ![9, 64, 256]⟩) (b0 : Arr ⟨2, ![1, 256]⟩)
  (wv : Arr ⟨2, ![128, 51]⟩) (bv : Arr ⟨2, ![1, 51]⟩) (wa : Arr ⟨3, ![4, 128, 51]⟩) (ba : Arr ⟨3, ![4, 1, 51]⟩)

/-- The hidden row of image `r`, bias first. -/
def hidFirst (r : Fin A) (n : Fin 256) : EReal :=
  max (preBiasFirst (fun p j => P2 (ix3 p r j)) w2 b2 w0 b0 n) zeroW

/-- The hidden row of image `r`, bias last. -/
def hidLast (r : Fin A) (n : Fin 256) : EReal :=
  max (preBiasLast (fun p j => P2 (ix3 p r j)) w2 b2 w0 b0 n) zeroW

theorem hidLast_eq : hidLast P2 w2 b2 w0 b0 = hidFirst P2 w2 b2 w0 b0 := by
  funext r n; unfold hidLast hidFirst; rw [pre_comm]

/-- The result `[4, A, 51]`, hidden units summed bias first. -/
def headFirst : Arr ⟨3, ![4, A, 51]⟩ := fun i =>
  prob (hidFirst P2 w2 b2 w0 b0 ⟨(i 1).val, (i 1).isLt⟩) wv bv wa ba ⟨(i 0).val, (i 0).isLt⟩ ⟨(i 2).val, (i 2).isLt⟩

/-- The result `[4, A, 51]`, hidden units summed bias last. -/
def headLast : Arr ⟨3, ![4, A, 51]⟩ := fun i =>
  prob (hidLast P2 w2 b2 w0 b0 ⟨(i 1).val, (i 1).isLt⟩) wv bv wa ba ⟨(i 0).val, (i 0).isLt⟩ ⟨(i 2).val, (i 2).isLt⟩

theorem headFirst_ix3 (i : Fin 4) (r : Fin A) (z : Fin 51) :
    headFirst P2 w2 b2 w0 b0 wv bv wa ba (ix3 i r z) = prob (hidFirst P2 w2 b2 w0 b0 r) wv bv wa ba i z := rfl

theorem headLast_ix3 (i : Fin 4) (r : Fin A) (z : Fin 51) :
    headLast P2 w2 b2 w0 b0 wv bv wa ba (ix3 i r z) = prob (hidLast P2 w2 b2 w0 b0 r) wv bv wa ba i z := rfl

theorem headLast_eq : headLast P2 w2 b2 w0 b0 wv bv wa ba = headFirst P2 w2 b2 w0 b0 wv bv wa ba := by
  unfold headLast headFirst; rw [hidLast_eq]

end arrays

end Cert.Dueling

end
-- ==== Proof.Stage2.lean ====
/-
  The second stage's input as ONE array [9, 256, 3200] of the images, the first stage's weights and bias: entry
  (pp, b, j) is the first stage's output of image b at the position and channel that column j of neighbourhood pp
  names. Both programs build this array — one by computing the first stage on rows already ordered (neighbourhood,
  image, tap) and recasting, the other by computing it on rows ordered (image, row, column) and re-laying the result —
  so each program's second-stage input is shown equal to this array index by index, from three facts about the program:
  where its re-layout reads the first stage's result, what the first stage's result is as rows times weights, and what
  its patch rows hold.
-/
import proofs.«161365_g2000107080715666_pallasbulk_1227_2_alg».proof.Proof.Spec

noncomputable section

namespace Cert.Dueling

open Idealize.ShloMosaic Idealize.ShloMosaic.ValueIdx

/-- The second stage's input array, the padding value 0. -/
def stage2Arr (x : Arr ⟨4, ![256, 4, 84, 84]⟩) (w1 : Arr ⟨2, ![128, 128]⟩) (b1 : Arr ⟨2, ![1, 128]⟩) : Arr ⟨3, ![9, 256, 3200]⟩ :=
  fun i => stage2In x 0 w1 b1 ⟨(i 0).val, (i 0).isLt⟩ ⟨(i 1).val, (i 1).isLt⟩ ⟨(i 2).val, (i 2).isLt⟩

theorem stage2Arr_ix3 (x : Arr ⟨4, ![256, 4, 84, 84]⟩) (w1 : Arr ⟨2, ![128, 128]⟩) (b1 : Arr ⟨2, ![1, 128]⟩)
    (pp : Fin 9) (b : Fin 256) (j : Fin 3200) : stage2Arr x w1 b1 (ix3 pp b j) = stage2In x 0 w1 b1 pp b j := rfl

/-- An array `Z` that reads, at (pp, b, j), a first-stage result `convArr P w1 b1` at a row whose patch row is the
    patch of image b at the position column j names, and at channel j mod 128, is the second stage's input array. -/
theorem eq_stage2Arr {A : ℕ} (x : Arr ⟨4, ![256, 4, 84, 84]⟩) (w1 : Arr ⟨2, ![128, 128]⟩) (b1 : Arr ⟨2, ![1, 128]⟩)
    (P : Arr ⟨2, ![A, 128]⟩) (Z : Arr ⟨3, ![9, 256, 3200]⟩) (row : Fin 9 → Fin 256 → Fin 3200 → Fin A)
    (hZ : ∀ pp b j, Z (ix3 pp b j) = convArr P w1 b1 (ix2 (row pp b j) ⟨j.val % 128, Nat.mod_lt _ (by norm_num)⟩))
    (hP : ∀ pp b j (k : Fin 128), P (ix2 (row pp b j) k)
      = patch x 0 b (⟨pp.val / 3 * 5 + j.val / 128 / 5, by omega⟩ : Fin 16) (⟨pp.val % 3 * 5 + j.val / 128 % 5, by omega⟩ : Fin 16) k) :
    Z = stage2Arr x w1 b1 := by
  funext i
  obtain ⟨pp, b, j, rfl⟩ : ∃ (pp : Fin 9) (b : Fin 256) (j : Fin 3200), i = ix3 pp b j := ⟨i 0, i 1, i 2, eq_ix3 i⟩
  rw [hZ, convArr_ix2, stage2Arr_ix3]
  unfold stage2In conv1
  refine congrArg (fun s => max (s + b1 (ix2 (0 : Fin 1) _)) zeroW) ?_
  exact Finset.sum_congr rfl fun k _ => by rw [hP]

/-- The program's result [256, 4, 51]: the head's result [4, 256, 51] with its first two axes swapped. -/
def resultArr (hT : (⟨3, ![4, 256, 51]⟩ : Shape).Transposes [1, 0, 2] ⟨3, ![256, 4, 51]⟩)
    (x : Arr ⟨4, ![256, 4, 84, 84]⟩) (w1 : Arr ⟨2, ![128, 128]⟩) (b1 : Arr ⟨2, ![1, 128]⟩)
    (w2 : Arr ⟨2, ![3200, 64]⟩) (b2 : Arr ⟨2, ![1, 64]⟩) (w0 : Arr ⟨3, ![9, 64, 256]⟩) (b0 : Arr ⟨2, ![1, 256]⟩)
    (wv : Arr ⟨2, ![128, 51]⟩) (bv : Arr ⟨2, ![1, 51]⟩) (wa : Arr ⟨3, ![4, 128, 51]⟩) (ba : Arr ⟨3, ![4, 1, 51]⟩) :
    Arr ⟨3, ![256, 4, 51]⟩ :=
  transpose ⟨3, ![256, 4, 51]⟩ [1, 0, 2] (headFirst (A := 256) (stage2Arr x w1 b1) w2 b2 w0 b0 wv bv wa ba) hT

end Cert.Dueling

end
-- ==== Proof.AssembleK.lean ====
/-
  The first program's result as a function of its argument arrays. The result buffer is the transpose of the second
  region's output; that output is the head function of the region's operand arrays; the first operand is the first
  region's output recast to [9, 256, 3200], which is the second stage's input array because the first region's output
  is rows times weights plus bias, rectified, of the patch rows, and row 25·(256·pp + b) + j / 128 of the patch rows is
  the patch of image b at the position column j of neighbourhood pp names; the other operands are argument arrays (the
  two weight matrices rounded to a narrower format, which is the identity on the extended reals).
-/
import proofs.«161365_g2000107080715666_pallasbulk_1227_2_alg».proof.Proof.RunK
import proofs.«161365_g2000107080715666_pallasbulk_1227_2_alg».proof.Proof.ChainK
import proofs.«161365_g2000107080715666_pallasbulk_1227_2_alg».proof.Proof.Stage2

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Chain

variable (m : (ℓ : Loc nD τ sig) → Buf (Elt Ideal) ℓ) (ρ : Dev nD → PrngReg)

/-- The result array of core `c` as the one function of the launch contents of the argument arrays. -/
def resultOf (c : Dev nD) : S256x4x51.Idx → EReal :=
  Cert.Dueling.resultArr transposes_S4x256x51_S256x4x51_1_0_2
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The last boundary's contents of the result buffer, from the two regions' whole-array values and the two layout
    facts. -/
theorem W7_result
    (hconv : ∀ (V : (c : Dev nD) → (b : Ref sig .tc) → Buf (Elt Ideal) ((c : Thread nD τ).loc b)) (c : Dev nD),
      ((dat0 (F := Ideal) V c).arrAt 3 cfg0.N : S57600x128.Idx → EReal)
        = Cert.Dueling.convArr (A := 57600) (V c main_v5) (V c main_v6) (V c main_arg2))
    (hhead : ∀ (V : (c : Dev nD) → (b : Ref sig .tc) → Buf (Elt Ideal) ((c : Thread nD τ).loc b)) (c : Dev nD),
      ((dat1 (F := Ideal) V c).arrAt 9 cfg1.N : S4x256x51.Idx → EReal)
        = Cert.Dueling.headFirst (A := 256) (V c main_v8) (V c main_v9) (V c main_arg4) (V c main_arg5) (V c main_arg6)
            (V c main_arg7) (V c main_arg8) (V c main_arg9) (V c main_arg10))
    (hcast : ∀ (Y : S57600x128.Idx → EReal) (pp : Fin 9) (b : Fin 256) (j : Fin 3200),
      shapeCast S9x256x3200 Y shapeCasts_S57600x128_S9x256x3200 (ix3 pp b j)
        = Y (ix2 (⟨(pp.val * 256 + b.val) * 25 + j.val / 128, by omega⟩ : Fin 57600) ⟨j.val % 128, Nat.mod_lt _ (by norm_num)⟩))
    (hpatch : ∀ (x : FVec Ideal S256x4x84x84 .f32) (pp : Fin 9) (b : Fin 256) (j : Fin 3200) (k : Fin 128),
      patchesOf x (ix2 (⟨(pp.val * 256 + b.val) * 25 + j.val / 128, by omega⟩ : Fin 57600) k)
        = Cert.Dueling.patch x 0 b (⟨pp.val / 3 * 5 + j.val / 128 / 5, by omega⟩ : Fin 16)
            (⟨pp.val % 3 * 5 + j.val / 128 % 5, by omega⟩ : Fin 16) k)
    (c : Dev nD) :
    (W7 (F := Ideal) m ρ c (Proc.devRef .tc main_v11) : S256x4x51.Idx → EReal) = resultOf m c := by
  rw [W7_v11, W6_v10]
  unfold resultOf Cert.Dueling.resultArr
  refine congrArg (fun Z => transpose S256x4x51 [1, 0, 2] Z transposes_S4x256x51_S256x4x51_1_0_2) ?_
  rw [hhead (V5 m ρ) c]
  have e8 : (V5 (F := Ideal) m ρ c main_v8 : S9x256x3200.Idx → EReal)
      = Cert.Dueling.stage2Arr (m ((c : Thread nD τ).loc main_arg0)) (m ((c : Thread nD τ).loc main_arg1))
          (m ((c : Thread nD τ).loc main_arg2)) := by
    refine Cert.Dueling.eq_stage2Arr (A := 57600) _ _ _ (patchesOf (m ((c : Thread nD τ).loc main_arg0))) _
      (fun pp b j => (⟨(pp.val * 256 + b.val) * 25 + j.val / 128, by omega⟩ : Fin 57600)) (fun pp b j => ?_) (fun pp b j k => ?_)
    · show (W5 (F := Ideal) m ρ c (Proc.devRef .tc main_v8) : S9x256x3200.Idx → EReal) (ix3 pp b j) = _
      rw [W5_v8, hcast, W4_v7, hconv (V3 m ρ) c]
      show Cert.Dueling.convArr (A := 57600) (W3 (F := Ideal) m ρ c (Proc.devRef .tc main_v5) : S57600x128.Idx → EReal)
        (W3 (F := Ideal) m ρ c (Proc.devRef .tc main_v6) : S128x128.Idx → EReal)
        (W3 (F := Ideal) m ρ c (Proc.devRef .tc main_arg2)) _ = _
      rw [W3_v5, W3_v6, W3_arg2]
    · exact hpatch _ pp b j k
  have e9 : (V5 (F := Ideal) m ρ c main_v9 : S3200x64.Idx → EReal) = m ((c : Thread nD τ).loc main_arg3) := W5_v9 m ρ c
  rw [e8, e9]
  show Cert.Dueling.headFirst (A := 256) _ _ (W5 (F := Ideal) m ρ c (Proc.devRef .tc main_arg4)) (W5 (F := Ideal) m ρ c (Proc.devRef .tc main_arg5))
    (W5 (F := Ideal) m ρ c (Proc.devRef .tc main_arg6)) (W5 (F := Ideal) m ρ c (Proc.devRef .tc main_arg7)) (W5 (F := Ideal) m ρ c (Proc.devRef .tc main_arg8))
    (W5 (F := Ideal) m ρ c (Proc.devRef .tc main_arg9)) (W5 (F := Ideal) m ρ c (Proc.devRef .tc main_arg10)) = _
  rw [W5_arg4, W5_arg5, W5_arg6, W5_arg7, W5_arg8, W5_arg9, W5_arg10]

end Cert.KernelIdeal.Val

end
-- ==== Proof.RunR.lean ====
/-
  The run of the whole program with EVERY unscoped buffer of the final state named: every weakly fair execution from a
  memory with zero counters terminates without a fault, and each buffer of each core ends at the contents the fold of
  the host operations and the two regions' write-backs gives it (the last boundary's valuation). The argument arrays and
  the result array are read off this one statement.
-/
import proofs.«161365_g2000107080715666_pallasbulk_1227_2_alg».proof.Proof.Gen.ReferenceIdeal.Frame

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last boundary's valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.ReferenceIdeal.Run

end
-- ==== Proof.ChainR.lean ====
/-
  What each buffer holds at the boundaries of the program's segments, read back through the fold of the host
  operations: the first region's operand arrays as a host term of the images and as argument arrays, the second
  region's first operand as a re-laid copy of the first region's result, the result as the transpose of the second
  region's result. An argument array is written by nothing, so at every boundary it holds its launch contents.
-/
import proofs.«161365_g2000107080715666_pallasbulk_1227_2_alg».proof.Proof.Gen.ReferenceIdeal.Frame
import Idealize.ShloMosaic.Lib.StableHlo.Run
import Idealize.ShloMosaic.PureOps.Ideal
import Idealize.ShloMosaic.Lib.ValueIdx

set_option maxRecDepth 16384

noncomputable section

namespace Cert.ReferenceIdeal.Chain

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

theorem W2_arg0 (c : Dev nD) : W2 (F := Ideal) m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W2_arg1 (c : Dev nD) : W2 (F := Ideal) m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_arg2 (c : Dev nD) : W2 (F := Ideal) m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W2_arg3 (c : Dev nD) : W2 (F := Ideal) m ρ c (Proc.devRef .tc main_arg3) = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_arg3 (c : Dev nD) : W4 (F := Ideal) m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = m ((c : Thread nD τ).loc main_arg3) := W2_arg3 m ρ c

theorem W2_arg4 (c : Dev nD) : W2 (F := Ideal) m ρ c (Proc.devRef .tc main_arg4) = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_arg4 (c : Dev nD) : W4 (F := Ideal) m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = m ((c : Thread nD τ).loc main_arg4) := W2_arg4 m ρ c

theorem W2_arg5 (c : Dev nD) : W2 (F := Ideal) m ρ c (Proc.devRef .tc main_arg5) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_arg5 (c : Dev nD) : W4 (F := Ideal) m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = m ((c : Thread nD τ).loc main_arg5) := W2_arg5 m ρ c

theorem W2_arg6 (c : Dev nD) : W2 (F := Ideal) m ρ c (Proc.devRef .tc main_arg6) = m ((c : Thread nD τ).loc main_arg6) :=
  calc W2 m ρ c (Proc.devRef .tc main_arg6)
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_arg6 (c : Dev nD) : W4 (F := Ideal) m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = m ((c : Thread nD τ).loc main_arg6) := W2_arg6 m ρ c

theorem W2_arg7 (c : Dev nD) : W2 (F := Ideal) m ρ c (Proc.devRef .tc main_arg7) = m ((c : Thread nD τ).loc main_arg7) :=
  calc W2 m ρ c (Proc.devRef .tc main_arg7)
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_arg7 (c : Dev nD) : W4 (F := Ideal) m ρ c (Proc.devRef .tc main_arg7) = m ((c : Thread nD τ).loc main_arg7) :=
  calc W4 m ρ c (Proc.devRef .tc main_arg7)
    _ = W3 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := W3_of_ne m ρ c main_arg7 (by decide)
    _ = m ((c : Thread nD τ).loc main_arg7) := W2_arg7 m ρ c

theorem W2_arg8 (c : Dev nD) : W2 (F := Ideal) m ρ c (Proc.devRef .tc main_arg8) = m ((c : Thread nD τ).loc main_arg8) :=
  calc W2 m ρ c (Proc.devRef .tc main_arg8)
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_arg8 (c : Dev nD) : W4 (F := Ideal) m ρ c (Proc.devRef .tc main_arg8) = m ((c : Thread nD τ).loc main_arg8) :=
  calc W4 m ρ c (Proc.devRef .tc main_arg8)
    _ = W3 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = m ((c : Thread nD τ).loc main_arg8) := W2_arg8 m ρ c

theorem W2_arg9 (c : Dev nD) : W2 (F := Ideal) m ρ c (Proc.devRef .tc main_arg9) = m ((c : Thread nD τ).loc main_arg9) :=
  calc W2 m ρ c (Proc.devRef .tc main_arg9)
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W4_arg9 (c : Dev nD) : W4 (F := Ideal) m ρ c (Proc.devRef .tc main_arg9) = m ((c : Thread nD τ).loc main_arg9) :=
  calc W4 m ρ c (Proc.devRef .tc main_arg9)
    _ = W3 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := W3_of_ne m ρ c main_arg9 (by decide)
    _ = m ((c : Thread nD τ).loc main_arg9) := W2_arg9 m ρ c

theorem W2_arg10 (c : Dev nD) : W2 (F := Ideal) m ρ c (Proc.devRef .tc main_arg10) = m ((c : Thread nD τ).loc main_arg10) :=
  calc W2 m ρ c (Proc.devRef .tc main_arg10)
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W4_arg10 (c : Dev nD) : W4 (F := Ideal) m ρ c (Proc.devRef .tc main_arg10) = m ((c : Thread nD τ).loc main_arg10) :=
  calc W4 m ρ c (Proc.devRef .tc main_arg10)
    _ = W3 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := W3_of_ne m ρ c main_arg10 (by decide)
    _ = m ((c : Thread nD τ).loc main_arg10) := W2_arg10 m ρ c

/-- The patch rows as the host operations build them from the images: cut to 80×80, split into the 16×16 grid of 5×5
    pixel neighbourhoods, the grid axes moved next to the batch, flattened to rows of 100 pixels and filled up to 128
    columns. -/
def patchesOf (x : FVec Ideal S256x4x84x84 .f32) : FVec Ideal S65536x128 .f32 :=
  pad S65536x128 ![0, 0] ![0, 28] ![0, 0]
    (shapeCast S65536x100 (transpose S256x16x16x4x5x5 [0, 2, 4, 1, 3, 5]
      (shapeCast S256x4x16x5x16x5 (extractStridedSlice S256x4x80x80 ![0, 0, 0, 0] x slices_S256x4x84x84_S256x4x80x80_0_0_0_0)
        shapeCasts_S256x4x80x80_S256x4x16x5x16x5)
      transposes_S256x4x16x5x16x5_S256x16x16x4x5x5_0_2_4_1_3_5) shapeCasts_S256x16x16x4x5x5_S65536x100)
    (sitofp .f32 (constantI S_ 32 0#32)) pads_S65536x100_S65536x128_000_0280 h_S_

/-- The second stage's input as the host operations re-lay the first stage's result: rows as a 16×16 grid per image,
    the 15×15 corner kept, split into the 3×3 grid of 5×5 neighbourhoods, the position axes moved in front of the
    batch, each neighbourhood flattened to 3200 columns. -/
def relay (Y : FVec Ideal S65536x128 .f32) : FVec Ideal S9x256x3200 .f32 :=
  shapeCast S9x256x3200 (transpose S3x3x256x5x5x128 [1, 3, 0, 2, 4, 5]
    (shapeCast S256x3x5x3x5x128 (extractStridedSlice S256x15x15x128 ![0, 0, 0, 0]
      (shapeCast S256x16x16x128 Y shapeCasts_S65536x128_S256x16x16x128) slices_S256x16x16x128_S256x15x15x128_0_0_0_0)
      shapeCasts_S256x15x15x128_S256x3x5x3x5x128)
    transposes_S256x3x5x3x5x128_S3x3x256x5x5x128_1_3_0_2_4_5) shapeCasts_S3x3x256x5x5x128_S9x256x3200

theorem W2_v4 (c : Dev nD) :
    (W2 (F := Ideal) m ρ c (Proc.devRef .tc main_v4) : S65536x128.Idx → EReal) = patchesOf (m ((c : Thread nD τ).loc main_arg0)) := by
  dsimp only [W2, W1, W0, hostOps0, hostOps0_1]
  after_results
  rfl

theorem W4_v10 (c : Dev nD) :
    (W4 (F := Ideal) m ρ c (Proc.devRef .tc main_v10) : S9x256x3200.Idx → EReal)
      = relay (W3 (F := Ideal) m ρ c (Proc.devRef .tc main_v5) : S65536x128.Idx → EReal) := by
  dsimp only [W4, hostOps1]
  after_results
  rfl

theorem W3_v5 (c : Dev nD) : W3 (F := Ideal) m ρ c (Proc.devRef .tc main_v5) = (dat0 (V2 m ρ) c).arrAt 3 cfg0.N :=
  W3_arr m ρ c 3

theorem W5_v11 (c : Dev nD) : W5 (F := Ideal) m ρ c (Proc.devRef .tc main_v11) = (dat1 (V4 m ρ) c).arrAt 9 cfg1.N :=
  W5_arr m ρ c 9

theorem W6_v12 (c : Dev nD) :
    (W6 (F := Ideal) m ρ c (Proc.devRef .tc main_v12) : S256x4x51.Idx → EReal)
      = transpose S256x4x51 [1, 0, 2] (W5 (F := Ideal) m ρ c (Proc.devRef .tc main_v11) : S4x256x51.Idx → EReal) transposes_S4x256x51_S256x4x51_1_0_2 := by
  dsimp only [W6, hostOps2]
  after_results

end Cert.ReferenceIdeal.Chain

end
-- ==== Proof.AssembleR.lean ====
/-
  The second program's result as a function of its argument arrays. The result buffer is the transpose of the second
  region's output; that output is the head function (hidden units summed bias last) of the region's operand arrays; the
  first operand is the first region's output re-laid to [9, 256, 3200], which is the second stage's input array because
  the first region's output is rows times weights plus bias, rectified, of the patch rows, the re-layout reads row
  16·(16·b + oh) + ow for the position (oh, ow) that column j of neighbourhood pp names, and that patch row is the patch
  of image b there; the other operands are argument arrays.
-/
import proofs.«161365_g2000107080715666_pallasbulk_1227_2_alg».proof.Proof.RunR
import proofs.«161365_g2000107080715666_pallasbulk_1227_2_alg».proof.Proof.ChainR
import proofs.«161365_g2000107080715666_pallasbulk_1227_2_alg».proof.Proof.Stage2

set_option maxRecDepth 16384

noncomputable section

namespace Cert.ReferenceIdeal.Val

open Idealize.ShloMosaic Idealize.ShloMosaic.TcCoe Idealize.SL.Sem Idealize.ShloMosaic.ValueIdx
open Cert.ReferenceIdeal Cert.ReferenceIdeal.Gen Cert.ReferenceIdeal.Chain

variable (m : (ℓ : Loc nD τ sig) → Buf (Elt Ideal) ℓ) (ρ : Dev nD → PrngReg)

/-- The result array of core `c` as the one function of the launch contents of the argument arrays. -/
def resultOf (c : Dev nD) : S256x4x51.Idx → EReal :=
  Cert.Dueling.resultArr transposes_S4x256x51_S256x4x51_1_0_2
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The last boundary's contents of the result buffer, from the two regions' whole-array values and the two layout
    facts. -/
theorem W6_result
    (hconv : ∀ (V : (c : Dev nD) → (b : Ref sig .tc) → Buf (Elt Ideal) ((c : Thread nD τ).loc b)) (c : Dev nD),
      ((dat0 (F := Ideal) V c).arrAt 3 cfg0.N : S65536x128.Idx → EReal)
        = Cert.Dueling.convArr (A := 65536) (V c main_v4) (V c main_arg1) (V c main_arg2))
    (hhead : ∀ (V : (c : Dev nD) → (b : Ref sig .tc) → Buf (Elt Ideal) ((c : Thread nD τ).loc b)) (c : Dev nD),
      ((dat1 (F := Ideal) V c).arrAt 9 cfg1.N : S4x256x51.Idx → EReal)
        = Cert.Dueling.headLast (A := 256) (V c main_v10) (V c main_arg3) (V c main_arg4) (V c main_arg5) (V c main_arg6)
            (V c main_arg7) (V c main_arg8) (V c main_arg9) (V c main_arg10))
    (hrelay : ∀ (Y : S65536x128.Idx → EReal) (pp : Fin 9) (b : Fin 256) (j : Fin 3200),
      relay Y (ix3 pp b j)
        = Y (ix2 (⟨(b.val * 16 + (pp.val / 3 * 5 + j.val / 128 / 5)) * 16 + (pp.val % 3 * 5 + j.val / 128 % 5), by omega⟩ : Fin 65536)
            ⟨j.val % 128, Nat.mod_lt _ (by norm_num)⟩))
    (hpatch : ∀ (x : FVec Ideal S256x4x84x84 .f32) (pp : Fin 9) (b : Fin 256) (j : Fin 3200) (k : Fin 128),
      patchesOf x (ix2 (⟨(b.val * 16 + (pp.val / 3 * 5 + j.val / 128 / 5)) * 16 + (pp.val % 3 * 5 + j.val / 128 % 5), by omega⟩ : Fin 65536) k)
        = Cert.Dueling.patch x 0 b (⟨pp.val / 3 * 5 + j.val / 128 / 5, by omega⟩ : Fin 16)
            (⟨pp.val % 3 * 5 + j.val / 128 % 5, by omega⟩ : Fin 16) k)
    (c : Dev nD) :
    (W6 (F := Ideal) m ρ c (Proc.devRef .tc main_v12) : S256x4x51.Idx → EReal) = resultOf m c := by
  rw [W6_v12, W5_v11]
  unfold resultOf Cert.Dueling.resultArr
  refine congrArg (fun Z => transpose S256x4x51 [1, 0, 2] Z transposes_S4x256x51_S256x4x51_1_0_2) ?_
  rw [hhead (V4 m ρ) c, Cert.Dueling.headLast_eq]
  have e10 : (V4 (F := Ideal) m ρ c main_v10 : S9x256x3200.Idx → EReal)
      = Cert.Dueling.stage2Arr (m ((c : Thread nD τ).loc main_arg0)) (m ((c : Thread nD τ).loc main_arg1))
          (m ((c : Thread nD τ).loc main_arg2)) := by
    refine Cert.Dueling.eq_stage2Arr (A := 65536) _ _ _ (patchesOf (m ((c : Thread nD τ).loc main_arg0))) _
      (fun pp b j => (⟨(b.val * 16 + (pp.val / 3 * 5 + j.val / 128 / 5)) * 16 + (pp.val % 3 * 5 + j.val / 128 % 5), by omega⟩ : Fin 65536))
      (fun pp b j => ?_) (fun pp b j k => ?_)
    · show (W4 (F := Ideal) m ρ c (Proc.devRef .tc main_v10) : S9x256x3200.Idx → EReal) (ix3 pp b j) = _
      rw [W4_v10, hrelay, W3_v5, hconv (V2 m ρ) c]
      show Cert.Dueling.convArr (A := 65536) (W2 (F := Ideal) m ρ c (Proc.devRef .tc main_v4) : S65536x128.Idx → EReal)
        (W2 (F := Ideal) m ρ c (Proc.devRef .tc main_arg1)) (W2 (F := Ideal) m ρ c (Proc.devRef .tc main_arg2)) _ = _
      rw [W2_v4, W2_arg1, W2_arg2]
    · exact hpatch _ pp b j k
  rw [e10]
  show Cert.Dueling.headFirst (A := 256) _ (W4 (F := Ideal) m ρ c (Proc.devRef .tc main_arg3)) (W4 (F := Ideal) m ρ c (Proc.devRef .tc main_arg4)) (W4 (F := Ideal) m ρ c (Proc.devRef .tc main_arg5))
    (W4 (F := Ideal) m ρ c (Proc.devRef .tc main_arg6)) (W4 (F := Ideal) m ρ c (Proc.devRef .tc main_arg7)) (W4 (F := Ideal) m ρ c (Proc.devRef .tc main_arg8))
    (W4 (F := Ideal) m ρ c (Proc.devRef .tc main_arg9)) (W4 (F := Ideal) m ρ c (Proc.devRef .tc main_arg10)) = _
  rw [W4_arg3, W4_arg4, W4_arg5, W4_arg6, W4_arg7, W4_arg8, W4_arg9, W4_arg10]

end Cert.ReferenceIdeal.Val

end
-- ==== Proof.Final.lean ====
/-
  The two programs' runs side by side: each ends with its result buffer at one and the same function of the argument
  arrays' launch contents, and with the argument arrays unchanged. The hidden units are summed bias first in one
  program and bias last in the other; the two orders agree on the extended reals, so both results are stated with the
  bias-first function. The memories agree on the arguments, so the two functions' values agree.
-/
import proofs.«161365_g2000107080715666_pallasbulk_1227_2_alg».proof.Defs
import proofs.«161365_g2000107080715666_pallasbulk_1227_2_alg».proof.Proof.Gen.KernelIdeal
import proofs.«161365_g2000107080715666_pallasbulk_1227_2_alg».proof.Proof.Gen.ReferenceIdeal
import proofs.«161365_g2000107080715666_pallasbulk_1227_2_alg».proof.Proof.Gen.Pre_finite_inputs
import proofs.«161365_g2000107080715666_pallasbulk_1227_2_alg».proof.Proof.AssembleK
import proofs.«161365_g2000107080715666_pallasbulk_1227_2_alg».proof.Proof.AssembleR

set_option maxRecDepth 16384

noncomputable section

namespace Cert.Proof.Pair

open Idealize.ShloMosaic Idealize.ShloMosaic.TcCoe Idealize.SL.Sem Idealize.ShloMosaic.ValueIdx

/-- The value claim from the two regions' whole-array values and the layout facts of each program. -/
theorem algebraic_of
    (hconvK : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      ((Cert.KernelIdeal.Gen.dat0 (F := Ideal) V c).arrAt 3 Cert.KernelIdeal.cfg0.N : Cert.KernelIdeal.S57600x128.Idx → EReal)
        = Cert.Dueling.convArr (A := 57600) (V c Cert.KernelIdeal.main_v5) (V c Cert.KernelIdeal.main_v6) (V c Cert.KernelIdeal.main_arg2))
    (hheadK : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      ((Cert.KernelIdeal.Gen.dat1 (F := Ideal) V c).arrAt 9 Cert.KernelIdeal.cfg1.N : Cert.KernelIdeal.S4x256x51.Idx → EReal)
        = Cert.Dueling.headFirst (A := 256) (V c Cert.KernelIdeal.main_v8) (V c Cert.KernelIdeal.main_v9) (V c Cert.KernelIdeal.main_arg4)
            (V c Cert.KernelIdeal.main_arg5) (V c Cert.KernelIdeal.main_arg6) (V c Cert.KernelIdeal.main_arg7) (V c Cert.KernelIdeal.main_arg8)
            (V c Cert.KernelIdeal.main_arg9) (V c Cert.KernelIdeal.main_arg10))
    (hcastK : ∀ (Y : Cert.KernelIdeal.S57600x128.Idx → EReal) (pp : Fin 9) (b : Fin 256) (j : Fin 3200),
      shapeCast Cert.KernelIdeal.S9x256x3200 Y Cert.KernelIdeal.Facts₀.shapeCasts_S57600x128_S9x256x3200 (ix3 pp b j)
        = Y (ix2 (⟨(pp.val * 256 + b.val) * 25 + j.val / 128, by omega⟩ : Fin 57600) ⟨j.val % 128, Nat.mod_lt _ (by norm_num)⟩))
    (hpatchK : ∀ (x : FVec Ideal Cert.KernelIdeal.S256x4x84x84 .f32) (pp : Fin 9) (b : Fin 256) (j : Fin 3200) (k : Fin 128),
      Cert.KernelIdeal.Chain.patchesOf x (ix2 (⟨(pp.val * 256 + b.val) * 25 + j.val / 128, by omega⟩ : Fin 57600) k)
        = Cert.Dueling.patch x 0 b (⟨pp.val / 3 * 5 + j.val / 128 / 5, by omega⟩ : Fin 16)
            (⟨pp.val % 3 * 5 + j.val / 128 % 5, by omega⟩ : Fin 16) k)
    (hconvR : ∀ (V : (c : Dev Cert.ReferenceIdeal.nD) → (b : Ref Cert.ReferenceIdeal.sig .tc) → Buf (Elt Ideal) ((c : Thread Cert.ReferenceIdeal.nD Cert.ReferenceIdeal.τ).loc b)) (c : Dev Cert.ReferenceIdeal.nD),
      ((Cert.ReferenceIdeal.Gen.dat0 (F := Ideal) V c).arrAt 3 Cert.ReferenceIdeal.cfg0.N : Cert.ReferenceIdeal.S65536x128.Idx → EReal)
        = Cert.Dueling.convArr (A := 65536) (V c Cert.ReferenceIdeal.main_v4) (V c Cert.ReferenceIdeal.main_arg1) (V c Cert.ReferenceIdeal.main_arg2))
    (hheadR : ∀ (V : (c : Dev Cert.ReferenceIdeal.nD) → (b : Ref Cert.ReferenceIdeal.sig .tc) → Buf (Elt Ideal) ((c : Thread Cert.ReferenceIdeal.nD Cert.ReferenceIdeal.τ).loc b)) (c : Dev Cert.ReferenceIdeal.nD),
      ((Cert.ReferenceIdeal.Gen.dat1 (F := Ideal) V c).arrAt 9 Cert.ReferenceIdeal.cfg1.N : Cert.ReferenceIdeal.S4x256x51.Idx → EReal)
        = Cert.Dueling.headLast (A := 256) (V c Cert.ReferenceIdeal.main_v10) (V c Cert.ReferenceIdeal.main_arg3) (V c Cert.ReferenceIdeal.main_arg4)
            (V c Cert.ReferenceIdeal.main_arg5) (V c Cert.ReferenceIdeal.main_arg6) (V c Cert.ReferenceIdeal.main_arg7) (V c Cert.ReferenceIdeal.main_arg8)
            (V c Cert.ReferenceIdeal.main_arg9) (V c Cert.ReferenceIdeal.main_arg10))
    (hrelayR : ∀ (Y : Cert.ReferenceIdeal.S65536x128.Idx → EReal) (pp : Fin 9) (b : Fin 256) (j : Fin 3200),
      Cert.ReferenceIdeal.Chain.relay Y (ix3 pp b j)
        = Y (ix2 (⟨(b.val * 16 + (pp.val / 3 * 5 + j.val / 128 / 5)) * 16 + (pp.val % 3 * 5 + j.val / 128 % 5), by omega⟩ : Fin 65536)
            ⟨j.val % 128, Nat.mod_lt _ (by norm_num)⟩))
    (hpatchR : ∀ (x : FVec Ideal Cert.ReferenceIdeal.S256x4x84x84 .f32) (pp : Fin 9) (b : Fin 256) (j : Fin 3200) (k : Fin 128),
      Cert.ReferenceIdeal.Chain.patchesOf x (ix2 (⟨(b.val * 16 + (pp.val / 3 * 5 + j.val / 128 / 5)) * 16 + (pp.val % 3 * 5 + j.val / 128 % 5), by omega⟩ : Fin 65536) k)
        = Cert.Dueling.patch x 0 b (⟨pp.val / 3 * 5 + j.val / 128 / 5, by omega⟩ : Fin 16)
            (⟨pp.val % 3 * 5 + j.val / 128 % 5, by omega⟩ : Fin 16) k) :
    Cert.algebraic_KernelIdeal_ReferenceIdeal := by
  intro m ρ m' ρ' _ hagree
  refine ⟨fun c => Cert.KernelIdeal.Val.resultOf m c, ?_, ?_⟩
  · refine (θ_run (Cert.KernelIdeal.defs (F := Ideal)) _ _).mono (fun r h c => ?_) (Cert.KernelIdeal.Run.run_all (F := Ideal) m ρ)
    exact ⟨(h c _ (Cert.KernelIdeal.Gen.mem_uc Cert.KernelIdeal.main_v11 (by decide))).trans
        (Cert.KernelIdeal.Val.W7_result m ρ hconvK hheadK hcastK hpatchK c),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c),
      (h c _ (Cert.KernelIdeal.Gen.mem_uc Cert.KernelIdeal.main_arg9 (by decide))).trans (Cert.KernelIdeal.Gen.W7_main_arg9 m ρ c),
      (h c _ (Cert.KernelIdeal.Gen.mem_uc Cert.KernelIdeal.main_arg10 (by decide))).trans (Cert.KernelIdeal.Gen.W7_main_arg10 m ρ c)⟩
  · refine (θ_run (Cert.ReferenceIdeal.defs (F := Ideal)) _ _).mono (fun r h c => ?_) (Cert.ReferenceIdeal.Run.run_all (F := Ideal) m' ρ')
    have hres : Cert.ReferenceIdeal.Val.resultOf m' c = Cert.KernelIdeal.Val.resultOf m c := by
      unfold Cert.ReferenceIdeal.Val.resultOf Cert.KernelIdeal.Val.resultOf
      rw [(hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2.1,
        (hagree c).2.2.2.2.2.2.2.2.2.2]
    exact ⟨((h c _ (Cert.ReferenceIdeal.Gen.mem_uc Cert.ReferenceIdeal.main_v12 (by decide))).trans
        (Cert.ReferenceIdeal.Val.W6_result m' ρ' hconvR hheadR hrelayR hpatchR c)).trans hres,
      (h c _ (Cert.ReferenceIdeal.Gen.mem_uc Cert.ReferenceIdeal.main_arg0 (by decide))).trans (Cert.ReferenceIdeal.Gen.W6_main_arg0 m' ρ' c),
      (h c _ (Cert.ReferenceIdeal.Gen.mem_uc Cert.ReferenceIdeal.main_arg1 (by decide))).trans (Cert.ReferenceIdeal.Gen.W6_main_arg1 m' ρ' c),
      (h c _ (Cert.ReferenceIdeal.Gen.mem_uc Cert.ReferenceIdeal.main_arg2 (by decide))).trans (Cert.ReferenceIdeal.Gen.W6_main_arg2 m' ρ' c),
      (h c _ (Cert.ReferenceIdeal.Gen.mem_uc Cert.ReferenceIdeal.main_arg3 (by decide))).trans (Cert.ReferenceIdeal.Gen.W6_main_arg3 m' ρ' c),
      (h c _ (Cert.ReferenceIdeal.Gen.mem_uc Cert.ReferenceIdeal.main_arg4 (by decide))).trans (Cert.ReferenceIdeal.Gen.W6_main_arg4 m' ρ' c),
      (h c _ (Cert.ReferenceIdeal.Gen.mem_uc Cert.ReferenceIdeal.main_arg5 (by decide))).trans (Cert.ReferenceIdeal.Gen.W6_main_arg5 m' ρ' c),
      (h c _ (Cert.ReferenceIdeal.Gen.mem_uc Cert.ReferenceIdeal.main_arg6 (by decide))).trans (Cert.ReferenceIdeal.Gen.W6_main_arg6 m' ρ' c),
      (h c _ (Cert.ReferenceIdeal.Gen.mem_uc Cert.ReferenceIdeal.main_arg7 (by decide))).trans (Cert.ReferenceIdeal.Gen.W6_main_arg7 m' ρ' c),
      (h c _ (Cert.ReferenceIdeal.Gen.mem_uc Cert.ReferenceIdeal.main_arg8 (by decide))).trans (Cert.ReferenceIdeal.Gen.W6_main_arg8 m' ρ' c),
      (h c _ (Cert.ReferenceIdeal.Gen.mem_uc Cert.ReferenceIdeal.main_arg9 (by decide))).trans (Cert.ReferenceIdeal.Gen.W6_main_arg9 m' ρ' c),
      (h c _ (Cert.ReferenceIdeal.Gen.mem_uc Cert.ReferenceIdeal.main_arg10 (by decide))).trans (Cert.ReferenceIdeal.Gen.W6_main_arg10 m' ρ' c)⟩

end Cert.Proof.Pair

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibConvRows.lean ====
/-
  One rectified dense layer applied to a block of rows: a block `x0` of `B` rows of a matrix with 128 columns is multiplied
  by a 128 × 128 weight matrix `x1`, a bias row `x2` (a one-row matrix) is added to every row, and the sum is rectified
  against the f32 word of zero. Entry `(p, j)` of the block's result is
  `max (Σ_k x0(p, k) · x1(k, j) + x2(0, j)) 0`: it reads row `p` of the block only. So when the block holds the rows
  `o + p` of a matrix `P` with `A` rows, the result's row `p` is row `o + p` of the layer applied to all of `P` — a tiling
  of the rows into blocks of any height computes the same array.
-/
import Idealize.ShloMosaic.PureOps.Ideal.Laws
import Idealize.ShloMosaic.Lib.ValueIdx
import Idealize.ShloMosaic.Lib.ValueLayout
import Idealize.ShloMosaic.Lib.Pipeline.Value
import proofs.«161365_g2000107080715666_pallasbulk_1227_2_alg».proof.Proof.LibPlainDot
import proofs.«161365_g2000107080715666_pallasbulk_1227_2_alg».proof.Proof.Spec

namespace Idealize.ShloMosaic.ConvRows

open Idealize.ShloMosaic.ValueIdx Cert.Dueling

variable {A B : Nat}

/-- The offsets `(0, 0)` of a whole-block access are zero on every axis. -/
theorem hz : (![0, 0] : Fin 2 → Nat) = fun _ => 0 := funext fun a => by fin_cases a <;> rfl

/-- The block's result at `(p, j)`: the product's entry there (a sum over the 128 contracted columns), plus the bias
    row's entry `j`, rectified. The operands' formats do not matter over the extended reals. -/
theorem body_apply {φ₁ φ₂ : FTy} (x0 : FVec Ideal ⟨2, ![B, 128]⟩ φ₁) (x1 : FVec Ideal ⟨2, ![128, 128]⟩ φ₂)
    (x2 : FVec Ideal ⟨2, ![1, 128]⟩ .f32) (hb : (⟨2, ![1, 128]⟩ : Shape).Broadcasts ⟨2, ![B, 128]⟩) (p : Fin B) (j : Fin 128) :
    maximumf (addf (FloatOps.matmul (DotDims.plain B 128 128) none x0 x1 (constant ⟨2, ![B, 128]⟩ .f32 0x00000000#32))
          (broadcastTo ⟨2, ![B, 128]⟩ x2 hb))
        (broadcast ⟨2, ![B, 128]⟩ (FloatOps.ofBits (F := Ideal) .f32 0x00000000#32)) (ix2 p j)
      = max ((∑ k : Fin 128, x0 (ix2 p k) * x1 (ix2 k j)) + x2 (ix2 (0 : Fin 1) j)) zeroW := by
  refine (maximumf_apply _ _ _).trans ?_
  refine congrArg₂ max ?_ rfl
  refine (addf_apply _ _ _).trans ?_
  refine congrArg₂ (· + ·) ?_ ?_
  · exact PlainDot.matmul_apply_ix2 none x0 x1 p j
  · exact broadcastTo_1b_ab_apply x2 hb p j

/-- A block holding the rows `o + p` of `P`, with the same weights and bias row, yields row `o + p` of the whole layer. -/
theorem block_rows (P : Arr ⟨2, ![A, 128]⟩) (W : Arr ⟨2, ![128, 128]⟩) (b : Arr ⟨2, ![1, 128]⟩)
    (x0 : (⟨2, ![B, 128]⟩ : Shape).Idx → EReal) (x1 : (⟨2, ![128, 128]⟩ : Shape).Idx → EReal)
    (x2 : (⟨2, ![1, 128]⟩ : Shape).Idx → EReal) (o : Nat) (p : Fin B) (j : Fin 128) (hr : o + p.val < A)
    (h0 : ∀ k : Fin 128, x0 (ix2 p k) = P (ix2 ⟨o + p.val, hr⟩ k))
    (h1 : ∀ k : Fin 128, x1 (ix2 k j) = W (ix2 k j))
    (h2 : x2 (ix2 (0 : Fin 1) j) = b (ix2 (0 : Fin 1) j)) :
    max ((∑ k : Fin 128, x0 (ix2 p k) * x1 (ix2 k j)) + x2 (ix2 (0 : Fin 1) j)) zeroW
      = convArr P W b (ix2 ⟨o + p.val, hr⟩ j) := by
  rw [convArr_ix2, h2]
  refine congrArg₂ max (congrArg₂ (· + ·) (Finset.sum_congr rfl fun k _ => ?_) rfl) rfl
  rw [h0 k, h1 k]

end Idealize.ShloMosaic.ConvRows
-- ==== Proof.ConvK.lean ====
/-
  Stage one of the network as a whole-array function. The pipelined region walks the 57600 patch rows in 40 blocks of 1440
  rows: at grid point `t` it reads rows `1440·t … 1440·t + 1439` of the patch matrix, the whole 128 × 128 weight matrix and
  the whole bias row, and writes the same rows of the result. Entry `(p, j)` of a block's result is
  `max (Σ_k patch(1440·t + p, k) · w(k, j) + b(0, j)) 0`, which reads row `1440·t + p` of the patch matrix only; so every
  block is the restriction of ONE function of the three arrays (rows times weights plus bias, rectified), the 40 blocks
  cover all rows (row `r` lies in block `r / 1440`), and the result array after the region is that function.
-/
import proofs.«161365_g2000107080715666_pallasbulk_1227_2_alg».proof.Proof.Gen.KernelIdeal.Frame
import proofs.«161365_g2000107080715666_pallasbulk_1227_2_alg».proof.Proof.Spec
import proofs.«161365_g2000107080715666_pallasbulk_1227_2_alg».proof.Proof.LibConvRows
import Idealize.ShloMosaic.Lib.Pipeline.Value

noncomputable section

namespace Cert.KernelIdeal.ConvVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The four arrays of the region: the patch rows, the weights, the bias row, the result. -/
theorem arrRef_0 : Pipeline.arrRef spec0 0 = main_v5 := rfl
theorem arrRef_1 : Pipeline.arrRef spec0 1 = main_v6 := rfl
theorem arrRef_2 : Pipeline.arrRef spec0 2 = main_arg2 := rfl
theorem arrRef_3 : Pipeline.arrRef spec0 3 = main_v7 := rfl

/-- The layer applied to the arrays as the region finds them. -/
abbrev G (c : Dev nD) : S57600x128.Idx → EReal :=
  Cert.Dueling.convArr (A := 57600) (V c main_v5) (V c main_v6) (V c main_arg2)

/-- The body's result at `(p, j)` of its block: both casts are to the operand's own shape, the product accumulates from
    zero, and the final change of format is the identity over the extended reals. -/
theorem pay_apply (x0 : Vec Ideal S1440x128 .bf16) (x1 : Vec Ideal S128x128 .bf16) (x2 : Vec Ideal S1x128 .f32)
    (p : Fin 1440) (j : Fin 128) :
    k0_pay1 x0 x1 x2 (ix2 p j)
      = max ((∑ k : Fin 128, x0 (ix2 p k) * x1 (ix2 k j)) + x2 (ix2 (0 : Fin 1) j)) Cert.Dueling.zeroW := by
  unfold k0_pay1
  rw [shapeCast_self, shapeCast_self,
    show dot_S1440x128_S128x128_S1440x128_1_0_0_1_n_n = DotDims.plain 1440 128 128 from rfl]
  refine (truncf_apply (ψ := FTy.bf16) _ bitsLt_bf16_f32 (ix2 p j)).trans ?_
  exact ConvRows.body_apply x0 x1 x2 broadcasts_S1x128_S1440x128 p j

/-- The printed index maps, decided once over the 40 grid points: the patch rows' block and the result's block are block
    `t` along the rows and block 0 along the columns; the weights and the bias row are one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A row of a block lies inside the array: `1440·t + p < 57600` for `t < 40`, `p < 1440`. -/
theorem row_lt (t : Fin cfg0.N) (p : Fin 1440) : 1440 * t.val + p.val < 57600 := by
  have hN : cfg0.N = 40 := N_0
  have ht := t.isLt
  have hp := p.isLt
  omega

/-- The patch rows' block at point `t` holds rows `1440·t + p` of the patch matrix. -/
theorem iblk_patch (c : Dev nD) (t : Fin cfg0.N) (p : Fin 1440) (k : Fin 128) :
    (iblk0 V c 0 t : S1440x128.Idx → EReal) (ix2 p k)
      = (V c main_v5 : S57600x128.Idx → EReal) (ix2 ⟨1440 * t.val + p.val, row_lt t p⟩ k) := by
  obtain ⟨e0, e1, -⟩ := idx_facts t
  unfold iblk0
  rw [View.read_apply]
  show (V c main_v5 : S57600x128.Idx → EReal) (((cfg0.win 0).blk t).view.emb (ix2 p k)) = _
  congr 1
  funext a
  apply Fin.ext
  match a with
  | ⟨0, _⟩ => show win0_0.index t (0 : Fin 2) * 1440 + 1 * p.val = 1440 * t.val + p.val; rw [e0]; omega
  | ⟨1, _⟩ => show win0_0.index t (1 : Fin 2) * 128 + 1 * k.val = k.val; rw [e1]; omega

/-- The weights' block is the whole weight matrix. -/
theorem iblk_weights (c : Dev nD) (t : Fin cfg0.N) (k : Fin 128) (j : Fin 128) :
    (iblk0 V c 1 t : S128x128.Idx → EReal) (ix2 k j) = (V c main_v6 : S128x128.Idx → EReal) (ix2 k j) := by
  obtain ⟨-, -, e2, e3, -⟩ := idx_facts t
  unfold iblk0
  rw [View.read_apply]
  show (V c main_v6 : S128x128.Idx → EReal) (((cfg0.win 1).blk t).view.emb (ix2 k j)) = _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * j.val = j.val; rw [e3]; omega

/-- The bias row's block is the whole bias row. -/
theorem iblk_bias (c : Dev nD) (t : Fin cfg0.N) (j : Fin 128) :
    (iblk0 V c 2 t : S1x128.Idx → EReal) (ix2 (0 : Fin 1) j) = (V c main_arg2 : S1x128.Idx → EReal) (ix2 (0 : Fin 1) j) := by
  obtain ⟨-, -, -, -, e4, e5, -⟩ := idx_facts t
  unfold iblk0
  rw [View.read_apply]
  show (V c main_arg2 : S1x128.Idx → EReal) (((cfg0.win 2).blk t).view.emb (ix2 (0 : Fin 1) j)) = _
  congr 1
  funext a
  apply Fin.ext
  match a with
  | ⟨0, _⟩ => show win0_2.index t (0 : Fin 2) * 1 + 1 * 0 = 0; rw [e4]
  | ⟨1, _⟩ => show win0_2.index t (1 : Fin 2) * 128 + 1 * j.val = j.val; rw [e5]; omega

/-- Entry `(p, j)` of the result's block at point `t` sits at `(1440·t + p, j)` of the result array. -/
theorem emb_out (t : Fin cfg0.N) (p : Fin 1440) (j : Fin 128) :
    (((cfg0.win 3).blk t).view.emb (ix2 p j) : S57600x128.Idx) = ix2 ⟨1440 * t.val + p.val, row_lt t p⟩ j := by
  obtain ⟨-, -, -, -, -, -, e6, e7⟩ := idx_facts t
  funext a
  apply Fin.ext
  match a with
  | ⟨0, _⟩ => show win0_3.index t (0 : Fin 2) * 1440 + 1 * p.val = 1440 * t.val + p.val; rw [e6]; omega
  | ⟨1, _⟩ => show win0_3.index t (1 : Fin 2) * 128 + 1 * j.val = j.val; rw [e7]; omega

/-- What point `t` writes back is block `t` of the layer applied to the whole arrays. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero ConvRows.hz]
  simp only [View.ld_unit_zero (S := S1440x128) ConvRows.hz, View.ld_unit_zero (S := S128x128) ConvRows.hz,
    View.ld_unit_zero (S := S1x128) ConvRows.hz]
  funext y
  obtain ⟨p, j, rfl⟩ : ∃ (p : Fin 1440) (j : Fin 128), y = ix2 p j := ⟨y 0, y 1, eq_ix2 y⟩
  show k0_pay1 (iblk0 V c 0 t) (iblk0 V c 1 t) (iblk0 V c 2 t) (ix2 p j)
    = G V c (((cfg0.win 3).blk t).view.emb (ix2 p j))
  refine (pay_apply (iblk0 V c 0 t) (iblk0 V c 1 t) (iblk0 V c 2 t) p j).trans ?_
  rw [emb_out t p j]
  exact ConvRows.block_rows (V c main_v5) (V c main_v6) (V c main_arg2) (iblk0 V c 0 t) (iblk0 V c 1 t) (iblk0 V c 2 t)
    (1440 * t.val) p j (row_lt t p) (fun k => iblk_patch V c t p k) (fun k => iblk_weights V c t k j) (iblk_bias V c t j)

/-- An index of the result array is in point `t`'s block iff each coordinate is in the block's range on its axis. -/
theorem mem_blk (t : Fin cfg0.N) (i : S57600x128.Idx) :
    i ∈ ((cfg0.win 3).blk t).view.set ↔ ∀ a : Fin 2, win0_3.index t a * S1440x128.size a ≤ (i a).val
      ∧ (i a).val < win0_3.index t a * S1440x128.size a + S1440x128.size a := by
  show i ∈ ((View.whole main_v7).slice (win0_3.rect t)).set ↔ _
  rw [View.set_slice_whole, Rect.mem_set_unit]
  exact Iff.rfl

/-- Every index of the result array is in some point's block: row `r` is in block `r / 1440`. -/
theorem cover (i : S57600x128.Idx) :
    ∃ t : Fin cfg0.N, (cfg0.win 3).flush t = true ∧ i ∈ ((cfg0.win 3).blk t).view.set := by
  have hN : cfg0.N = 40 := N_0
  have hi0 : (i 0).val < 57600 := (i 0).isLt
  have hi1 : (i 1).val < 128 := (i 1).isLt
  have ht : (i 0).val / 1440 < cfg0.N := by rw [hN]; omega
  obtain ⟨-, -, -, -, -, -, e6, e7⟩ := idx_facts ⟨(i 0).val / 1440, ht⟩
  refine ⟨⟨(i 0).val / 1440, ht⟩, flush0_3 _, ?_⟩
  rw [mem_blk]
  intro a
  match a with
  | ⟨0, _⟩ =>
    show win0_3.index ⟨(i 0).val / 1440, ht⟩ (0 : Fin 2) * 1440 ≤ (i 0).val
      ∧ (i 0).val < win0_3.index ⟨(i 0).val / 1440, ht⟩ (0 : Fin 2) * 1440 + 1440
    rw [e6]; show (i 0).val / 1440 * 1440 ≤ (i 0).val ∧ (i 0).val < (i 0).val / 1440 * 1440 + 1440; omega
  | ⟨1, _⟩ =>
    show win0_3.index ⟨(i 0).val / 1440, ht⟩ (1 : Fin 2) * 128 ≤ (i 1).val
      ∧ (i 1).val < win0_3.index ⟨(i 0).val / 1440, ht⟩ (1 : Fin 2) * 128 + 128
    rw [e7]; omega

/-- The result array after the region is the layer applied to the patch rows, the weights and the bias row as the region
    finds them. -/
theorem conv_arr (c : Dev nD) :
    ((dat0 (F := Ideal) V c).arrAt 3 cfg0.N : S57600x128.Idx → EReal)
      = Cert.Dueling.convArr (A := 57600) (V c main_v5) (V c main_v6) (V c main_arg2) :=
  (dat0 V c).arrAt_eq_of_cover 3 (G V c) (fun t _ => flushed_eq V c t) cover

end Cert.KernelIdeal.ConvVal

end
-- ==== Proof.ConvR.lean ====
/-
  Stage one of the network as a whole-array function, for the program whose region walks 65536 patch rows in 256 blocks of
  256 rows: at grid point `t` it reads rows `256·t … 256·t + 255` of the patch matrix, the whole 128 × 128 weight matrix
  and the whole bias row, and writes the same rows of the result. Entry `(p, j)` of a block's result is
  `max (Σ_k patch(256·t + p, k) · w(k, j) + b(0, j)) 0`, which reads row `256·t + p` of the patch matrix only; so every
  block is the restriction of ONE function of the three arrays (rows times weights plus bias, rectified), the 256 blocks
  cover all rows (row `r` lies in block `r / 256`), and the result array after the region is that function.
-/
import proofs.«161365_g2000107080715666_pallasbulk_1227_2_alg».proof.Proof.Gen.ReferenceIdeal.Frame
import proofs.«161365_g2000107080715666_pallasbulk_1227_2_alg».proof.Proof.Spec
import proofs.«161365_g2000107080715666_pallasbulk_1227_2_alg».proof.Proof.LibConvRows
import Idealize.ShloMosaic.Lib.Pipeline.Value

noncomputable section

namespace Cert.ReferenceIdeal.ConvVal

open Cert.ReferenceIdeal Cert.ReferenceIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The four arrays of the region: the patch rows, the weights, the bias row, the result. -/
theorem arrRef_0 : Pipeline.arrRef spec0 0 = main_v4 := rfl
theorem arrRef_1 : Pipeline.arrRef spec0 1 = main_arg1 := rfl
theorem arrRef_2 : Pipeline.arrRef spec0 2 = main_arg2 := rfl
theorem arrRef_3 : Pipeline.arrRef spec0 3 = main_v5 := rfl

/-- The layer applied to the arrays as the region finds them. -/
abbrev G (c : Dev nD) : S65536x128.Idx → EReal :=
  Cert.Dueling.convArr (A := 65536) (V c main_v4) (V c main_arg1) (V c main_arg2)

/-- The body's result at `(p, j)` of its block: the cast is to the operand's own shape and the product accumulates from
    zero. -/
theorem pay_apply (x0 : Vec Ideal S256x128 .f32) (x1 : Vec Ideal S128x128 .f32) (x2 : Vec Ideal S1x128 .f32)
    (p : Fin 256) (j : Fin 128) :
    k0_pay1 x0 x1 x2 (ix2 p j)
      = max ((∑ k : Fin 128, x0 (ix2 p k) * x1 (ix2 k j)) + x2 (ix2 (0 : Fin 1) j)) Cert.Dueling.zeroW := by
  unfold k0_pay1
  rw [shapeCast_self,
    show dot_S256x128_S128x128_S256x128_1_0_0_1_n_n = DotDims.plain 256 128 128 from rfl]
  exact ConvRows.body_apply x0 x1 x2 broadcasts_S1x128_S256x128 p j

/-- The printed index maps, decided once over the 256 grid points: the patch rows' block and the result's block are block
    `t` along the rows and block 0 along the columns; the weights and the bias row are one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A row of a block lies inside the array: `256·t + p < 65536` for `t < 256`, `p < 256`. -/
theorem row_lt (t : Fin cfg0.N) (p : Fin 256) : 256 * t.val + p.val < 65536 := by
  have hN : cfg0.N = 256 := N_0
  have ht := t.isLt
  have hp := p.isLt
  omega

/-- The patch rows' block at point `t` holds rows `256·t + p` of the patch matrix. -/
theorem iblk_patch (c : Dev nD) (t : Fin cfg0.N) (p : Fin 256) (k : Fin 128) :
    (iblk0 V c 0 t : S256x128.Idx → EReal) (ix2 p k)
      = (V c main_v4 : S65536x128.Idx → EReal) (ix2 ⟨256 * t.val + p.val, row_lt t p⟩ k) := by
  obtain ⟨e0, e1, -⟩ := idx_facts t
  unfold iblk0
  rw [View.read_apply]
  show (V c main_v4 : S65536x128.Idx → EReal) (((cfg0.win 0).blk t).view.emb (ix2 p k)) = _
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 128 + 1 * k.val = k.val; rw [e1]; omega

/-- The weights' block is the whole weight matrix. -/
theorem iblk_weights (c : Dev nD) (t : Fin cfg0.N) (k : Fin 128) (j : Fin 128) :
    (iblk0 V c 1 t : S128x128.Idx → EReal) (ix2 k j) = (V c main_arg1 : S128x128.Idx → EReal) (ix2 k j) := by
  obtain ⟨-, -, e2, e3, -⟩ := idx_facts t
  unfold iblk0
  rw [View.read_apply]
  show (V c main_arg1 : S128x128.Idx → EReal) (((cfg0.win 1).blk t).view.emb (ix2 k j)) = _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * j.val = j.val; rw [e3]; omega

/-- The bias row's block is the whole bias row. -/
theorem iblk_bias (c : Dev nD) (t : Fin cfg0.N) (j : Fin 128) :
    (iblk0 V c 2 t : S1x128.Idx → EReal) (ix2 (0 : Fin 1) j) = (V c main_arg2 : S1x128.Idx → EReal) (ix2 (0 : Fin 1) j) := by
  obtain ⟨-, -, -, -, e4, e5, -⟩ := idx_facts t
  unfold iblk0
  rw [View.read_apply]
  show (V c main_arg2 : S1x128.Idx → EReal) (((cfg0.win 2).blk t).view.emb (ix2 (0 : Fin 1) j)) = _
  congr 1
  funext a
  apply Fin.ext
  match a with
  | ⟨0, _⟩ => show win0_2.index t (0 : Fin 2) * 1 + 1 * 0 = 0; rw [e4]
  | ⟨1, _⟩ => show win0_2.index t (1 : Fin 2) * 128 + 1 * j.val = j.val; rw [e5]; omega

/-- Entry `(p, j)` of the result's block at point `t` sits at `(256·t + p, j)` of the result array. -/
theorem emb_out (t : Fin cfg0.N) (p : Fin 256) (j : Fin 128) :
    (((cfg0.win 3).blk t).view.emb (ix2 p j) : S65536x128.Idx) = ix2 ⟨256 * t.val + p.val, row_lt t p⟩ j := by
  obtain ⟨-, -, -, -, -, -, e6, e7⟩ := idx_facts t
  funext a
  apply Fin.ext
  match a with
  | ⟨0, _⟩ => show win0_3.index t (0 : Fin 2) * 256 + 1 * p.val = 256 * t.val + p.val; rw [e6]; omega
  | ⟨1, _⟩ => show win0_3.index t (1 : Fin 2) * 128 + 1 * j.val = j.val; rw [e7]; omega

/-- What point `t` writes back is block `t` of the layer applied to the whole arrays. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero ConvRows.hz]
  simp only [View.ld_unit_zero (S := S256x128) ConvRows.hz, View.ld_unit_zero (S := S128x128) ConvRows.hz,
    View.ld_unit_zero (S := S1x128) ConvRows.hz]
  funext y
  obtain ⟨p, j, rfl⟩ : ∃ (p : Fin 256) (j : Fin 128), y = ix2 p j := ⟨y 0, y 1, eq_ix2 y⟩
  show k0_pay1 (iblk0 V c 0 t) (iblk0 V c 1 t) (iblk0 V c 2 t) (ix2 p j)
    = G V c (((cfg0.win 3).blk t).view.emb (ix2 p j))
  refine (pay_apply (iblk0 V c 0 t) (iblk0 V c 1 t) (iblk0 V c 2 t) p j).trans ?_
  rw [emb_out t p j]
  exact ConvRows.block_rows (V c main_v4) (V c main_arg1) (V c main_arg2) (iblk0 V c 0 t) (iblk0 V c 1 t) (iblk0 V c 2 t)
    (256 * t.val) p j (row_lt t p) (fun k => iblk_patch V c t p k) (fun k => iblk_weights V c t k j) (iblk_bias V c t j)

/-- An index of the result array is in point `t`'s block iff each coordinate is in the block's range on its axis. -/
theorem mem_blk (t : Fin cfg0.N) (i : S65536x128.Idx) :
    i ∈ ((cfg0.win 3).blk t).view.set ↔ ∀ a : Fin 2, win0_3.index t a * S256x128.size a ≤ (i a).val
      ∧ (i a).val < win0_3.index t a * S256x128.size a + S256x128.size a := by
  show i ∈ ((View.whole main_v5).slice (win0_3.rect t)).set ↔ _
  rw [View.set_slice_whole, Rect.mem_set_unit]
  exact Iff.rfl

/-- Every index of the result array is in some point's block: row `r` is in block `r / 256`. -/
theorem cover (i : S65536x128.Idx) :
    ∃ t : Fin cfg0.N, (cfg0.win 3).flush t = true ∧ i ∈ ((cfg0.win 3).blk t).view.set := by
  have hN : cfg0.N = 256 := N_0
  have hi0 : (i 0).val < 65536 := (i 0).isLt
  have hi1 : (i 1).val < 128 := (i 1).isLt
  have ht : (i 0).val / 256 < cfg0.N := by rw [hN]; omega
  obtain ⟨-, -, -, -, -, -, e6, e7⟩ := idx_facts ⟨(i 0).val / 256, ht⟩
  refine ⟨⟨(i 0).val / 256, ht⟩, flush0_3 _, ?_⟩
  rw [mem_blk]
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [e6]; show (i 0).val / 256 * 256 ≤ (i 0).val ∧ (i 0).val < (i 0).val / 256 * 256 + 256; omega
  | ⟨1, _⟩ =>
    show win0_3.index ⟨(i 0).val / 256, ht⟩ (1 : Fin 2) * 128 ≤ (i 1).val
      ∧ (i 1).val < win0_3.index ⟨(i 0).val / 256, ht⟩ (1 : Fin 2) * 128 + 128
    rw [e7]; omega

/-- The result array after the region is the layer applied to the patch rows, the weights and the bias row as the region
    finds them. -/
theorem conv_arr (c : Dev nD) :
    ((dat0 (F := Ideal) V c).arrAt 3 cfg0.N : S65536x128.Idx → EReal)
      = Cert.Dueling.convArr (A := 65536) (V c main_v4) (V c main_arg1) (V c main_arg2) :=
  (dat0 V c).arrAt_eq_of_cover 3 (G V c) (fun t _ => flushed_eq V c t) cover

end Cert.ReferenceIdeal.ConvVal

end
-- ==== Proof.LibMixedRadix.lean ====
/-
  Rank-8 indices by coordinates, and the row-major position of a rank-8 index as one sum of products: what a reshape
  between a flat array and an eight-axis arrangement (a 3 × 3 grid of 5 × 5 patches of 5 × 5 pixels, per image and
  channel) is read through. The rank-8 continuation of the library's `ix0` … `ix6` and `Shape.rowMajor_val_one` …
  `Shape.rowMajor_val_six`.
-/
import Idealize.ShloMosaic.Lib.ValueIdx
import Idealize.ShloMosaic.Lib.ValueIdxRank6

namespace Idealize.ShloMosaic.MixedRadix

open Idealize.ShloMosaic

/-- Rank 8: the row-major position as one sum of products (Horner form in the extents). -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun x => match x with
    | ⟨0, _⟩ => a | ⟨1, _⟩ => b | ⟨2, _⟩ => c | ⟨3, _⟩ => d | ⟨4, _⟩ => e | ⟨5, _⟩ => f | ⟨6, _⟩ => g | ⟨7, _⟩ => h

/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl
  | ⟨7, _⟩ => rfl

end Idealize.ShloMosaic.MixedRadix
-- ==== Proof.LayoutK.lean ====
/-
  The first program's host layout chains, read at an index (pure functions of arrays).

  Before stage one: the image stack [256, 4, 84, 84] is cut to 75 × 75, each spatial axis split 75 = 3 · 5 · 5 into
  (cell of the 3 × 3 grid, output position in the cell, offset in the 5 × 5 window), the axes permuted to
  (ph, pw, b, kh, kw, c, ih, iw) and flattened to the patch matrix [57600, 100], row ((3·ph + pw)·256 + b)·25 + 5·kh + kw,
  column 25·c + 5·ih + iw, narrowed and filled with the converted integer zero up to 128 columns (`patches_apply`: a row
  of it is `Cert.Dueling.patch` at output position (5·ph + kh, 5·pw + kw) with padding value 0).
  After stage one: the output [57600, 128] is viewed [9, 256, 3200] (`reshape_out_apply`).
  Every step is read at an index: a reshape by the equality of the two row-major positions (mixed-radix arithmetic), a
  permutation by its axis table, a cut at offset 0 by the same coordinates, the narrowing as the identity on extended
  reals, the filling by its column range.
-/
import Idealize.ShloMosaic.Lib.Pipeline.Value
import Idealize.ShloMosaic.Lib.ValueIdx
import Idealize.ShloMosaic.Lib.ValueIdxRank6
import Idealize.ShloMosaic.Lib.ValueLayout
import Idealize.ShloMosaic.Lib.KernelVsHost
import proofs.«161365_g2000107080715666_pallasbulk_1227_2_alg».proof.Proof.LibMixedRadix
import proofs.«161365_g2000107080715666_pallasbulk_1227_2_alg».proof.Proof.Spec

noncomputable section

namespace Cert.Dueling.LayoutK

open Idealize.ShloMosaic Idealize.ShloMosaic.ValueIdx Idealize.ShloMosaic.MixedRadix

/-- The patch matrix [57600, 128] of the 15 × 15 output positions a 3 × 3 grid of 5 × 5 neighbourhoods covers: the image
    stack cut to 75 × 75, each spatial axis split 75 = 3 · 5 · 5 into (grid cell, position in the cell, offset in the
    5 × 5 window), permuted to (ph, pw, b, kh, kw, c, ih, iw), flattened to rows ((3·ph + pw)·256 + b)·25 + 5·kh + kw and
    columns 25·c + 5·ih + iw, narrowed (the identity on extended reals) and filled from 100 to 128 columns with the
    integer zero converted. That row is the patch row of image b at output position (5·ph + kh, 5·pw + kw), the padding
    value 0. -/
theorem patches_apply (x : FVec Ideal ⟨4, ![256, 4, 84, 84]⟩ .f32)
    (hs : (⟨4, ![256, 4, 84, 84]⟩ : Shape).Slices ![0, 0, 0, 0] ⟨4, ![256, 4, 75, 75]⟩)
    (hc1 : (⟨4, ![256, 4, 75, 75]⟩ : Shape).ShapeCasts ⟨8, ![256, 4, 3, 5, 5, 3, 5, 5]⟩)
    (ht : (⟨8, ![256, 4, 3, 5, 5, 3, 5, 5]⟩ : Shape).Transposes [2, 5, 0, 3, 6, 1, 4, 7] ⟨8, ![3, 3, 256, 5, 5, 4, 5, 5]⟩)
    (hc2 : (⟨8, ![3, 3, 256, 5, 5, 4, 5, 5]⟩ : Shape).ShapeCasts ⟨2, ![57600, 100]⟩)
    (hlt : FTy.bf16.bits < FTy.f32.bits)
    (hp : (⟨2, ![57600, 100]⟩ : Shape).Pads ![0, 0] ![0, 28] ![0, 0] ⟨2, ![57600, 128]⟩)
    (hS : 0 < (⟨0, ![]⟩ : Shape).numel)
    (ph pw : Fin 3) (b : Fin 256) (kh kw : Fin 5) (k : Fin 128) :
    pad ⟨2, ![57600, 128]⟩ ![0, 0] ![0, 28] ![0, 0]
        (truncf .bf16
          (shapeCast ⟨2, ![57600, 100]⟩
            (transpose ⟨8, ![3, 3, 256, 5, 5, 4, 5, 5]⟩ [2, 5, 0, 3, 6, 1, 4, 7]
              (shapeCast ⟨8, ![256, 4, 3, 5, 5, 3, 5, 5]⟩
                (extractStridedSlice ⟨4, ![256, 4, 75, 75]⟩ ![0, 0, 0, 0] x hs) hc1) ht) hc2) hlt)
        (sitofp (F := Ideal) .bf16 (constantI ⟨0, ![]⟩ 32 0#32)) hp hS
        (ix2 (⟨((ph.val * 3 + pw.val) * 256 + b.val) * 25 + (kh.val * 5 + kw.val), by omega⟩ : Fin 57600) k)
      = Cert.Dueling.patch x 0 b (⟨ph.val * 5 + kh.val, by omega⟩ : Fin 16) (⟨pw.val * 5 + kw.val, by omega⟩ : Fin 16) k := by
  by_cases hk : k.val < 100
  · -- a pixel column: column k = 25·c + 5·ih + iw
    let c : Fin 4 := ⟨k.val / 25, by omega⟩
    let ih : Fin 5 := ⟨k.val % 25 / 5, by omega⟩
    let iw : Fin 5 := ⟨k.val % 5, by omega⟩
    refine (pad_apply_of_inside _ _ _ _ _ hp hS _
      (ix2 (⟨((ph.val * 3 + pw.val) * 256 + b.val) * 25 + (kh.val * 5 + kw.val), by omega⟩ : Fin 57600)
        (⟨k.val, hk⟩ : Fin 100)) fun a => ?_).trans ?_
    · match a with
      | ⟨0, _⟩ =>
        show ((ph.val * 3 + pw.val) * 256 + b.val) * 25 + (kh.val * 5 + kw.val)
          = 0 + (((ph.val * 3 + pw.val) * 256 + b.val) * 25 + (kh.val * 5 + kw.val)) * (0 + 1)
        omega
      | ⟨1, _⟩ => show k.val = 0 + k.val * (0 + 1); omega
    -- the narrowing is the identity on extended reals
    refine (truncf_apply _ hlt _).trans ?_
    -- the flattening: equal row-major positions
    refine (shapeCast_apply _ hc2 _ (ix8 ph pw b kh kw c ih iw) ?_).trans ?_
    · rw [rowMajor_val_eight, Shape.rowMajor_val_two]
      show ((((((ph.val * 3 + pw.val) * 256 + b.val) * 5 + kh.val) * 5 + kw.val) * 4 + k.val / 25) * 5 + k.val % 25 / 5) * 5
          + k.val % 5
        = (((ph.val * 3 + pw.val) * 256 + b.val) * 25 + (kh.val * 5 + kw.val)) * 100 + k.val
      omega
    -- the permutation: result axis a is source axis [2, 5, 0, 3, 6, 1, 4, 7][a]
    refine (transpose_apply _ _ ht _ (ix8 b c ph kh ih pw kw iw) fun a => ?_).trans ?_
    · match a with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => rfl
    -- the split of the two spatial axes 75 = 3 · 5 · 5
    refine (shapeCast_apply _ hc1 _
      (ix4 b c (⟨(ph.val * 5 + kh.val) * 5 + ih.val, by omega⟩ : Fin 75)
        (⟨(pw.val * 5 + kw.val) * 5 + iw.val, by omega⟩ : Fin 75)) ?_).trans ?_
    · rw [Shape.rowMajor_val_four, rowMajor_val_eight]
      show ((b.val * 4 + c.val) * 75 + ((ph.val * 5 + kh.val) * 5 + ih.val)) * 75 + ((pw.val * 5 + kw.val) * 5 + iw.val)
        = ((((((b.val * 4 + c.val) * 3 + ph.val) * 5 + kh.val) * 5 + ih.val) * 3 + pw.val) * 5 + kw.val) * 5 + iw.val
      ring
    -- the cut at offset 0 keeps the coordinates
    refine (extractStridedSlice_apply _ _ hs _
      (ix4 b c (⟨(ph.val * 5 + kh.val) * 5 + ih.val, by omega⟩ : Fin 84)
        (⟨(pw.val * 5 + kw.val) * 5 + iw.val, by omega⟩ : Fin 84)) fun a => ?_).trans ?_
    · match a with
      | ⟨0, _⟩ => exact (Nat.zero_add _).symm
      | ⟨1, _⟩ => exact (Nat.zero_add _).symm
      | ⟨2, _⟩ => exact (Nat.zero_add _).symm
      | ⟨3, _⟩ => exact (Nat.zero_add _).symm
    unfold Cert.Dueling.patch
    rw [dif_pos hk]
  · -- a filling column: the integer zero converted is 0
    refine (pad_apply_of_not_inside _ _ _ _ _ hp hS _ (1 : Fin 2) ?_).trans ?_
    · show ¬(0 ≤ k.val ∧ (k.val - 0) % (0 + 1) = 0 ∧ (k.val - 0) / (0 + 1) < 100)
      omega
    unfold Cert.Dueling.patch
    rw [dif_neg hk]
    show ((((0#32 : BitVec 32).toInt : ℤ) : ℝ) : EReal) = 0
    simp

variable {α : Type}

/-- The stage-one output [57600, 128] viewed as [9, 256, 3200]: row-major positions agree, so entry (pp, b, j) is row
    (256·pp + b)·25 + j / 128, column j mod 128. -/
theorem reshape_out_apply (Y : (⟨2, ![57600, 128]⟩ : Shape).Idx → α)
    (h : (⟨2, ![57600, 128]⟩ : Shape).ShapeCasts ⟨3, ![9, 256, 3200]⟩) (pp : Fin 9) (b : Fin 256) (j : Fin 3200) :
    shapeCast ⟨3, ![9, 256, 3200]⟩ Y h (ix3 pp b j)
      = Y (ix2 (⟨(pp.val * 256 + b.val) * 25 + j.val / 128, by omega⟩ : Fin 57600)
          (⟨j.val % 128, Nat.mod_lt _ (by norm_num)⟩ : Fin 128)) := by
  refine shapeCast_apply Y h _ _ ?_
  rw [Shape.rowMajor_val_two, Shape.rowMajor_val_three]
  show ((pp.val * 256 + b.val) * 25 + j.val / 128) * 128 + j.val % 128 = (pp.val * 256 + b.val) * 3200 + j.val
  omega

end Cert.Dueling.LayoutK

end
-- ==== Proof.ChainKAt.lean ====
/-
  The two host re-arrangements of the program whose first region walks 57600 patch rows, read at an index.
  The patch rows are ordered by cell `pp = 3·ph + pw` of the 3 × 3 grid first, then image `b`, then the offset
  `5·kh + kw` in the cell's 5 × 5 neighbourhood: row `(256·pp + b)·25 + 5·kh + kw` is the patch row of image `b` at output
  position `(5·ph + kh, 5·pw + kw)`, filled with 0 from column 100 on. The first stage's result `[57600, 128]` is then only
  viewed as `[9, 256, 3200]`: entry `(pp, b, j)` is row `(256·pp + b)·25 + j / 128`, column `j mod 128`. With
  `pp = 3·(pp / 3) + pp mod 3` and `j / 128 = 5·(j / 128 / 5) + j / 128 mod 5` the patch row behind entry `(pp, b, j)` is
  the one of image `b` at position `(5·(pp / 3) + j / 128 / 5, 5·(pp mod 3) + j / 128 mod 5)`.
  Both are the chains' readings at an index over literal shapes, applied to the chains as the program spells them.
-/
import proofs.«161365_g2000107080715666_pallasbulk_1227_2_alg».proof.Proof.ChainK
import proofs.«161365_g2000107080715666_pallasbulk_1227_2_alg».proof.Proof.LayoutK

noncomputable section

namespace Cert.KernelIdeal.ChainAt

open Idealize.ShloMosaic Idealize.ShloMosaic.ValueIdx
open Cert.KernelIdeal Cert.KernelIdeal.Gen

/-- The first stage's result viewed `[9, 256, 3200]`: entry `(pp, b, j)` is row `(256·pp + b)·25 + j / 128`, column
    `j mod 128` (equal row-major positions). -/
theorem cast_apply (Y : S57600x128.Idx → EReal) (pp : Fin 9) (b : Fin 256) (j : Fin 3200) :
    shapeCast S9x256x3200 Y Cert.KernelIdeal.Facts₀.shapeCasts_S57600x128_S9x256x3200 (ix3 pp b j)
      = Y (ix2 (⟨(pp.val * 256 + b.val) * 25 + j.val / 128, by omega⟩ : Fin 57600) ⟨j.val % 128, Nat.mod_lt _ (by norm_num)⟩) :=
  Cert.Dueling.LayoutK.reshape_out_apply Y _ pp b j

/-- The patch row behind entry `(pp, b, j)` of the second stage's input: image `b` at position
    `(5·(pp / 3) + j / 128 / 5, 5·(pp mod 3) + j / 128 mod 5)`. -/
theorem patches_at (x : FVec Ideal S256x4x84x84 .f32) (pp : Fin 9) (b : Fin 256) (j : Fin 3200) (k : Fin 128) :
    Cert.KernelIdeal.Chain.patchesOf x (ix2 (⟨(pp.val * 256 + b.val) * 25 + j.val / 128, by omega⟩ : Fin 57600) k)
      = Cert.Dueling.patch x 0 b (⟨pp.val / 3 * 5 + j.val / 128 / 5, by omega⟩ : Fin 16)
          (⟨pp.val % 3 * 5 + j.val / 128 % 5, by omega⟩ : Fin 16) k := by
  -- the row, with the cell and the offset split into their two digits
  have hrow : (⟨(pp.val * 256 + b.val) * 25 + j.val / 128, by omega⟩ : Fin 57600)
      = ⟨((pp.val / 3 * 3 + pp.val % 3) * 256 + b.val) * 25 + (j.val / 128 / 5 * 5 + j.val / 128 % 5), by omega⟩ :=
    Fin.ext (by
      show (pp.val * 256 + b.val) * 25 + j.val / 128
        = ((pp.val / 3 * 3 + pp.val % 3) * 256 + b.val) * 25 + (j.val / 128 / 5 * 5 + j.val / 128 % 5)
      omega)
  rw [hrow]
  unfold Cert.KernelIdeal.Chain.patchesOf
  exact Cert.Dueling.LayoutK.patches_apply x _ _ _ _ _ _ _ (⟨pp.val / 3, by omega⟩ : Fin 3) (⟨pp.val % 3, by omega⟩ : Fin 3) b
    (⟨j.val / 128 / 5, by omega⟩ : Fin 5) (⟨j.val / 128 % 5, by omega⟩ : Fin 5) k

end Cert.KernelIdeal.ChainAt

end
-- ==== Proof.LayoutR.lean ====
/-
  The second program's host layout chains, read at an index (pure functions of arrays).

  Before stage one: the image stack [256, 4, 84, 84] is cut to 80 × 80, each spatial axis split 80 = 16 · 5 into
  (output position, offset in the 5 × 5 window), the axes permuted to (b, oh, ow, c, ih, iw) and flattened to the patch
  matrix [65536, 100], row (16·b + oh)·16 + ow, column 25·c + 5·ih + iw, then filled with the converted integer zero up
  to 128 columns (`patches_apply`: a row of it is `Cert.Dueling.patch` with padding value 0).
  After stage one: the output [65536, 128] is viewed [256, 16, 16, 128], cut to 15 × 15 positions, split 15 = 3 · 5 into
  (grid cell, offset), permuted to (ph, pw, b, kh, kw, ch) and flattened to [9, 256, 3200] (`relayout_apply`).
  Every step is read at an index: a reshape by the equality of the two row-major positions (mixed-radix arithmetic), a
  permutation by its axis table, a cut at offset 0 by the same coordinates, the filling by its column range.
-/
import Idealize.ShloMosaic.Lib.Pipeline.Value
import Idealize.ShloMosaic.Lib.ValueIdx
import Idealize.ShloMosaic.Lib.ValueIdxRank6
import Idealize.ShloMosaic.Lib.ValueLayout
import Idealize.ShloMosaic.Lib.KernelVsHost
import proofs.«161365_g2000107080715666_pallasbulk_1227_2_alg».proof.Proof.Spec

noncomputable section

namespace Cert.Dueling.LayoutR

open Idealize.ShloMosaic Idealize.ShloMosaic.ValueIdx

/-- The patch matrix [65536, 128] of the 16 × 16 output positions: the image stack cut to 80 × 80, each spatial axis
    split 80 = 16 · 5 into (position, offset), permuted to (b, oh, ow, c, ih, iw), flattened to rows (16·b + oh)·16 + ow
    and columns 25·c + 5·ih + iw, and filled from 100 to 128 columns with the integer zero converted. Row
    (16·b + oh)·16 + ow is the patch row of image b at position (oh, ow), the padding value 0. -/
theorem patches_apply (x : FVec Ideal ⟨4, ![256, 4, 84, 84]⟩ .f32)
    (hs : (⟨4, ![256, 4, 84, 84]⟩ : Shape).Slices ![0, 0, 0, 0] ⟨4, ![256, 4, 80, 80]⟩)
    (hc1 : (⟨4, ![256, 4, 80, 80]⟩ : Shape).ShapeCasts ⟨6, ![256, 4, 16, 5, 16, 5]⟩)
    (ht : (⟨6, ![256, 4, 16, 5, 16, 5]⟩ : Shape).Transposes [0, 2, 4, 1, 3, 5] ⟨6, ![256, 16, 16, 4, 5, 5]⟩)
    (hc2 : (⟨6, ![256, 16, 16, 4, 5, 5]⟩ : Shape).ShapeCasts ⟨2, ![65536, 100]⟩)
    (hp : (⟨2, ![65536, 100]⟩ : Shape).Pads ![0, 0] ![0, 28] ![0, 0] ⟨2, ![65536, 128]⟩)
    (hS : 0 < (⟨0, ![]⟩ : Shape).numel)
    (b : Fin 256) (oh ow : Fin 16) (k : Fin 128) :
    pad ⟨2, ![65536, 128]⟩ ![0, 0] ![0, 28] ![0, 0]
        (shapeCast ⟨2, ![65536, 100]⟩
          (transpose ⟨6, ![256, 16, 16, 4, 5, 5]⟩ [0, 2, 4, 1, 3, 5]
            (shapeCast ⟨6, ![256, 4, 16, 5, 16, 5]⟩
              (extractStridedSlice ⟨4, ![256, 4, 80, 80]⟩ ![0, 0, 0, 0] x hs) hc1) ht) hc2)
        (sitofp (F := Ideal) .f32 (constantI ⟨0, ![]⟩ 32 0#32)) hp hS
        (ix2 (⟨(b.val * 16 + oh.val) * 16 + ow.val, by omega⟩ : Fin 65536) k)
      = Cert.Dueling.patch x 0 b oh ow k := by
  by_cases hk : k.val < 100
  · -- a pixel column: column k = 25·c + 5·ih + iw
    let c : Fin 4 := ⟨k.val / 25, by omega⟩
    let ih : Fin 5 := ⟨k.val % 25 / 5, by omega⟩
    let iw : Fin 5 := ⟨k.val % 5, by omega⟩
    refine (pad_apply_of_inside _ _ _ _ _ hp hS _
      (ix2 (⟨(b.val * 16 + oh.val) * 16 + ow.val, by omega⟩ : Fin 65536) (⟨k.val, hk⟩ : Fin 100)) fun a => ?_).trans ?_
    · match a with
      | ⟨0, _⟩ => show (b.val * 16 + oh.val) * 16 + ow.val = 0 + ((b.val * 16 + oh.val) * 16 + ow.val) * (0 + 1); omega
      | ⟨1, _⟩ => show k.val = 0 + k.val * (0 + 1); omega
    -- the flattening: equal row-major positions
    refine (shapeCast_apply _ hc2 _ (ix6 b oh ow c ih iw) ?_).trans ?_
    · rw [Shape.rowMajor_val_six, Shape.rowMajor_val_two]
      show ((((b.val * 16 + oh.val) * 16 + ow.val) * 4 + k.val / 25) * 5 + k.val % 25 / 5) * 5 + k.val % 5
        = ((b.val * 16 + oh.val) * 16 + ow.val) * 100 + k.val
      omega
    -- the permutation: result axis a is source axis [0, 2, 4, 1, 3, 5][a]
    refine (transpose_apply _ _ ht _ (ix6 b c oh ih ow iw) fun a => ?_).trans ?_
    · match a with
      | ⟨0, _⟩ => rfl
      | ⟨1, _⟩ => rfl
      | ⟨2, _⟩ => rfl
      | ⟨3, _⟩ => rfl
      | ⟨4, _⟩ => rfl
      | ⟨5, _⟩ => rfl
    -- the split of the two spatial axes 80 = 16 · 5
    refine (shapeCast_apply _ hc1 _
      (ix4 b c (⟨oh.val * 5 + ih.val, by omega⟩ : Fin 80) (⟨ow.val * 5 + iw.val, by omega⟩ : Fin 80)) ?_).trans ?_
    · rw [Shape.rowMajor_val_four, Shape.rowMajor_val_six]
      show ((b.val * 4 + c.val) * 80 + (oh.val * 5 + ih.val)) * 80 + (ow.val * 5 + iw.val)
        = ((((b.val * 4 + c.val) * 16 + oh.val) * 5 + ih.val) * 16 + ow.val) * 5 + iw.val
      ring
    -- the cut at offset 0 keeps the coordinates
    refine (extractStridedSlice_apply _ _ hs _
      (ix4 b c (⟨oh.val * 5 + ih.val, by omega⟩ : Fin 84) (⟨ow.val * 5 + iw.val, by omega⟩ : Fin 84)) fun a => ?_).trans ?_
    · match a with
      | ⟨0, _⟩ => exact (Nat.zero_add _).symm
      | ⟨1, _⟩ => exact (Nat.zero_add _).symm
      | ⟨2, _⟩ => exact (Nat.zero_add _).symm
      | ⟨3, _⟩ => exact (Nat.zero_add _).symm
    unfold Cert.Dueling.patch
    rw [dif_pos hk]
  · -- a filling column: the integer zero converted is 0
    refine (pad_apply_of_not_inside _ _ _ _ _ hp hS _ (1 : Fin 2) ?_).trans ?_
    · show ¬(0 ≤ k.val ∧ (k.val - 0) % (0 + 1) = 0 ∧ (k.val - 0) / (0 + 1) < 100)
      omega
    unfold Cert.Dueling.patch
    rw [dif_neg hk]
    show ((((0#32 : BitVec 32).toInt : ℤ) : ℝ) : EReal) = 0
    simp

variable {α : Type}

/-- The stage-one output [65536, 128] (row (16·b + oh)·16 + ow) re-laid as stage two's input [9, 256, 3200]: viewed
    [256, 16, 16, 128], cut to the 15 × 15 positions a 3 × 3 grid of 5 × 5 neighbourhoods covers, split into
    (b, ph, kh, pw, kw, ch), permuted to (ph, pw, b, kh, kw, ch) and flattened. Entry (pp, b, j) is therefore position
    (5·(pp / 3) + j / 128 / 5, 5·(pp mod 3) + j / 128 mod 5) of image b, channel j mod 128. -/
theorem relayout_apply (Y : (⟨2, ![65536, 128]⟩ : Shape).Idx → α)
    (h1 : (⟨2, ![65536, 128]⟩ : Shape).ShapeCasts ⟨4, ![256, 16, 16, 128]⟩)
    (h2 : (⟨4, ![256, 16, 16, 128]⟩ : Shape).Slices ![0, 0, 0, 0] ⟨4, ![256, 15, 15, 128]⟩)
    (h3 : (⟨4, ![256, 15, 15, 128]⟩ : Shape).ShapeCasts ⟨6, ![256, 3, 5, 3, 5, 128]⟩)
    (h4 : (⟨6, ![256, 3, 5, 3, 5, 128]⟩ : Shape).Transposes [1, 3, 0, 2, 4, 5] ⟨6, ![3, 3, 256, 5, 5, 128]⟩)
    (h5 : (⟨6, ![3, 3, 256, 5, 5, 128]⟩ : Shape).ShapeCasts ⟨3, ![9, 256, 3200]⟩)
    (pp : Fin 9) (b : Fin 256) (j : Fin 3200) :
    shapeCast ⟨3, ![9, 256, 3200]⟩
        (transpose ⟨6, ![3, 3, 256, 5, 5, 128]⟩ [1, 3, 0, 2, 4, 5]
          (shapeCast ⟨6, ![256, 3, 5, 3, 5, 128]⟩
            (extractStridedSlice ⟨4, ![256, 15, 15, 128]⟩ ![0, 0, 0, 0]
              (shapeCast ⟨4, ![256, 16, 16, 128]⟩ Y h1) h2) h3) h4) h5 (ix3 pp b j)
      = Y (ix2 (⟨(b.val * 16 + (pp.val / 3 * 5 + j.val / 128 / 5)) * 16 + (pp.val % 3 * 5 + j.val / 128 % 5), by omega⟩ : Fin 65536)
          (⟨j.val % 128, Nat.mod_lt _ (by norm_num)⟩ : Fin 128)) := by
  -- the coordinates of (pp, b, j) in the six-axis arrangement
  let ph : Fin 3 := ⟨pp.val / 3, by omega⟩
  let pw : Fin 3 := ⟨pp.val % 3, by omega⟩
  let kh : Fin 5 := ⟨j.val / 128 / 5, by omega⟩
  let kw : Fin 5 := ⟨j.val / 128 % 5, by omega⟩
  let ch : Fin 128 := ⟨j.val % 128, by omega⟩
  -- the flattening: equal row-major positions
  refine (shapeCast_apply _ h5 _ (ix6 ph pw b kh kw ch) ?_).trans ?_
  · rw [Shape.rowMajor_val_six, Shape.rowMajor_val_three]
    show ((((pp.val / 3 * 3 + pp.val % 3) * 256 + b.val) * 5 + j.val / 128 / 5) * 5 + j.val / 128 % 5) * 128 + j.val % 128
      = (pp.val * 256 + b.val) * 3200 + j.val
    omega
  -- the permutation: result axis a is source axis [1, 3, 0, 2, 4, 5][a]
  refine (transpose_apply _ _ h4 _ (ix6 b ph kh pw kw ch) fun a => ?_).trans ?_
  · match a with
    | ⟨0, _⟩ => rfl
    | ⟨1, _⟩ => rfl
    | ⟨2, _⟩ => rfl
    | ⟨3, _⟩ => rfl
    | ⟨4, _⟩ => rfl
    | ⟨5, _⟩ => rfl
  -- the split of the two spatial axes 15 = 3 · 5
  refine (shapeCast_apply _ h3 _
    (ix4 b (⟨ph.val * 5 + kh.val, by omega⟩ : Fin 15) (⟨pw.val * 5 + kw.val, by omega⟩ : Fin 15) ch) ?_).trans ?_
  · rw [Shape.rowMajor_val_four, Shape.rowMajor_val_six]
    show ((b.val * 15 + (ph.val * 5 + kh.val)) * 15 + (pw.val * 5 + kw.val)) * 128 + ch.val
      = ((((b.val * 3 + ph.val) * 5 + kh.val) * 3 + pw.val) * 5 + kw.val) * 128 + ch.val
    ring
  -- the cut at offset 0 keeps the coordinates
  refine (extractStridedSlice_apply _ _ h2 _
    (ix4 b (⟨ph.val * 5 + kh.val, by omega⟩ : Fin 16) (⟨pw.val * 5 + kw.val, by omega⟩ : Fin 16) ch) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  -- the rows viewed (b, oh, ow)
  refine shapeCast_apply _ h1 _ _ ?_
  rw [Shape.rowMajor_val_two, Shape.rowMajor_val_four]
  rfl

end Cert.Dueling.LayoutR

end
-- ==== Proof.ChainRAt.lean ====
/-
  The two host re-arrangements of the program whose first region walks 65536 patch rows, read at an index.
  The patch rows: row `(16·b + oh)·16 + ow` of the patch matrix is the patch row of image `b` at output position
  `(oh, ow)` — a pixel of the 5 × 5 window of each of the 4 channels for the first 100 columns, the value 0 for the 28
  filling columns. The second stage's input: entry `(pp, b, j)` is the first stage's result at image `b`, position
  `(5·(pp / 3) + j / 128 / 5, 5·(pp mod 3) + j / 128 mod 5)`, channel `j mod 128`, that is row
  `(16·b + row position)·16 + column position` of the first stage's result array. So the patch row that entry
  `(pp, b, j)` of the second stage's input is computed from is the patch row of image `b` at that position.
  Both are the chains' readings at an index over literal shapes, applied to the chains as the program spells them.
-/
import proofs.«161365_g2000107080715666_pallasbulk_1227_2_alg».proof.Proof.ChainR
import proofs.«161365_g2000107080715666_pallasbulk_1227_2_alg».proof.Proof.LayoutR

noncomputable section

namespace Cert.ReferenceIdeal.ChainAt

open Idealize.ShloMosaic Idealize.ShloMosaic.ValueIdx
open Cert.ReferenceIdeal Cert.ReferenceIdeal.Gen

/-- The second stage's input at `(pp, b, j)` is the first stage's result at the row of image `b` and the position that
    cell `pp` of the 3 × 3 grid and neighbourhood offset `j / 128` name, channel `j mod 128`. -/
theorem relay_apply (Y : S65536x128.Idx → EReal) (pp : Fin 9) (b : Fin 256) (j : Fin 3200) :
    Cert.ReferenceIdeal.Chain.relay Y (ix3 pp b j)
      = Y (ix2 (⟨(b.val * 16 + (pp.val / 3 * 5 + j.val / 128 / 5)) * 16 + (pp.val % 3 * 5 + j.val / 128 % 5), by omega⟩ : Fin 65536)
          ⟨j.val % 128, Nat.mod_lt _ (by norm_num)⟩) := by
  unfold Cert.ReferenceIdeal.Chain.relay
  exact Cert.Dueling.LayoutR.relayout_apply Y _ _ _ _ _ pp b j

/-- Row `(16·b + oh)·16 + ow` of the patch matrix is the patch row of image `b` at position `(oh, ow)`, filled with 0. -/
theorem patches_apply (x : FVec Ideal S256x4x84x84 .f32) (b : Fin 256) (oh ow : Fin 16) (k : Fin 128) :
    Cert.ReferenceIdeal.Chain.patchesOf x (ix2 (⟨(b.val * 16 + oh.val) * 16 + ow.val, by omega⟩ : Fin 65536) k)
      = Cert.Dueling.patch x 0 b oh ow k := by
  unfold Cert.ReferenceIdeal.Chain.patchesOf
  exact Cert.Dueling.LayoutR.patches_apply x _ _ _ _ _ _ b oh ow k

/-- The patch row behind entry `(pp, b, j)` of the second stage's input: image `b` at position
    `(5·(pp / 3) + j / 128 / 5, 5·(pp mod 3) + j / 128 mod 5)`. -/
theorem patches_at (x : FVec Ideal S256x4x84x84 .f32) (pp : Fin 9) (b : Fin 256) (j : Fin 3200) (k : Fin 128) :
    Cert.ReferenceIdeal.Chain.patchesOf x (ix2 (⟨(b.val * 16 + (pp.val / 3 * 5 + j.val / 128 / 5)) * 16 + (pp.val % 3 * 5 + j.val / 128 % 5), by omega⟩ : Fin 65536) k)
      = Cert.Dueling.patch x 0 b (⟨pp.val / 3 * 5 + j.val / 128 / 5, by omega⟩ : Fin 16)
          (⟨pp.val % 3 * 5 + j.val / 128 % 5, by omega⟩ : Fin 16) k :=
  patches_apply x b (⟨pp.val / 3 * 5 + j.val / 128 / 5, by omega⟩ : Fin 16) (⟨pp.val % 3 * 5 + j.val / 128 % 5, by omega⟩ : Fin 16) k

end Cert.ReferenceIdeal.ChainAt

end
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«161365_g2000107080715666_pallasbulk_1227_2_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.LibLastAxis.lean ====
/-
  A softmax along the LAST axis of a rank-3 array `[B, L, N]`, operation by operation, read at indices given by coordinates —
  for a kernel body (`vector.multi_reduction`, `vector.broadcast`) and for the host (`stablehlo.reduce`,
  `stablehlo.broadcast_in_dim`):
  • the maximum / the sum over the last axis at `(b, r)`: the fold of `max` from the accumulator, resp. the sum, over
    `k : Fin N` of the entries `(b, r, k)` (the host's sum adds its initial value in front);
  • the reduced `[B, L]` array kept as `[B, L, 1]` and broadcast back to `[B, L, N]` reads, at `(b, r, k)`, the entry
    `(b, r)` (kernel: a broadcast along the unit axis; host: two `broadcast_in_dim`s);
  • a rank-0 value broadcast to any shape is that value everywhere; a `[c]` vector lifted to `[1, 1, c]` and broadcast to
    `[a, b, c]` (a bias row added to every row) reads, at `(i, j, k)`, the entry `k`.
-/
import proofs.«161365_g2000107080715666_pallasbulk_1227_2_alg».proof.Proof.LibRowReduce

namespace Idealize.ShloMosaic.LastAxis

open Idealize.ShloMosaic Idealize.ShloMosaic.ValueIdx

variable {φ : FTy} {α : Type} {B L N : ℕ}

/-- The maximum over the last axis at `(b, r)`, as a kernel's `multi_reduction <maximumf>` computes it. -/
theorem multiReduction_maximumf_last3 (src : FVec Ideal ⟨3, ![B, L, N]⟩ φ) (acc : BitVec φ.bits)
    (h : (⟨3, ![B, L, N]⟩ : Shape).Reduces [2] (⟨2, ![B, L]⟩ : Shape)) (hφ : FKind.Formats φ)
    (hacc : acc = FKind.maximumf.neutral φ hφ) (b : Fin B) (r : Fin L) :
    multiReduction .maximumf [2] ⟨2, ![B, L]⟩ src acc h hφ hacc (ix2 b r)
      = (Finset.univ : Finset (Fin N)).fold max (Ideal.ofBits φ acc) (fun k => src (ix3 b r k)) := by
  rw [Ideal.multiReduction_maximumf_single]
  exact congrArg (fun f => Finset.fold max (Ideal.ofBits φ acc) f (Finset.univ : Finset (Fin N)))
    (funext fun k => congrArg src (RowReduce.lift_last3 h b r k))

/-- The sum over the last axis at `(b, r)`, as a kernel's `multi_reduction <add>` computes it. -/
theorem multiReduction_add_last3 (src : FVec Ideal ⟨3, ![B, L, N]⟩ φ) (acc : BitVec φ.bits)
    (h : (⟨3, ![B, L, N]⟩ : Shape).Reduces [2] (⟨2, ![B, L]⟩ : Shape)) (hφ : FKind.Formats φ)
    (hacc : acc = FKind.add.neutral φ hφ) (b : Fin B) (r : Fin L) :
    multiReduction .add [2] ⟨2, ![B, L]⟩ src acc h hφ hacc (ix2 b r) = ∑ k : Fin N, src (ix3 b r k) := by
  rw [Ideal.multiReduction_add_single]
  exact Finset.sum_congr rfl fun k _ => congrArg src (RowReduce.lift_last3 h b r k)

/-- The host's float sum over the last axis at `(b, r)`: the initial value plus the sum. -/
theorem hostReduceAdd_last3 {u : Shape} (x : FVec Ideal ⟨3, ![B, L, N]⟩ φ) (init : u.Idx → Ideal φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduceAdd x init h' hu (ix2 b r) = init (Shape.Idx.first hu) + ∑ k : Fin N, x (ix3 b r k) := by
  show Ideal.hostReduceAdd h' x (init (Shape.Idx.first hu)) (ix2 b r) = _
  rw [Ideal.hostReduceAdd_single h' h]
  exact congrArg (init (Shape.Idx.first hu) + ·) (Finset.sum_congr rfl fun k _ => congrArg x (RowReduce.lift_last3 h b r k))

/-- A `[B, L, 1]` array broadcast along its unit axis to `[B, L, N]` (a kernel's `vector.broadcast`) reads, at `(b, r, k)`,
    the entry `(b, r, 0)`. -/
theorem broadcastTo_ab1_abc_apply (v : (⟨3, ![B, L, 1]⟩ : Shape).Idx → α) (h : (⟨3, ![B, L, 1]⟩ : Shape).Broadcasts ⟨3, ![B, L, N]⟩)
    (b : Fin B) (r : Fin L) (k : Fin N) : broadcastTo ⟨3, ![B, L, N]⟩ v h (ix3 b r k) = v (ix3 b r (0 : Fin 1)) := by
  refine broadcastTo_apply v h (ix3 b r k) (ix3 b r (0 : Fin 1)) fun ax => ?_
  match ax with
  | ⟨0, _⟩ =>
    show b.val = if B = 1 then 0 else b.val
    split
    · have := b.isLt; omega
    · rfl
  | ⟨1, _⟩ =>
    show r.val = if L = 1 then 0 else r.val
    split
    · have := r.isLt; omega
    · rfl
  | ⟨2, _⟩ => rfl

/-- The host's lift of a `[B, L]` array to `[B, L, 1]` (`broadcast_in_dim`, dims `[0, 1]`) reads, at `(b, r, u)`, the
    entry `(b, r)`. -/
theorem broadcastInDim_ab_ab1_apply (x : (⟨2, ![B, L]⟩ : Shape).Idx → α)
    (h : (⟨2, ![B, L]⟩ : Shape).BroadcastsInDim ⟨3, ![B, L, 1]⟩ (![0, 1] : Fin 2 → Fin 3)) (b : Fin B) (r : Fin L) (u : Fin 1) :
    broadcastInDim ⟨3, ![B, L, 1]⟩ ![0, 1] h x (ix3 b r u) = x (ix2 b r) := by
  refine broadcastInDim_apply _ h x (ix3 b r u) (ix2 b r) fun ax => ?_
  match ax with
  | ⟨0, _⟩ =>
    show b.val = if B = 1 then 0 else b.val
    split
    · have := b.isLt; omega
    · rfl
  | ⟨1, _⟩ =>
    show r.val = if L = 1 then 0 else r.val
    split
    · have := r.isLt; omega
    · rfl

/-- The host's broadcast of `[B, L, 1]` to `[B, L, N]` (`broadcast_in_dim`, dims `[0, 1, 2]`) reads, at `(b, r, k)`, the
    entry `(b, r, 0)`. -/
theorem broadcastInDim_ab1_abc_apply (x : (⟨3, ![B, L, 1]⟩ : Shape).Idx → α)
    (h : (⟨3, ![B, L, 1]⟩ : Shape).BroadcastsInDim ⟨3, ![B, L, N]⟩ (![0, 1, 2] : Fin 3 → Fin 3)) (b : Fin B) (r : Fin L) (k : Fin N) :
    broadcastInDim ⟨3, ![B, L, N]⟩ ![0, 1, 2] h x (ix3 b r k) = x (ix3 b r (0 : Fin 1)) := by
  refine broadcastInDim_apply _ h x (ix3 b r k) (ix3 b r (0 : Fin 1)) fun ax => ?_
  match ax with
  | ⟨0, _⟩ =>
    show b.val = if B = 1 then 0 else b.val
    split
    · have := b.isLt; omega
    · rfl
  | ⟨1, _⟩ =>
    show r.val = if L = 1 then 0 else r.val
    split
    · have := r.isLt; omega
    · rfl
  | ⟨2, _⟩ => rfl

/-- A rank-0 value broadcast to any shape (`broadcast_in_dim`, no dims) is that value at every index. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A `[c]` vector lifted to `[1, 1, c]` (`broadcast_in_dim`, dims `[2]`) reads, at `(u, w, k)`, the entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u w : Fin 1) (k : Fin c) :
    broadcastInDim ⟨3, ![1, 1, c]⟩ ![2] h x (ix3 u w k) = x (ix1 k) := by
  refine broadcastInDim_apply _ h x (ix3 u w k) (ix1 k) fun ax => ?_
  match ax with
  | ⟨0, _⟩ =>
    show k.val = if c = 1 then 0 else k.val
    split
    · have := k.isLt; omega
    · rfl

/-- A `[1, 1, c]` row broadcast to `[a, b, c]` (`broadcast_in_dim`, dims `[0, 1, 2]`) reads, at `(i, j, k)`, the entry
    `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (i : Fin a) (j : Fin b) (k : Fin c) :
    broadcastInDim ⟨3, ![a, b, c]⟩ ![0, 1, 2] h x (ix3 i j k) = x (ix3 (0 : Fin 1) (0 : Fin 1) k) := by
  refine broadcastInDim_apply _ h x (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Idealize.ShloMosaic.LastAxis
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibTrailingUnit.lean ====
/-
  A trailing axis of extent 1 added by a shape cast.

  A sum along the last axis that keeps that axis with extent 1 (a keepdims reduction) is printed as the reduction followed
  by a cast from [a, b] to [a, b, 1], or from [a, b, c] to [a, b, c, 1]. Multiplying a row-major position by 1 and adding 0
  leaves it unchanged, so the cast reads, at (i, j, 0) or (i, j, k, 0), the operand at (i, j) or (i, j, k). Any extents.
-/
import Idealize.ShloMosaic.Lib.ValueIdx
import Idealize.ShloMosaic.Lib.Pipeline.Value

namespace Idealize.ShloMosaic.TrailingUnit

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, c] array cast to [a, b, c, 1] reads, at (i, j, k, u), the operand at (i, j, k). -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

end Idealize.ShloMosaic.TrailingUnit
-- ==== Proof.LibSoftmax.lean ====
/-
  The body of a kernel's softmax along the last axis, read at an index given by coordinates: from an array `x` and a row
  maximum `mx` kept with a trailing unit axis and broadcast back, the exponentials `exp (x − mx)`, their sum along the last axis
  (a `vector.multi_reduction <add>`, kept with a trailing unit axis and broadcast back), and the quotient. At `(b, r, k)` the
  result is `exp (x (b,r,k) − mx (b,r)) / Σ_k' exp (x (b,r,k') − mx (b,r))` — for a rank-3 array `[B, L, N]` reduced to
  `[B, L]` and for a matrix `[M, N]` reduced to `[M]`.
-/
import proofs.«161365_g2000107080715666_pallasbulk_1227_2_alg».proof.Proof.LibLastAxis
import proofs.«161365_g2000107080715666_pallasbulk_1227_2_alg».proof.Proof.LibColumn
import proofs.«161365_g2000107080715666_pallasbulk_1227_2_alg».proof.Proof.LibTrailingUnit

namespace Idealize.ShloMosaic.Softmax

open Idealize.ShloMosaic Idealize.ShloMosaic.ValueIdx

section rank3
variable {B L N : ℕ}

/-- The exponentials of a rank-3 array minus its broadcast row maxima. -/
theorem exps3_apply (x : FVec Ideal ⟨3, ![B, L, N]⟩ .f32) (mx : FVec Ideal ⟨2, ![B, L]⟩ .f32)
    (hc : (⟨2, ![B, L]⟩ : Shape).ShapeCasts ⟨3, ![B, L, 1]⟩) (hb : (⟨3, ![B, L, 1]⟩ : Shape).Broadcasts ⟨3, ![B, L, N]⟩)
    (b : Fin B) (r : Fin L) (k : Fin N) :
    exp (subf x (broadcastTo ⟨3, ![B, L, N]⟩ (shapeCast ⟨3, ![B, L, 1]⟩ mx hc) hb)) (ix3 b r k)
      = Ideal.exp (x (ix3 b r k) - mx (ix2 b r)) := by
  show Ideal.exp (x (ix3 b r k) - broadcastTo ⟨3, ![B, L, N]⟩ (shapeCast ⟨3, ![B, L, 1]⟩ mx hc) hb (ix3 b r k)) = _
  rw [LastAxis.broadcastTo_ab1_abc_apply, TrailingUnit.shapeCast_ab_ab1_apply]

/-- The quotient of the exponentials by their row sums. -/
theorem softmax3_apply (x : FVec Ideal ⟨3, ![B, L, N]⟩ .f32) (mx : FVec Ideal ⟨2, ![B, L]⟩ .f32)
    (hc : (⟨2, ![B, L]⟩ : Shape).ShapeCasts ⟨3, ![B, L, 1]⟩) (hb : (⟨3, ![B, L, 1]⟩ : Shape).Broadcasts ⟨3, ![B, L, N]⟩)
    (acc : BitVec 32) (hr : (⟨3, ![B, L, N]⟩ : Shape).Reduces [2] (⟨2, ![B, L]⟩ : Shape)) (hφ : FKind.Formats .f32)
    (hacc : acc = FKind.add.neutral .f32 hφ) (b : Fin B) (r : Fin L) (k : Fin N) :
    divf (exp (subf x (broadcastTo ⟨3, ![B, L, N]⟩ (shapeCast ⟨3, ![B, L, 1]⟩ mx hc) hb)))
        (broadcastTo ⟨3, ![B, L, N]⟩ (shapeCast ⟨3, ![B, L, 1]⟩
          (multiReduction .add [2] ⟨2, ![B, L]⟩ (exp (subf x (broadcastTo ⟨3, ![B, L, N]⟩ (shapeCast ⟨3, ![B, L, 1]⟩ mx hc) hb)))
            acc hr hφ hacc) hc) hb) (ix3 b r k)
      = Ideal.div (Ideal.exp (x (ix3 b r k) - mx (ix2 b r))) (∑ k' : Fin N, Ideal.exp (x (ix3 b r k') - mx (ix2 b r))) := by
  rw [divf_apply, LastAxis.broadcastTo_ab1_abc_apply, TrailingUnit.shapeCast_ab_ab1_apply, LastAxis.multiReduction_add_last3,
    exps3_apply]
  simp only [exps3_apply]

end rank3

section rank2
variable {M N : ℕ}

/-- The exponentials of a matrix minus its broadcast row maxima. -/
theorem exps2_apply (x : FVec Ideal ⟨2, ![M, N]⟩ .f32) (mx : FVec Ideal ⟨1, ![M]⟩ .f32)
    (hc : (⟨1, ![M]⟩ : Shape).ShapeCasts ⟨2, ![M, 1]⟩) (hb : (⟨2, ![M, 1]⟩ : Shape).Broadcasts ⟨2, ![M, N]⟩)
    (r : Fin M) (k : Fin N) :
    exp (subf x (broadcastTo ⟨2, ![M, N]⟩ (shapeCast ⟨2, ![M, 1]⟩ mx hc) hb)) (ix2 r k)
      = Ideal.exp (x (ix2 r k) - mx (ix1 r)) := by
  show Ideal.exp (x (ix2 r k) - broadcastTo ⟨2, ![M, N]⟩ (shapeCast ⟨2, ![M, 1]⟩ mx hc) hb (ix2 r k)) = _
  rw [Column.broadcastTo_a1_ab_apply, Column.shapeCast_a_a1_apply]

/-- The quotient of the exponentials by their row sums. -/
theorem softmax2_apply (x : FVec Ideal ⟨2, ![M, N]⟩ .f32) (mx : FVec Ideal ⟨1, ![M]⟩ .f32)
    (hc : (⟨1, ![M]⟩ : Shape).ShapeCasts ⟨2, ![M, 1]⟩) (hb : (⟨2, ![M, 1]⟩ : Shape).Broadcasts ⟨2, ![M, N]⟩)
    (acc : BitVec 32) (hr : (⟨2, ![M, N]⟩ : Shape).Reduces [1] (⟨1, ![M]⟩ : Shape)) (hφ : FKind.Formats .f32)
    (hacc : acc = FKind.add.neutral .f32 hφ) (r : Fin M) (k : Fin N) :
    divf (exp (subf x (broadcastTo ⟨2, ![M, N]⟩ (shapeCast ⟨2, ![M, 1]⟩ mx hc) hb)))
        (broadcastTo ⟨2, ![M, N]⟩ (shapeCast ⟨2, ![M, 1]⟩
          (multiReduction .add [1] ⟨1, ![M]⟩ (exp (subf x (broadcastTo ⟨2, ![M, N]⟩ (shapeCast ⟨2, ![M, 1]⟩ mx hc) hb)))
            acc hr hφ hacc) hc) hb) (ix2 r k)
      = Ideal.div (Ideal.exp (x (ix2 r k) - mx (ix1 r))) (∑ k' : Fin N, Ideal.exp (x (ix2 r k') - mx (ix1 r))) := by
  rw [divf_apply, Column.broadcastTo_a1_ab_apply, Column.shapeCast_a_a1_apply, RowReduce.multiReduction_add_cols, exps2_apply]
  simp only [exps2_apply]

end rank2

end Idealize.ShloMosaic.Softmax
-- ==== Proof.LibDuelTail.lean ====
/-
  The tail of a dueling distributional head on a block of `A` rows, read at indices given by coordinates, over the
  extended reals. From a hidden activation `[A, 256]`: its two halves of 128 columns; a rectified dense layer of 51
  outputs from a half (a product into a zero accumulator, plus a bias row repeated down the rows, maximum with the zero
  word); the mean of four such layers (summed from the zero word, times the word of 1/4); the dueling logit
  `value + advantage − mean`; the row maximum as a fold of `max` from the −∞ word; the softmax along the 51 atoms with the
  row maximum subtracted; and the cast of the `[A, 51]` result to a `[1, A, 51]` slab. Every entry of row `r` of every
  stage reads row `r` of the hidden activation only. Each lemma reads ONE group of operations; the last theorems join them:
  a block whose value and advantage layers are, on row `r`, the specification's `value` and `adv` of that row has, on row
  `r`, the specification's `prob`.
-/
import Idealize.ShloMosaic.PureOps.Ideal.Laws
import Idealize.ShloMosaic.Lib.ValueIdx
import Idealize.ShloMosaic.Lib.ValueLayout
import Idealize.ShloMosaic.Lib.Pipeline.Value
import proofs.«161365_g2000107080715666_pallasbulk_1227_2_alg».proof.Proof.Spec
import proofs.«161365_g2000107080715666_pallasbulk_1227_2_alg».proof.Proof.LibPlainDot
import proofs.«161365_g2000107080715666_pallasbulk_1227_2_alg».proof.Proof.LibRowReduce
import proofs.«161365_g2000107080715666_pallasbulk_1227_2_alg».proof.Proof.LibSoftmax

noncomputable section

namespace Cert.Dueling.Tail

open Idealize.ShloMosaic Idealize.ShloMosaic.ValueIdx

variable {A : ℕ}

/-! ## The two halves of the hidden activation -/

/-- The first 128 columns: entry `(r, k)` is the activation's `(r, k)`. -/
theorem half_lo_apply (h : FVec Ideal ⟨2, ![A, 256]⟩ .f32)
    (hs : (⟨2, ![A, 256]⟩ : Shape).Slices ![0, 0] ⟨2, ![A, 128]⟩) (r : Fin A) (k : Fin 128) :
    extractStridedSlice ⟨2, ![A, 128]⟩ ![0, 0] h hs (ix2 r k) = h (ix2 r (⟨k.val, by omega⟩ : Fin 256)) :=
  slice2_axis1_apply 0 h hs r k (⟨k.val, by omega⟩ : Fin 256) (Nat.zero_add _).symm

/-- The last 128 columns: entry `(r, k)` is the activation's `(r, 128 + k)`. -/
theorem half_hi_apply (h : FVec Ideal ⟨2, ![A, 256]⟩ .f32)
    (hs : (⟨2, ![A, 256]⟩ : Shape).Slices ![0, 128] ⟨2, ![A, 128]⟩) (r : Fin A) (k : Fin 128) :
    extractStridedSlice ⟨2, ![A, 128]⟩ ![0, 128] h hs (ix2 r k) = h (ix2 r (⟨128 + k.val, by omega⟩ : Fin 256)) :=
  slice2_axis1_apply 128 h hs r k (⟨128 + k.val, by omega⟩ : Fin 256) rfl

/-! ## A rectified dense layer of a half -/

/-- A `[1, 128, 51]` weight slab cast to the matrix `[128, 51]`. -/
theorem wcast_apply (w3 : FVec Ideal ⟨3, ![1, 128, 51]⟩ .f32)
    (hw : (⟨3, ![1, 128, 51]⟩ : Shape).ShapeCasts ⟨2, ![128, 51]⟩) (k : Fin 128) (z : Fin 51) :
    shapeCast ⟨2, ![128, 51]⟩ w3 hw (ix2 k z) = w3 (ix3 (0 : Fin 1) k z) :=
  ValueIdx.shapeCast_1ab_ab_apply w3 hw k z

/-- A `[1, 1, 51]` bias slab cast to the row `[1, 51]`. -/
theorem bcast_apply (b3 : FVec Ideal ⟨3, ![1, 1, 51]⟩ .f32)
    (hc : (⟨3, ![1, 1, 51]⟩ : Shape).ShapeCasts ⟨2, ![1, 51]⟩) (u : Fin 1) (z : Fin 51) :
    shapeCast ⟨2, ![1, 51]⟩ b3 hc (ix2 u z) = b3 (ix3 (0 : Fin 1) (0 : Fin 1) z) := by
  have hu : u = (0 : Fin 1) := Subsingleton.elim _ _
  subst hu
  exact ValueIdx.shapeCast_1ab_ab_apply b3 hc (0 : Fin 1) z

/-- A bias row repeated down the rows, added, and the sum rectified against the zero word, at `(r, z)`. -/
theorem biasRelu_apply {N : ℕ} (m : FVec Ideal ⟨2, ![A, N]⟩ .f32) (b : FVec Ideal ⟨2, ![1, N]⟩ .f32)
    (hb : (⟨2, ![1, N]⟩ : Shape).Broadcasts ⟨2, ![A, N]⟩) (r : Fin A) (z : Fin N) :
    maximumf (addf m (broadcastTo ⟨2, ![A, N]⟩ b hb))
        (broadcast ⟨2, ![A, N]⟩ (Scalar.ofBits (F := Ideal) .f32 0x00000000#32)) (ix2 r z)
      = max (m (ix2 r z) + b (ix2 (0 : Fin 1) z)) zeroW := by
  refine (maximumf_apply _ _ _).trans ?_
  refine congrArg₂ max ?_ rfl
  refine (addf_apply _ _ _).trans ?_
  exact congrArg (m (ix2 r z) + ·) (broadcastTo_1b_ab_apply b hb r z)

/-- The same with the bias a `[1, 1, N]`… slab of 51 columns cast to a row first. -/
theorem biasRelu_bcast_apply (m : FVec Ideal ⟨2, ![A, 51]⟩ .f32) (b3 : FVec Ideal ⟨3, ![1, 1, 51]⟩ .f32)
    (hc : (⟨3, ![1, 1, 51]⟩ : Shape).ShapeCasts ⟨2, ![1, 51]⟩)
    (hb : (⟨2, ![1, 51]⟩ : Shape).Broadcasts ⟨2, ![A, 51]⟩) (r : Fin A) (z : Fin 51) :
    maximumf (addf m (broadcastTo ⟨2, ![A, 51]⟩ (shapeCast ⟨2, ![1, 51]⟩ b3 hc) hb))
        (broadcast ⟨2, ![A, 51]⟩ (Scalar.ofBits (F := Ideal) .f32 0x00000000#32)) (ix2 r z)
      = max (m (ix2 r z) + b3 (ix3 (0 : Fin 1) (0 : Fin 1) z)) zeroW :=
  (biasRelu_apply m (shapeCast ⟨2, ![1, 51]⟩ b3 hc) hb r z).trans
    (congrArg (fun t => max (m (ix2 r z) + t) zeroW) (bcast_apply b3 hc 0 z))

/-- The product of a half with a weight matrix into the zero accumulator, at `(r, z)`. -/
theorem prod_apply (prec : Option ContractPrecision) (hv : FVec Ideal ⟨2, ![A, 128]⟩ .f32)
    (w : FVec Ideal ⟨2, ![128, 51]⟩ .f32) (r : Fin A) (z : Fin 51) :
    FloatOps.matmul (DotDims.plain A 128 51) prec hv w (constant ⟨2, ![A, 51]⟩ .f32 0x00000000#32) (ix2 r z)
      = ∑ k : Fin 128, hv (ix2 r k) * w (ix2 k z) :=
  PlainDot.matmul_apply_ix2 prec hv w r z

/-- The same with the weights a `[1, 128, 51]` slab cast to a matrix first. -/
theorem prod_wcast_apply (prec : Option ContractPrecision) (hv : FVec Ideal ⟨2, ![A, 128]⟩ .f32)
    (w3 : FVec Ideal ⟨3, ![1, 128, 51]⟩ .f32) (hw : (⟨3, ![1, 128, 51]⟩ : Shape).ShapeCasts ⟨2, ![128, 51]⟩)
    (r : Fin A) (z : Fin 51) :
    FloatOps.matmul (DotDims.plain A 128 51) prec hv (shapeCast ⟨2, ![128, 51]⟩ w3 hw)
        (constant ⟨2, ![A, 51]⟩ .f32 0x00000000#32) (ix2 r z)
      = ∑ k : Fin 128, hv (ix2 r k) * w3 (ix3 (0 : Fin 1) k z) :=
  (prod_apply prec hv (shapeCast ⟨2, ![128, 51]⟩ w3 hw) r z).trans
    (Finset.sum_congr rfl fun k _ => congrArg (hv (ix2 r k) * ·) (wcast_apply w3 hw k z))

/-- A rectified dense layer, weights a matrix and bias a row, at `(r, z)`. -/
theorem dense_apply (prec : Option ContractPrecision) (hv : FVec Ideal ⟨2, ![A, 128]⟩ .f32)
    (w : FVec Ideal ⟨2, ![128, 51]⟩ .f32) (b : FVec Ideal ⟨2, ![1, 51]⟩ .f32)
    (hb : (⟨2, ![1, 51]⟩ : Shape).Broadcasts ⟨2, ![A, 51]⟩) (r : Fin A) (z : Fin 51) :
    maximumf (addf (FloatOps.matmul (DotDims.plain A 128 51) prec hv w (constant ⟨2, ![A, 51]⟩ .f32 0x00000000#32))
          (broadcastTo ⟨2, ![A, 51]⟩ b hb))
        (broadcast ⟨2, ![A, 51]⟩ (Scalar.ofBits (F := Ideal) .f32 0x00000000#32)) (ix2 r z)
      = max ((∑ k : Fin 128, hv (ix2 r k) * w (ix2 k z)) + b (ix2 (0 : Fin 1) z)) zeroW :=
  (biasRelu_apply _ b hb r z).trans
    (congrArg (fun t => max (t + b (ix2 (0 : Fin 1) z)) zeroW) (prod_apply prec hv w r z))

/-- A rectified dense layer, weights a matrix and bias a `[1, 1, 51]` slab cast to a row, at `(r, z)`. -/
theorem dense_bcast_apply (prec : Option ContractPrecision) (hv : FVec Ideal ⟨2, ![A, 128]⟩ .f32)
    (w : FVec Ideal ⟨2, ![128, 51]⟩ .f32) (b3 : FVec Ideal ⟨3, ![1, 1, 51]⟩ .f32)
    (hc : (⟨3, ![1, 1, 51]⟩ : Shape).ShapeCasts ⟨2, ![1, 51]⟩)
    (hb : (⟨2, ![1, 51]⟩ : Shape).Broadcasts ⟨2, ![A, 51]⟩) (r : Fin A) (z : Fin 51) :
    maximumf (addf (FloatOps.matmul (DotDims.plain A 128 51) prec hv w (constant ⟨2, ![A, 51]⟩ .f32 0x00000000#32))
          (broadcastTo ⟨2, ![A, 51]⟩ (shapeCast ⟨2, ![1, 51]⟩ b3 hc) hb))
        (broadcast ⟨2, ![A, 51]⟩ (Scalar.ofBits (F := Ideal) .f32 0x00000000#32)) (ix2 r z)
      = max ((∑ k : Fin 128, hv (ix2 r k) * w (ix2 k z)) + b3 (ix3 (0 : Fin 1) (0 : Fin 1) z)) zeroW :=
  (biasRelu_bcast_apply _ b3 hc hb r z).trans
    (congrArg (fun t => max (t + b3 (ix3 (0 : Fin 1) (0 : Fin 1) z)) zeroW) (prod_apply prec hv w r z))

/-- A rectified dense layer, weights a `[1, 128, 51]` slab and bias a `[1, 1, 51]` slab, both cast first, at `(r, z)`. -/
theorem dense_cast_apply (prec : Option ContractPrecision) (hv : FVec Ideal ⟨2, ![A, 128]⟩ .f32)
    (w3 : FVec Ideal ⟨3, ![1, 128, 51]⟩ .f32) (b3 : FVec Ideal ⟨3, ![1, 1, 51]⟩ .f32)
    (hw : (⟨3, ![1, 128, 51]⟩ : Shape).ShapeCasts ⟨2, ![128, 51]⟩)
    (hc : (⟨3, ![1, 1, 51]⟩ : Shape).ShapeCasts ⟨2, ![1, 51]⟩)
    (hb : (⟨2, ![1, 51]⟩ : Shape).Broadcasts ⟨2, ![A, 51]⟩) (r : Fin A) (z : Fin 51) :
    maximumf (addf (FloatOps.matmul (DotDims.plain A 128 51) prec hv (shapeCast ⟨2, ![128, 51]⟩ w3 hw)
            (constant ⟨2, ![A, 51]⟩ .f32 0x00000000#32))
          (broadcastTo ⟨2, ![A, 51]⟩ (shapeCast ⟨2, ![1, 51]⟩ b3 hc) hb))
        (broadcast ⟨2, ![A, 51]⟩ (Scalar.ofBits (F := Ideal) .f32 0x00000000#32)) (ix2 r z)
      = max ((∑ k : Fin 128, hv (ix2 r k) * w3 (ix3 (0 : Fin 1) k z)) + b3 (ix3 (0 : Fin 1) (0 : Fin 1) z)) zeroW :=
  (biasRelu_bcast_apply _ b3 hc hb r z).trans
    (congrArg (fun t => max (t + b3 (ix3 (0 : Fin 1) (0 : Fin 1) z)) zeroW) (prod_wcast_apply prec hv w3 hw r z))

/-! ## The mean of the advantages and the dueling logit (pointwise, any shape) -/

/-- Four arrays summed from the zero word, times the word of 1/4, at an index. -/
theorem mean_apply {s : Shape} (a0 a1 a2 a3 : FVec Ideal s .f32) (i : s.Idx) :
    mulf (addf (addf (addf (addf (broadcast s (Scalar.ofBits (F := Ideal) .f32 0x00000000#32)) a0) a1) a2) a3)
        (broadcast s (Scalar.ofBits (F := Ideal) .f32 0x3E800000#32)) i
      = (zeroW + a0 i + a1 i + a2 i + a3 i) * quarterW := rfl

/-- Value plus advantage minus mean, at an index. -/
theorem logit_apply {s : Shape} (v a m : FVec Ideal s .f32) (i : s.Idx) : subf (addf v a) m i = v i + a i - m i := rfl

/-! ## The softmax along the atoms -/

/-- The row maximum from the −∞ word, at row `r`: the fold of `max` over the row's entries. -/
theorem rowmax_apply {N : ℕ} (q : FVec Ideal ⟨2, ![A, N]⟩ .f32)
    (hr : (⟨2, ![A, N]⟩ : Shape).Reduces [1] (⟨1, ![A]⟩ : Shape)) (hφ : FKind.Formats .f32)
    (hacc : (0xFF800000#32 : BitVec FTy.f32.bits) = FKind.maximumf.neutral .f32 hφ) (r : Fin A) :
    multiReduction .maximumf [1] ⟨1, ![A]⟩ q 0xFF800000#32 hr hφ hacc (ix1 r)
      = (Finset.univ : Finset (Fin N)).fold max negInfW (fun z => q (ix2 r z)) :=
  RowReduce.multiReduction_maximumf_cols q 0xFF800000#32 hr hφ hacc r

/-- The exponentials of the entries minus their row maximum, over their row sums, at `(r, z)`. -/
theorem softmax_apply {N : ℕ} (q : FVec Ideal ⟨2, ![A, N]⟩ .f32)
    (hr : (⟨2, ![A, N]⟩ : Shape).Reduces [1] (⟨1, ![A]⟩ : Shape)) (hφ : FKind.Formats .f32)
    (hmax : (0xFF800000#32 : BitVec FTy.f32.bits) = FKind.maximumf.neutral .f32 hφ)
    (hφ' : FKind.Formats .f32) (hadd : (0x00000000#32 : BitVec 32) = FKind.add.neutral .f32 hφ')
    (hc : (⟨1, ![A]⟩ : Shape).ShapeCasts ⟨2, ![A, 1]⟩) (hb : (⟨2, ![A, 1]⟩ : Shape).Broadcasts ⟨2, ![A, N]⟩)
    (r : Fin A) (z : Fin N) :
    divf (exp (subf q (broadcastTo ⟨2, ![A, N]⟩ (shapeCast ⟨2, ![A, 1]⟩
            (multiReduction .maximumf [1] ⟨1, ![A]⟩ q 0xFF800000#32 hr hφ hmax) hc) hb)))
        (broadcastTo ⟨2, ![A, N]⟩ (shapeCast ⟨2, ![A, 1]⟩
          (multiReduction .add [1] ⟨1, ![A]⟩ (exp (subf q (broadcastTo ⟨2, ![A, N]⟩ (shapeCast ⟨2, ![A, 1]⟩
            (multiReduction .maximumf [1] ⟨1, ![A]⟩ q 0xFF800000#32 hr hφ hmax) hc) hb)))
            0x00000000#32 hr hφ' hadd) hc) hb) (ix2 r z)
      = Ideal.div (Ideal.exp (q (ix2 r z) - (Finset.univ : Finset (Fin N)).fold max negInfW (fun z' => q (ix2 r z'))))
          (∑ z'' : Fin N, Ideal.exp (q (ix2 r z'')
            - (Finset.univ : Finset (Fin N)).fold max negInfW (fun z' => q (ix2 r z')))) := by
  refine (Softmax.softmax2_apply q (multiReduction .maximumf [1] ⟨1, ![A]⟩ q 0xFF800000#32 hr hφ hmax) hc hb
    0x00000000#32 hr hφ' hadd r z).trans ?_
  rw [rowmax_apply q hr hφ hmax r]

/-- The same with the row maximum any vector `mx` whose entry `r` is that fold (a maximum computed in an earlier group). -/
theorem softmax_of_max_apply {N : ℕ} (q : FVec Ideal ⟨2, ![A, N]⟩ .f32) (mx : FVec Ideal ⟨1, ![A]⟩ .f32)
    (hr : (⟨2, ![A, N]⟩ : Shape).Reduces [1] (⟨1, ![A]⟩ : Shape))
    (hφ' : FKind.Formats .f32) (hadd : (0x00000000#32 : BitVec 32) = FKind.add.neutral .f32 hφ')
    (hc : (⟨1, ![A]⟩ : Shape).ShapeCasts ⟨2, ![A, 1]⟩) (hb : (⟨2, ![A, 1]⟩ : Shape).Broadcasts ⟨2, ![A, N]⟩)
    (r : Fin A) (hmx : mx (ix1 r) = (Finset.univ : Finset (Fin N)).fold max negInfW (fun z' => q (ix2 r z')))
    (z : Fin N) :
    divf (exp (subf q (broadcastTo ⟨2, ![A, N]⟩ (shapeCast ⟨2, ![A, 1]⟩ mx hc) hb)))
        (broadcastTo ⟨2, ![A, N]⟩ (shapeCast ⟨2, ![A, 1]⟩
          (multiReduction .add [1] ⟨1, ![A]⟩ (exp (subf q (broadcastTo ⟨2, ![A, N]⟩ (shapeCast ⟨2, ![A, 1]⟩ mx hc) hb)))
            0x00000000#32 hr hφ' hadd) hc) hb) (ix2 r z)
      = Ideal.div (Ideal.exp (q (ix2 r z) - (Finset.univ : Finset (Fin N)).fold max negInfW (fun z' => q (ix2 r z'))))
          (∑ z'' : Fin N, Ideal.exp (q (ix2 r z'')
            - (Finset.univ : Finset (Fin N)).fold max negInfW (fun z' => q (ix2 r z')))) := by
  refine (Softmax.softmax2_apply q mx hc hb 0x00000000#32 hr hφ' hadd r z).trans ?_
  rw [hmx]

/-- An `[A, N]` result cast to the slab `[1, A, N]`, at `(0, r, z)`. -/
theorem slab_apply {α : Type} {N : ℕ} (x : (⟨2, ![A, N]⟩ : Shape).Idx → α)
    (h : (⟨2, ![A, N]⟩ : Shape).ShapeCasts ⟨3, ![1, A, N]⟩) (u : Fin 1) (r : Fin A) (z : Fin N) :
    shapeCast ⟨3, ![1, A, N]⟩ x h (ix3 u r z) = x (ix2 r z) :=
  shapeCast_ab_1ab_apply x h u r z

/-! ## The groups joined: the specification's probabilities -/

section joined

variable (hrow : Fin 256 → EReal)
  (wv : Arr ⟨2, ![128, 51]⟩) (bv : Arr ⟨2, ![1, 51]⟩) (wa : Arr ⟨3, ![4, 128, 51]⟩) (ba : Arr ⟨3, ![4, 1, 51]⟩)

/-- A mean of four layers that are, on row `r`, the four advantages of `hrow` is, on row `r`, the mean advantage. -/
theorem mean_eq (a0 a1 a2 a3 : FVec Ideal ⟨2, ![A, 51]⟩ .f32) (r : Fin A)
    (h0 : ∀ z, a0 (ix2 r z) = adv hrow wa ba 0 z) (h1 : ∀ z, a1 (ix2 r z) = adv hrow wa ba 1 z)
    (h2 : ∀ z, a2 (ix2 r z) = adv hrow wa ba 2 z) (h3 : ∀ z, a3 (ix2 r z) = adv hrow wa ba 3 z) (z : Fin 51) :
    mulf (addf (addf (addf (addf (broadcast ⟨2, ![A, 51]⟩ (Scalar.ofBits (F := Ideal) .f32 0x00000000#32)) a0) a1) a2) a3)
        (broadcast ⟨2, ![A, 51]⟩ (Scalar.ofBits (F := Ideal) .f32 0x3E800000#32)) (ix2 r z)
      = advMean hrow wa ba z := by
  rw [mean_apply, h0, h1, h2, h3]; rfl

/-- Value plus the advantage of action `i` minus a mean, each on row `r` the specification's, is on row `r` the logit. -/
theorem logit_eq (i : Fin 4) (v ai m : FVec Ideal ⟨2, ![A, 51]⟩ .f32) (r : Fin A)
    (hv : ∀ z, v (ix2 r z) = value hrow wv bv z) (hi : ∀ z, ai (ix2 r z) = adv hrow wa ba i z)
    (hm : ∀ z, m (ix2 r z) = advMean hrow wa ba z) (z : Fin 51) :
    subf (addf v ai) m (ix2 r z) = logit hrow wv bv wa ba i z := by
  rw [logit_apply, hv, hi, hm]; rfl

/-- The softmax group of an array that is, on row `r`, the logits of action `i` is there the probabilities. -/
theorem prob_of_logit (i : Fin 4) (q : FVec Ideal ⟨2, ![A, 51]⟩ .f32)
    (hr : (⟨2, ![A, 51]⟩ : Shape).Reduces [1] (⟨1, ![A]⟩ : Shape)) (hφ : FKind.Formats .f32)
    (hmax : (0xFF800000#32 : BitVec FTy.f32.bits) = FKind.maximumf.neutral .f32 hφ)
    (hφ' : FKind.Formats .f32) (hadd : (0x00000000#32 : BitVec 32) = FKind.add.neutral .f32 hφ')
    (hc : (⟨1, ![A]⟩ : Shape).ShapeCasts ⟨2, ![A, 1]⟩) (hb : (⟨2, ![A, 1]⟩ : Shape).Broadcasts ⟨2, ![A, 51]⟩)
    (r : Fin A) (hq : ∀ z, q (ix2 r z) = logit hrow wv bv wa ba i z) (z : Fin 51) :
    divf (exp (subf q (broadcastTo ⟨2, ![A, 51]⟩ (shapeCast ⟨2, ![A, 1]⟩
            (multiReduction .maximumf [1] ⟨1, ![A]⟩ q 0xFF800000#32 hr hφ hmax) hc) hb)))
        (broadcastTo ⟨2, ![A, 51]⟩ (shapeCast ⟨2, ![A, 1]⟩
          (multiReduction .add [1] ⟨1, ![A]⟩ (exp (subf q (broadcastTo ⟨2, ![A, 51]⟩ (shapeCast ⟨2, ![A, 1]⟩
            (multiReduction .maximumf [1] ⟨1, ![A]⟩ q 0xFF800000#32 hr hφ hmax) hc) hb)))
            0x00000000#32 hr hφ' hadd) hc) hb) (ix2 r z)
      = prob hrow wv bv wa ba i z := by
  rw [softmax_apply q hr hφ hmax hφ' hadd hc hb r z]
  simp only [hq]
  rfl

/-- The same with the row maximum computed in an earlier group. -/
theorem prob_of_logit_max (i : Fin 4) (q : FVec Ideal ⟨2, ![A, 51]⟩ .f32) (mx : FVec Ideal ⟨1, ![A]⟩ .f32)
    (hr : (⟨2, ![A, 51]⟩ : Shape).Reduces [1] (⟨1, ![A]⟩ : Shape))
    (hφ' : FKind.Formats .f32) (hadd : (0x00000000#32 : BitVec 32) = FKind.add.neutral .f32 hφ')
    (hc : (⟨1, ![A]⟩ : Shape).ShapeCasts ⟨2, ![A, 1]⟩) (hb : (⟨2, ![A, 1]⟩ : Shape).Broadcasts ⟨2, ![A, 51]⟩)
    (r : Fin A) (hq : ∀ z, q (ix2 r z) = logit hrow wv bv wa ba i z)
    (hmx : mx (ix1 r) = (Finset.univ : Finset (Fin 51)).fold max negInfW (fun z' => q (ix2 r z'))) (z : Fin 51) :
    divf (exp (subf q (broadcastTo ⟨2, ![A, 51]⟩ (shapeCast ⟨2, ![A, 1]⟩ mx hc) hb)))
        (broadcastTo ⟨2, ![A, 51]⟩ (shapeCast ⟨2, ![A, 1]⟩
          (multiReduction .add [1] ⟨1, ![A]⟩ (exp (subf q (broadcastTo ⟨2, ![A, 51]⟩ (shapeCast ⟨2, ![A, 1]⟩ mx hc) hb)))
            0x00000000#32 hr hφ' hadd) hc) hb) (ix2 r z)
      = prob hrow wv bv wa ba i z := by
  rw [softmax_of_max_apply q mx hr hφ' hadd hc hb r hmx z]
  simp only [hq]
  rfl

/-- The whole tail from the value layer `v`, the four advantage layers and the one of action `i`: the softmax group of
    `v + a_i − mean`, cast to a slab, is at `(0, r, z)` the specification's probability of action `i`, atom `z`. -/
theorem prob_of_parts (i : Fin 4) (v ai a0 a1 a2 a3 : FVec Ideal ⟨2, ![A, 51]⟩ .f32)
    (hr : (⟨2, ![A, 51]⟩ : Shape).Reduces [1] (⟨1, ![A]⟩ : Shape)) (hφ : FKind.Formats .f32)
    (hmax : (0xFF800000#32 : BitVec FTy.f32.bits) = FKind.maximumf.neutral .f32 hφ)
    (hφ' : FKind.Formats .f32) (hadd : (0x00000000#32 : BitVec 32) = FKind.add.neutral .f32 hφ')
    (hc : (⟨1, ![A]⟩ : Shape).ShapeCasts ⟨2, ![A, 1]⟩) (hb : (⟨2, ![A, 1]⟩ : Shape).Broadcasts ⟨2, ![A, 51]⟩)
    (r : Fin A)
    (hv : ∀ z, v (ix2 r z) = value hrow wv bv z) (hi : ∀ z, ai (ix2 r z) = adv hrow wa ba i z)
    (h0 : ∀ z, a0 (ix2 r z) = adv hrow wa ba 0 z) (h1 : ∀ z, a1 (ix2 r z) = adv hrow wa ba 1 z)
    (h2 : ∀ z, a2 (ix2 r z) = adv hrow wa ba 2 z) (h3 : ∀ z, a3 (ix2 r z) = adv hrow wa ba 3 z) (z : Fin 51) :
    (let q : FVec Ideal ⟨2, ![A, 51]⟩ .f32 := subf (addf v ai)
        (mulf (addf (addf (addf (addf (broadcast ⟨2, ![A, 51]⟩ (Scalar.ofBits (F := Ideal) .f32 0x00000000#32)) a0) a1) a2) a3)
          (broadcast ⟨2, ![A, 51]⟩ (Scalar.ofBits (F := Ideal) .f32 0x3E800000#32)))
     divf (exp (subf q (broadcastTo ⟨2, ![A, 51]⟩ (shapeCast ⟨2, ![A, 1]⟩
            (multiReduction .maximumf [1] ⟨1, ![A]⟩ q 0xFF800000#32 hr hφ hmax) hc) hb)))
        (broadcastTo ⟨2, ![A, 51]⟩ (shapeCast ⟨2, ![A, 1]⟩
          (multiReduction .add [1] ⟨1, ![A]⟩ (exp (subf q (broadcastTo ⟨2, ![A, 51]⟩ (shapeCast ⟨2, ![A, 1]⟩
            (multiReduction .maximumf [1] ⟨1, ![A]⟩ q 0xFF800000#32 hr hφ hmax) hc) hb)))
            0x00000000#32 hr hφ' hadd) hc) hb) (ix2 r z))
      = prob hrow wv bv wa ba i z :=
  prob_of_logit hrow wv bv wa ba i _ hr hφ hmax hφ' hadd hc hb r
    (fun z' => logit_eq hrow wv bv wa ba i v ai _ r hv hi
      (fun z'' => mean_eq hrow wa ba a0 a1 a2 a3 r h0 h1 h2 h3 z'') z') z

end joined

end Cert.Dueling.Tail

end
-- ==== Proof.LibFlatten.lean ====
/-
  Shape casts that merge or split adjacent axes of a rank-3 array, read at indices given by coordinates. Row-major order
  puts entry `(p, n, f)` of an `[a, b, c]` array at position `(p·b + n)·c + f`, so
  • cast to `[a·b, c]` (leading axes merged) it is entry `(p·b + n, f)`, and an `[a·b, c]` matrix cast to `[a, b, c]` reads at
    `(p, n, f)` its entry `(p·b + n, f)`;
  • cast to `[a, b·c]` (trailing axes merged) it is entry `(p, n·c + f)`, and back.
  The merged extent is a literal in a printed program (`8192`, not `128·64`), so it is a separate variable `m` here and the
  merged coordinate's bound is an argument.
-/
import Idealize.ShloMosaic.Lib.Pipeline.Value
import Idealize.ShloMosaic.Lib.ValueIdx

namespace Idealize.ShloMosaic.Flatten

open Idealize.ShloMosaic Idealize.ShloMosaic.ValueIdx

variable {α : Type} {a b c m : ℕ}

/-- `[a, b, c]` cast to `[m, c]`, `m = a·b`: row `p·b + n` is the slab entry `(p, n)`. -/
theorem merge01_apply (x : (⟨3, ![a, b, c]⟩ : Shape).Idx → α) (h : (⟨3, ![a, b, c]⟩ : Shape).ShapeCasts ⟨2, ![m, c]⟩)
    (p : Fin a) (n : Fin b) (f : Fin c) (hr : p.val * b + n.val < m) :
    shapeCast ⟨2, ![m, c]⟩ x h (ix2 ⟨p.val * b + n.val, hr⟩ f) = x (ix3 p n f) :=
  shapeCast_apply x h _ _ (by rw [Shape.rowMajor_val_three, Shape.rowMajor_val_two]; rfl)

/-- `[m, c]` cast to `[a, b, c]`, `m = a·b`: entry `(p, n, f)` is the matrix entry `(p·b + n, f)`. -/
theorem split0_apply (x : (⟨2, ![m, c]⟩ : Shape).Idx → α) (h : (⟨2, ![m, c]⟩ : Shape).ShapeCasts ⟨3, ![a, b, c]⟩)
    (p : Fin a) (n : Fin b) (f : Fin c) (hr : p.val * b + n.val < m) :
    shapeCast ⟨3, ![a, b, c]⟩ x h (ix3 p n f) = x (ix2 ⟨p.val * b + n.val, hr⟩ f) :=
  shapeCast_apply x h _ _ (by rw [Shape.rowMajor_val_three, Shape.rowMajor_val_two]; rfl)

/-- `[a, b, c]` cast to `[a, m]`, `m = b·c`: column `n·c + f` of row `p` is the entry `(p, n, f)`. -/
theorem merge12_apply (x : (⟨3, ![a, b, c]⟩ : Shape).Idx → α) (h : (⟨3, ![a, b, c]⟩ : Shape).ShapeCasts ⟨2, ![a, m]⟩)
    (p : Fin a) (n : Fin b) (f : Fin c) (hr : n.val * c + f.val < m) (hm : m = b * c) :
    shapeCast ⟨2, ![a, m]⟩ x h (ix2 p ⟨n.val * c + f.val, hr⟩) = x (ix3 p n f) :=
  shapeCast_apply x h _ _ (by
    rw [Shape.rowMajor_val_three, Shape.rowMajor_val_two]
    show (p.val * b + n.val) * c + f.val = p.val * m + (n.val * c + f.val)
    rw [hm, Nat.add_mul, Nat.mul_assoc, Nat.add_assoc])

/-- `[a, m]` cast to `[a, b, c]`, `m = b·c`: entry `(p, n, f)` is the matrix entry `(p, n·c + f)`. -/
theorem split1_apply (x : (⟨2, ![a, m]⟩ : Shape).Idx → α) (h : (⟨2, ![a, m]⟩ : Shape).ShapeCasts ⟨3, ![a, b, c]⟩)
    (p : Fin a) (n : Fin b) (f : Fin c) (hr : n.val * c + f.val < m) (hm : m = b * c) :
    shapeCast ⟨3, ![a, b, c]⟩ x h (ix3 p n f) = x (ix2 p ⟨n.val * c + f.val, hr⟩) :=
  shapeCast_apply x h _ _ (by
    rw [Shape.rowMajor_val_three, Shape.rowMajor_val_two]
    show p.val * m + (n.val * c + f.val) = (p.val * b + n.val) * c + f.val
    rw [hm, Nat.add_mul, Nat.mul_assoc, Nat.add_assoc])

end Idealize.ShloMosaic.Flatten
-- ==== Proof.HeadKFront.lean ====
/-
  The front of the fused head on a block of 64 images, read at indices given by coordinates, over the extended reals.
  The block's input `[9, 64, 3200]` (position, image, column) is flattened to `[576, 3200]`: row `64·p + r` is position
  `p` of image `r`. ONE product with the `[3200, 64]` weights, plus a bias row, rectified, gives the features: entry
  `(64·p + r, c)` is feature `c` of position `p` of image `r`, and reads that image's rows only. The nine row slabs
  `[64p, 64p + 64)` are each multiplied by slab `p` of the `[9, 64, 256]` weights and summed, starting from the bias row
  of the hidden layer, then rectified: entry `(r, n)` of the hidden activation is the specification's hidden unit `n` of
  image `r`, the nine partial sums added bias first.
-/
import proofs.«161365_g2000107080715666_pallasbulk_1227_2_alg».proof.Proof.Gen.KernelIdeal.Frame
import proofs.«161365_g2000107080715666_pallasbulk_1227_2_alg».proof.Proof.Spec
import proofs.«161365_g2000107080715666_pallasbulk_1227_2_alg».proof.Proof.LibPlainDot
import proofs.«161365_g2000107080715666_pallasbulk_1227_2_alg».proof.Proof.LibFlatten
import proofs.«161365_g2000107080715666_pallasbulk_1227_2_alg».proof.Proof.LibDuelTail

noncomputable section

namespace Cert.KernelIdeal.HeadVal

open Idealize.ShloMosaic Idealize.ShloMosaic.ValueIdx Cert.Dueling Cert.KernelIdeal.Gen

/-! ## Loads through rectangles -/

/-- A load of the one-slab rectangle at offset `(p, 0, 0)` of a rank-3 array reads, at `(u, c, n)`, the array's `(p, c, n)`. -/
theorem ld_slab {e : EltTy} {n0 n1 n2 : ℕ} (X : (⟨3, ![n0, n1, n2]⟩ : Shape).Idx → Elt Ideal e) (p : ℕ) (hp : p < n0)
    (inb : ∀ a, (![p, 0, 0] : Fin 3 → ℕ) a + (![1, n1, n2] : Fin 3 → ℕ) a ≤ (⟨3, ![n0, n1, n2]⟩ : Shape).size a)
    (u : Fin 1) (c : Fin n1) (n : Fin n2) :
    View.ld (Val := Elt Ideal) X (Rect.unit (s := ⟨3, ![n0, n1, n2]⟩) ![p, 0, 0] ![1, n1, n2] inb) (ix3 u c n)
      = X (ix3 (⟨p, hp⟩ : Fin n0) c n) := by
  show X ((Rect.unit (s := ⟨3, ![n0, n1, n2]⟩) ![p, 0, 0] ![1, n1, n2] inb).idx (ix3 u c n)) = _
  refine congrArg X (funext fun a => Fin.ext ?_)
  have hu : u.val = 0 := by omega
  match a with
  | ⟨0, _⟩ => show p + 1 * u.val = p; omega
  | ⟨1, _⟩ => show 0 + 1 * c.val = c.val; omega
  | ⟨2, _⟩ => show 0 + 1 * n.val = n.val; omega

/-! ## The features -/

/-- Entry `(64·p + r, c)` of the rectified product: feature `c` of position `p` of image `r`. -/
theorem feat_apply (v0 : FVec Ideal ⟨3, ![9, 64, 3200]⟩ .bf16) (v3 : FVec Ideal ⟨2, ![3200, 64]⟩ .bf16)
    (v6 : FVec Ideal ⟨2, ![1, 64]⟩ .f32) (p : Fin 9) (r : Fin 64) (c : Fin 64) (row : Fin 576)
    (hrow : row.val = p.val * 64 + r.val) :
    k1_pay3 (F := Ideal) v0 v3 v6 (ix2 row c) = feat (fun p j => v0 (ix3 p r j)) v3 v6 p c := by
  obtain ⟨row, hlt⟩ := row
  dsimp only at hrow
  subst hrow
  unfold k1_pay3
  refine (Tail.biasRelu_apply _ v6 _ _ c).trans ?_
  unfold feat
  refine congrArg (fun t => max (t + v6 (ix2 (0 : Fin 1) c)) zeroW) ?_
  refine (PlainDot.matmul_apply_ix2 none _ _ _ c).trans ?_
  refine Finset.sum_congr rfl fun j _ => ?_
  rw [shapeCast_self, shapeCast_self]
  exact congrArg (· * v3 (ix2 j c)) (Flatten.merge01_apply v0 _ p r j hlt)

/-! ## One position's contribution to the hidden units -/

/-- The product of the row slab at offset `o = 64·p` of the features with weight slab `p`, at `(r, n)`. -/
theorem part_apply (ft : FVec Ideal ⟨2, ![576, 64]⟩ .f32) (slab : FVec Ideal ⟨3, ![1, 64, 256]⟩ .f32) (o : ℕ)
    (hs : (⟨2, ![576, 64]⟩ : Shape).Slices ![o, 0] ⟨2, ![64, 64]⟩)
    (hc : (⟨3, ![1, 64, 256]⟩ : Shape).ShapeCasts ⟨2, ![64, 256]⟩)
    (X : Fin 9 → Fin 3200 → EReal) (w2 : Arr ⟨2, ![3200, 64]⟩) (b2 : Arr ⟨2, ![1, 64]⟩) (w0 : Arr ⟨3, ![9, 64, 256]⟩)
    (p : Fin 9) (r : Fin 64) (n : Fin 256) (ho : o + r.val < 576)
    (hft : ∀ c : Fin 64, ft (ix2 (⟨o + r.val, ho⟩ : Fin 576) c) = feat X w2 b2 p c)
    (hw : ∀ c : Fin 64, slab (ix3 (0 : Fin 1) c n) = w0 (ix3 p c n)) :
    FloatOps.matmul (DotDims.plain 64 64 256) none (extractStridedSlice ⟨2, ![64, 64]⟩ ![o, 0] ft hs)
        (shapeCast ⟨2, ![64, 256]⟩ slab hc) (constant ⟨2, ![64, 256]⟩ .f32 0x00000000#32) (ix2 r n)
      = part X w2 b2 w0 p n := by
  refine (PlainDot.matmul_apply_ix2 none _ _ r n).trans ?_
  unfold part
  refine Finset.sum_congr rfl fun c _ => ?_
  rw [slice2_axis0_apply o ft hs r c (⟨o + r.val, ho⟩ : Fin 576) rfl, hft c,
    ValueIdx.shapeCast_1ab_ab_apply slab hc c n, hw c]

/-! ## The hidden activation -/

/-- Entry `(r, n)` of the hidden activation: the bias row, then the nine positions' contributions in order, rectified.
    `s0 … s8` are the nine weight slabs as the body loads them; `w0` is the array they are slabs of. -/
theorem hidden_apply (v0 : FVec Ideal ⟨3, ![9, 64, 3200]⟩ .bf16) (v3 : FVec Ideal ⟨2, ![3200, 64]⟩ .bf16)
    (v6 : FVec Ideal ⟨2, ![1, 64]⟩ .f32) (v11 : FVec Ideal ⟨2, ![1, 256]⟩ .f32)
    (s0 s1 s2 s3 s4 s5 s6 s7 s8 : FVec Ideal ⟨3, ![1, 64, 256]⟩ .f32) (w0 : Arr ⟨3, ![9, 64, 256]⟩)
    (r : Fin 64) (n : Fin 256)
    (h0 : ∀ c : Fin 64, s0 (ix3 (0 : Fin 1) c n) = w0 (ix3 (0 : Fin 9) c n))
    (h1 : ∀ c : Fin 64, s1 (ix3 (0 : Fin 1) c n) = w0 (ix3 (1 : Fin 9) c n))
    (h2 : ∀ c : Fin 64, s2 (ix3 (0 : Fin 1) c n) = w0 (ix3 (2 : Fin 9) c n))
    (h3 : ∀ c : Fin 64, s3 (ix3 (0 : Fin 1) c n) = w0 (ix3 (3 : Fin 9) c n))
    (h4 : ∀ c : Fin 64, s4 (ix3 (0 : Fin 1) c n) = w0 (ix3 (4 : Fin 9) c n))
    (h5 : ∀ c : Fin 64, s5 (ix3 (0 : Fin 1) c n) = w0 (ix3 (5 : Fin 9) c n))
    (h6 : ∀ c : Fin 64, s6 (ix3 (0 : Fin 1) c n) = w0 (ix3 (6 : Fin 9) c n))
    (h7 : ∀ c : Fin 64, s7 (ix3 (0 : Fin 1) c n) = w0 (ix3 (7 : Fin 9) c n))
    (h8 : ∀ c : Fin 64, s8 (ix3 (0 : Fin 1) c n) = w0 (ix3 (8 : Fin 9) c n)) :
    k1_pay6 (F := Ideal) (k1_pay3 v0 v3 v6) (k1_pay4 v0 v3 v6 v11 s0 s1 s2) (k1_pay5 v0 v3 v6 s3) s4 s5 s6 s7 s8 (ix2 r n)
      = hidFirst v0 v3 v6 w0 v11 r n := by
  have hr := r.isLt
  unfold k1_pay6 k1_pay4 k1_pay5 hidFirst preBiasFirst
  refine (maximumf_apply _ _ _).trans (congrArg₂ max ?_ rfl)
  refine (addf_apply _ _ _).trans (congrArg₂ (· + ·) ?_
    (part_apply (k1_pay3 v0 v3 v6) s8 512 _ _ _ v3 v6 w0 8 r n (by omega) (fun c => feat_apply v0 v3 v6 8 r c _ rfl) h8))
  refine (addf_apply _ _ _).trans (congrArg₂ (· + ·) ?_
    (part_apply (k1_pay3 v0 v3 v6) s7 448 _ _ _ v3 v6 w0 7 r n (by omega) (fun c => feat_apply v0 v3 v6 7 r c _ rfl) h7))
  refine (addf_apply _ _ _).trans (congrArg₂ (· + ·) ?_
    (part_apply (k1_pay3 v0 v3 v6) s6 384 _ _ _ v3 v6 w0 6 r n (by omega) (fun c => feat_apply v0 v3 v6 6 r c _ rfl) h6))
  refine (addf_apply _ _ _).trans (congrArg₂ (· + ·) ?_
    (part_apply (k1_pay3 v0 v3 v6) s5 320 _ _ _ v3 v6 w0 5 r n (by omega) (fun c => feat_apply v0 v3 v6 5 r c _ rfl) h5))
  refine (addf_apply _ _ _).trans (congrArg₂ (· + ·) ?_
    (part_apply (k1_pay3 v0 v3 v6) s4 256 _ _ _ v3 v6 w0 4 r n (by omega) (fun c => feat_apply v0 v3 v6 4 r c _ rfl) h4))
  refine (addf_apply _ _ _).trans (congrArg₂ (· + ·) ?_
    (part_apply (k1_pay3 v0 v3 v6) s3 192 _ _ _ v3 v6 w0 3 r n (by omega) (fun c => feat_apply v0 v3 v6 3 r c _ rfl) h3))
  refine (addf_apply _ _ _).trans (congrArg₂ (· + ·) ?_
    (part_apply (k1_pay3 v0 v3 v6) s2 128 _ _ _ v3 v6 w0 2 r n (by omega) (fun c => feat_apply v0 v3 v6 2 r c _ rfl) h2))
  refine (addf_apply _ _ _).trans (congrArg₂ (· + ·) ?_
    (part_apply (k1_pay3 v0 v3 v6) s1 64 _ _ _ v3 v6 w0 1 r n (by omega) (fun c => feat_apply v0 v3 v6 1 r c _ rfl) h1))
  refine (addf_apply _ _ _).trans (congrArg₂ (· + ·) ?_
    (part_apply (k1_pay3 v0 v3 v6) s0 0 _ _ _ v3 v6 w0 0 r n (by omega) (fun c => feat_apply v0 v3 v6 0 r c _ rfl) h0))
  exact broadcastTo_1b_ab_apply v11 _ r n

end Cert.KernelIdeal.HeadVal

end
-- ==== Proof.HeadKTail.lean ====
/-
  The tail of the fused head on a block of 64 images, payload by payload, at row `r` of the block. Given that row `r`
  of the hidden activation is `hrow`, the value layer's row is the specification's `value hrow`, each advantage layer's row
  its `adv hrow i`, their mean's row `advMean hrow`, and each stored slab `[1, 64, 51]` holds at `(0, r, z)` the softmax
  `prob hrow … i z` of action `i`. Every lemma takes the rows of the values it reads as hypotheses, so the four stored
  slabs are read by chaining them.
-/
import proofs.«161365_g2000107080715666_pallasbulk_1227_2_alg».proof.Proof.Gen.KernelIdeal.Frame
import proofs.«161365_g2000107080715666_pallasbulk_1227_2_alg».proof.Proof.Spec
import proofs.«161365_g2000107080715666_pallasbulk_1227_2_alg».proof.Proof.LibDuelTail

noncomputable section

namespace Cert.KernelIdeal.HeadVal

open Idealize.ShloMosaic Idealize.ShloMosaic.ValueIdx Cert.Dueling Cert.KernelIdeal.Gen

/-- The softmax group of an array whose row `r` is the logits of action `i`, cast to a slab, at `(0, r, z)`. -/
theorem soft_slab {A : ℕ} (hrow : Fin 256 → EReal) (wv : Arr ⟨2, ![128, 51]⟩) (bv : Arr ⟨2, ![1, 51]⟩)
    (wa : Arr ⟨3, ![4, 128, 51]⟩) (ba : Arr ⟨3, ![4, 1, 51]⟩) (i : Fin 4) (q : FVec Ideal ⟨2, ![A, 51]⟩ .f32)
    (hr : (⟨2, ![A, 51]⟩ : Shape).Reduces [1] (⟨1, ![A]⟩ : Shape)) (hφ : FKind.Formats .f32)
    (hmax : (0xFF800000#32 : BitVec FTy.f32.bits) = FKind.maximumf.neutral .f32 hφ)
    (hφ' : FKind.Formats .f32) (hadd : (0x00000000#32 : BitVec 32) = FKind.add.neutral .f32 hφ')
    (hc : (⟨1, ![A]⟩ : Shape).ShapeCasts ⟨2, ![A, 1]⟩) (hb : (⟨2, ![A, 1]⟩ : Shape).Broadcasts ⟨2, ![A, 51]⟩)
    (hs : (⟨2, ![A, 51]⟩ : Shape).ShapeCasts ⟨3, ![1, A, 51]⟩)
    (r : Fin A) (hq : ∀ z, q (ix2 r z) = logit hrow wv bv wa ba i z) (z : Fin 51) :
    shapeCast ⟨3, ![1, A, 51]⟩ (divf (exp (subf q (broadcastTo ⟨2, ![A, 51]⟩ (shapeCast ⟨2, ![A, 1]⟩
            (multiReduction .maximumf [1] ⟨1, ![A]⟩ q 0xFF800000#32 hr hφ hmax) hc) hb)))
        (broadcastTo ⟨2, ![A, 51]⟩ (shapeCast ⟨2, ![A, 1]⟩
          (multiReduction .add [1] ⟨1, ![A]⟩ (exp (subf q (broadcastTo ⟨2, ![A, 51]⟩ (shapeCast ⟨2, ![A, 1]⟩
            (multiReduction .maximumf [1] ⟨1, ![A]⟩ q 0xFF800000#32 hr hφ hmax) hc) hb)))
            0x00000000#32 hr hφ' hadd) hc) hb)) hs (ix3 (0 : Fin 1) r z)
      = prob hrow wv bv wa ba i z :=
  (Tail.slab_apply _ hs 0 r z).trans (Tail.prob_of_logit hrow wv bv wa ba i q hr hφ hmax hφ' hadd hc hb r hq z)

section rows

variable (hrow : Fin 256 → EReal) (wv : Arr ⟨2, ![128, 51]⟩) (bv : Arr ⟨2, ![1, 51]⟩)
  (wa : Arr ⟨3, ![4, 128, 51]⟩) (ba : Arr ⟨3, ![4, 1, 51]⟩) (r : Fin 64)

/-- The advantage half of the hidden activation: row `r` is the last 128 entries of `hrow`. -/
theorem hi_apply (v10 : FVec Ideal ⟨2, ![576, 64]⟩ .f32) (v27 v31 : FVec Ideal ⟨2, ![64, 256]⟩ .f32)
    (v34 v39 v44 v49 v54 : FVec Ideal ⟨3, ![1, 64, 256]⟩ .f32)
    (hh : ∀ n : Fin 256, k1_pay6 (F := Ideal) v10 v27 v31 v34 v39 v44 v49 v54 (ix2 r n) = hrow n) (k : Fin 128) :
    k1_pay7 (F := Ideal) v10 v27 v31 v34 v39 v44 v49 v54 (ix2 r k) = hrow (⟨128 + k.val, by omega⟩ : Fin 256) := by
  unfold k1_pay7
  exact (Tail.half_hi_apply _ _ r k).trans (hh _)

/-- The value layer: its product (from the first 128 entries of `hrow`) plus the bias row, rectified. -/
theorem value_apply (v10 : FVec Ideal ⟨2, ![576, 64]⟩ .f32) (v27 v31 : FVec Ideal ⟨2, ![64, 256]⟩ .f32)
    (v34 v39 v44 v49 v54 : FVec Ideal ⟨3, ![1, 64, 256]⟩ .f32) (v62 : FVec Ideal ⟨2, ![128, 51]⟩ .f32)
    (v64 : FVec Ideal ⟨2, ![1, 51]⟩ .f32)
    (hh : ∀ n : Fin 256, k1_pay6 (F := Ideal) v10 v27 v31 v34 v39 v44 v49 v54 (ix2 r n) = hrow n)
    (hw : ∀ k : Fin 128, ∀ z : Fin 51, v62 (ix2 k z) = wv (ix2 k z))
    (hb : ∀ z : Fin 51, v64 (ix2 (0 : Fin 1) z) = bv (ix2 (0 : Fin 1) z)) (z : Fin 51) :
    k1_pay10 (F := Ideal) (k1_pay8 v10 v27 v31 v34 v39 v44 v49 v54 v62) (k1_pay9 v64) (ix2 r z)
      = value hrow wv bv z := by
  unfold k1_pay10 k1_pay8 k1_pay9 value
  refine (Tail.dense_apply none _ v62 v64 _ r z).trans ?_
  rw [hb z]
  refine congrArg (fun t => max (t + bv (ix2 (0 : Fin 1) z)) zeroW) (Finset.sum_congr rfl fun k _ => ?_)
  rw [Tail.half_lo_apply _ _ r k, hh, hw k z]

/-- One advantage layer, weights and bias loaded as slabs of the action's arrays. -/
theorem adv_of_dense (i : Fin 4) (v61 : FVec Ideal ⟨2, ![64, 128]⟩ .f32) (w3 : FVec Ideal ⟨3, ![1, 128, 51]⟩ .f32)
    (b3 : FVec Ideal ⟨3, ![1, 1, 51]⟩ .f32)
    (h61 : ∀ k : Fin 128, v61 (ix2 r k) = hrow (⟨128 + k.val, by omega⟩ : Fin 256))
    (z : Fin 51) (hw : ∀ k : Fin 128, w3 (ix3 (0 : Fin 1) k z) = wa (ix3 i k z))
    (hb : b3 (ix3 (0 : Fin 1) (0 : Fin 1) z) = ba (ix3 i (0 : Fin 1) z)) :
    max ((∑ k : Fin 128, v61 (ix2 r k) * w3 (ix3 (0 : Fin 1) k z)) + b3 (ix3 (0 : Fin 1) (0 : Fin 1) z)) zeroW
      = adv hrow wa ba i z := by
  unfold adv
  rw [hb]
  refine congrArg (fun t => max (t + ba (ix3 i (0 : Fin 1) z)) zeroW) (Finset.sum_congr rfl fun k _ => ?_)
  rw [h61 k, hw k]

theorem adv0_apply (i : Fin 4) (v61 : FVec Ideal ⟨2, ![64, 128]⟩ .f32) (w3 : FVec Ideal ⟨3, ![1, 128, 51]⟩ .f32)
    (b3 : FVec Ideal ⟨3, ![1, 1, 51]⟩ .f32)
    (h61 : ∀ k : Fin 128, v61 (ix2 r k) = hrow (⟨128 + k.val, by omega⟩ : Fin 256))
    (z : Fin 51) (hw : ∀ k : Fin 128, w3 (ix3 (0 : Fin 1) k z) = wa (ix3 i k z))
    (hb : b3 (ix3 (0 : Fin 1) (0 : Fin 1) z) = ba (ix3 i (0 : Fin 1) z)) :
    k1_pay11 (F := Ideal) v61 w3 b3 (ix2 r z) = adv hrow wa ba i z := by
  unfold k1_pay11
  exact (Tail.dense_cast_apply none v61 w3 b3 _ _ _ r z).trans (adv_of_dense hrow wa ba r i v61 w3 b3 h61 z hw hb)

theorem adv1_apply (i : Fin 4) (v61 : FVec Ideal ⟨2, ![64, 128]⟩ .f32) (w3 : FVec Ideal ⟨3, ![1, 128, 51]⟩ .f32)
    (b3 : FVec Ideal ⟨3, ![1, 1, 51]⟩ .f32)
    (h61 : ∀ k : Fin 128, v61 (ix2 r k) = hrow (⟨128 + k.val, by omega⟩ : Fin 256))
    (z : Fin 51) (hw : ∀ k : Fin 128, w3 (ix3 (0 : Fin 1) k z) = wa (ix3 i k z))
    (hb : b3 (ix3 (0 : Fin 1) (0 : Fin 1) z) = ba (ix3 i (0 : Fin 1) z)) :
    k1_pay12 (F := Ideal) v61 w3 b3 (ix2 r z) = adv hrow wa ba i z := by
  unfold k1_pay12
  exact (Tail.dense_cast_apply none v61 w3 b3 _ _ _ r z).trans (adv_of_dense hrow wa ba r i v61 w3 b3 h61 z hw hb)

theorem adv2_apply (i : Fin 4) (v61 : FVec Ideal ⟨2, ![64, 128]⟩ .f32) (w3 : FVec Ideal ⟨3, ![1, 128, 51]⟩ .f32)
    (b3 : FVec Ideal ⟨3, ![1, 1, 51]⟩ .f32)
    (h61 : ∀ k : Fin 128, v61 (ix2 r k) = hrow (⟨128 + k.val, by omega⟩ : Fin 256))
    (z : Fin 51) (hw : ∀ k : Fin 128, w3 (ix3 (0 : Fin 1) k z) = wa (ix3 i k z))
    (hb : b3 (ix3 (0 : Fin 1) (0 : Fin 1) z) = ba (ix3 i (0 : Fin 1) z)) :
    k1_pay13 (F := Ideal) v61 w3 b3 (ix2 r z) = adv hrow wa ba i z := by
  unfold k1_pay13
  exact (Tail.dense_cast_apply none v61 w3 b3 _ _ _ r z).trans (adv_of_dense hrow wa ba r i v61 w3 b3 h61 z hw hb)

/-- The last advantage layer, whose weight slab is cast to a matrix in a payload of its own. -/
theorem adv3_apply (i : Fin 4) (v61 : FVec Ideal ⟨2, ![64, 128]⟩ .f32) (w3 : FVec Ideal ⟨3, ![1, 128, 51]⟩ .f32)
    (b3 : FVec Ideal ⟨3, ![1, 1, 51]⟩ .f32)
    (h61 : ∀ k : Fin 128, v61 (ix2 r k) = hrow (⟨128 + k.val, by omega⟩ : Fin 256))
    (z : Fin 51) (hw : ∀ k : Fin 128, w3 (ix3 (0 : Fin 1) k z) = wa (ix3 i k z))
    (hb : b3 (ix3 (0 : Fin 1) (0 : Fin 1) z) = ba (ix3 i (0 : Fin 1) z)) :
    k1_pay15 (F := Ideal) v61 (k1_pay14 w3) b3 (ix2 r z) = adv hrow wa ba i z := by
  unfold k1_pay15 k1_pay14
  exact (Tail.dense_cast_apply none v61 w3 b3 _ _ _ r z).trans (adv_of_dense hrow wa ba r i v61 w3 b3 h61 z hw hb)

/-- The mean of the four advantage layers. -/
theorem mean_apply (v61 : FVec Ideal ⟨2, ![64, 128]⟩ .f32) (v77 v86 v95 : FVec Ideal ⟨2, ![64, 51]⟩ .f32)
    (v97 : FVec Ideal ⟨2, ![128, 51]⟩ .f32) (v99 : FVec Ideal ⟨3, ![1, 1, 51]⟩ .f32)
    (h77 : ∀ z, v77 (ix2 r z) = adv hrow wa ba 0 z) (h86 : ∀ z, v86 (ix2 r z) = adv hrow wa ba 1 z)
    (h95 : ∀ z, v95 (ix2 r z) = adv hrow wa ba 2 z)
    (h104 : ∀ z, k1_pay15 (F := Ideal) v61 v97 v99 (ix2 r z) = adv hrow wa ba 3 z) (z : Fin 51) :
    k1_pay16 (F := Ideal) v61 v77 v86 v95 v97 v99 (ix2 r z) = advMean hrow wa ba z := by
  unfold k1_pay16
  exact Tail.mean_eq hrow wa ba v77 v86 v95 _ r h77 h86 h95 h104 z

/-- The slab stored at action 0. -/
theorem slab0_apply (v61 : FVec Ideal ⟨2, ![64, 128]⟩ .f32) (v68 v77 v86 v95 : FVec Ideal ⟨2, ![64, 51]⟩ .f32)
    (v97 : FVec Ideal ⟨2, ![128, 51]⟩ .f32) (v99 : FVec Ideal ⟨3, ![1, 1, 51]⟩ .f32)
    (h68 : ∀ z, v68 (ix2 r z) = value hrow wv bv z)
    (h77 : ∀ z, v77 (ix2 r z) = adv hrow wa ba 0 z) (h86 : ∀ z, v86 (ix2 r z) = adv hrow wa ba 1 z)
    (h95 : ∀ z, v95 (ix2 r z) = adv hrow wa ba 2 z)
    (h104 : ∀ z, k1_pay15 (F := Ideal) v61 v97 v99 (ix2 r z) = adv hrow wa ba 3 z) (z : Fin 51) :
    k1_pay17 (F := Ideal) v61 v68 v77 v86 v95 v97 v99 (ix3 (0 : Fin 1) r z) = prob hrow wv bv wa ba 0 z := by
  unfold k1_pay17
  exact soft_slab hrow wv bv wa ba 0 _ _ _ _ _ _ _ _ _ r
    (fun z' => Tail.logit_eq hrow wv bv wa ba 0 v68 v77 _ r h68 h77
      (mean_apply hrow wa ba r v61 v77 v86 v95 v97 v99 h77 h86 h95 h104) z') z

/-- The slab stored at action 1. -/
theorem slab1_apply (v61 : FVec Ideal ⟨2, ![64, 128]⟩ .f32) (v68 v77 v86 v95 : FVec Ideal ⟨2, ![64, 51]⟩ .f32)
    (v97 : FVec Ideal ⟨2, ![128, 51]⟩ .f32) (v99 : FVec Ideal ⟨3, ![1, 1, 51]⟩ .f32)
    (h68 : ∀ z, v68 (ix2 r z) = value hrow wv bv z)
    (h77 : ∀ z, v77 (ix2 r z) = adv hrow wa ba 0 z) (h86 : ∀ z, v86 (ix2 r z) = adv hrow wa ba 1 z)
    (h95 : ∀ z, v95 (ix2 r z) = adv hrow wa ba 2 z)
    (h104 : ∀ z, k1_pay15 (F := Ideal) v61 v97 v99 (ix2 r z) = adv hrow wa ba 3 z) (z : Fin 51) :
    k1_pay18 (F := Ideal) v61 v68 v77 v86 v95 v97 v99 (ix3 (0 : Fin 1) r z) = prob hrow wv bv wa ba 1 z := by
  unfold k1_pay18
  exact soft_slab hrow wv bv wa ba 1 _ _ _ _ _ _ _ _ _ r
    (fun z' => Tail.logit_eq hrow wv bv wa ba 1 v68 v86 _ r h68 h86
      (mean_apply hrow wa ba r v61 v77 v86 v95 v97 v99 h77 h86 h95 h104) z') z

/-- The slab stored at action 2, from the value layer, its advantage layer and the mean. -/
theorem slab2_apply (v68 v95 v111 : FVec Ideal ⟨2, ![64, 51]⟩ .f32)
    (h68 : ∀ z, v68 (ix2 r z) = value hrow wv bv z) (h95 : ∀ z, v95 (ix2 r z) = adv hrow wa ba 2 z)
    (h111 : ∀ z, v111 (ix2 r z) = advMean hrow wa ba z) (z : Fin 51) :
    k1_pay1 (F := Ideal) v68 v95 v111 (ix3 (0 : Fin 1) r z) = prob hrow wv bv wa ba 2 z := by
  unfold k1_pay1
  exact soft_slab hrow wv bv wa ba 2 _ _ _ _ _ _ _ _ _ r
    (fun z' => Tail.logit_eq hrow wv bv wa ba 2 v68 v95 v111 r h68 h95 h111 z') z

/-- The slab stored at action 3. -/
theorem slab3_apply (v68 v104 v111 : FVec Ideal ⟨2, ![64, 51]⟩ .f32)
    (h68 : ∀ z, v68 (ix2 r z) = value hrow wv bv z) (h104 : ∀ z, v104 (ix2 r z) = adv hrow wa ba 3 z)
    (h111 : ∀ z, v111 (ix2 r z) = advMean hrow wa ba z) (z : Fin 51) :
    k1_pay2 (F := Ideal) v68 v104 v111 (ix3 (0 : Fin 1) r z) = prob hrow wv bv wa ba 3 z := by
  unfold k1_pay2
  exact soft_slab hrow wv bv wa ba 3 _ _ _ _ _ _ _ _ _ r
    (fun z' => Tail.logit_eq hrow wv bv wa ba 3 v68 v104 v111 r h68 h104 h111 z') z

end rows

end Cert.KernelIdeal.HeadVal

end
-- ==== Proof.HeadK.lean ====
/-
  Stage two of the kernel program as a whole-array function. The region runs over 4 grid points; point `t` stages the
  64 images `[64t, 64t + 64)` of the `[9, 256, 3200]` input and the whole weight arrays, and writes back the block
  `(0, t, 0)` of shape `[4, 64, 51]` of the `[4, 256, 51]` result. The body stores four slabs `[1, 64, 51]`, one per
  action; slab `i` holds at `(0, r, z)` the softmax probability of action `i`, atom `z`, of image `r` of the block, which
  reads that image's rows only. So the block written at point `t` is block `t` of ONE function of the whole arrays, the
  specification's `headFirst`, and the blocks of the 4 points cover the result (image `b` lies in the block of point `b / 64`).
-/
import proofs.«161365_g2000107080715666_pallasbulk_1227_2_alg».proof.Proof.Gen.KernelIdeal.Frame
import proofs.«161365_g2000107080715666_pallasbulk_1227_2_alg».proof.Proof.Spec
import proofs.«161365_g2000107080715666_pallasbulk_1227_2_alg».proof.Proof.LibDuelTail
import proofs.«161365_g2000107080715666_pallasbulk_1227_2_alg».proof.Proof.HeadKFront
import proofs.«161365_g2000107080715666_pallasbulk_1227_2_alg».proof.Proof.HeadKTail
import Idealize.ShloMosaic.Lib.Pipeline.Value

noncomputable section

namespace Cert.KernelIdeal.HeadVal

open Idealize.ShloMosaic Idealize.ShloMosaic.TcCoe Idealize.SL.Sem Idealize.ShloMosaic.ValueIdx
open Cert.Dueling Cert.KernelIdeal Cert.KernelIdeal.Gen
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The body's four stores as one function of the block -/

/-- The one-slab rectangle at offset `(p, 0, 0)` of a rank-3 shape places `(u, c, n)` at `(p, c, n)`. -/
theorem emb_slab {n0 n1 n2 : ℕ} (p : ℕ) (hp : p < n0)
    (inb : ∀ a, (![p, 0, 0] : Fin 3 → ℕ) a + (![1, n1, n2] : Fin 3 → ℕ) a ≤ (⟨3, ![n0, n1, n2]⟩ : Shape).size a)
    (u : Fin 1) (c : Fin n1) (n : Fin n2) :
    (Rect.unit (s := ⟨3, ![n0, n1, n2]⟩) ![p, 0, 0] ![1, n1, n2] inb).emb (ix3 u c n) = ix3 (⟨p, hp⟩ : Fin n0) c n := by
  funext a
  apply Fin.ext
  have hu : u.val = 0 := by omega
  match a with
  | ⟨0, _⟩ => show p + 1 * u.val = p; omega
  | ⟨1, _⟩ => show 0 + 1 * c.val = c.val; omega
  | ⟨2, _⟩ => show 0 + 1 * n.val = n.val; omega

/-- Four slabs stored at actions 3, 2, 1, 0 that each hold the matching slab of `G` leave `G` in the buffer. -/
theorem canon4 (p0 p1 p2 p3 : Vec Ideal S1x64x51 .f32) (G : S4x64x51.Idx → EReal)
    (h3 : ∀ (r : Fin 64) (z : Fin 51), p0 (ix3 (0 : Fin 1) r z) = G (ix3 (3 : Fin 4) r z))
    (h2 : ∀ (r : Fin 64) (z : Fin 51), p1 (ix3 (0 : Fin 1) r z) = G (ix3 (2 : Fin 4) r z))
    (h1 : ∀ (r : Fin 64) (z : Fin 51), p2 (ix3 (0 : Fin 1) r z) = G (ix3 (1 : Fin 4) r z))
    (h0 : ∀ (r : Fin 64) (z : Fin 51), p3 (ix3 (0 : Fin 1) r z) = G (ix3 (0 : Fin 4) r z)) :
    View.canon ([⟨r1_26, p0⟩, ⟨r1_25, p1⟩, ⟨r1_24, p2⟩, ⟨r1_23, p3⟩] : List (View.Piece (Elt Ideal) S4x64x51 .f32)) = G := by
  funext y
  refine View.canon_apply_of_pieces G _ ?_ y (cover1_9 p0 p1 p2 p3 y)
  intro p hp x
  simp only [List.mem_cons, List.not_mem_nil, or_false] at hp
  rcases hp with rfl | rfl | rfl | rfl
  · obtain ⟨u, r, z, rfl⟩ : ∃ (u : Fin 1) (r : Fin 64) (z : Fin 51), x = ix3 u r z := ⟨x 0, x 1, x 2, eq_ix3 x⟩
    obtain rfl : u = 0 := Subsingleton.elim _ _
    exact (h3 r z).trans (congrArg G (emb_slab 3 (by decide) inb_S4x64x51_S1x64x51_3_0_0 0 r z).symm)
  · obtain ⟨u, r, z, rfl⟩ : ∃ (u : Fin 1) (r : Fin 64) (z : Fin 51), x = ix3 u r z := ⟨x 0, x 1, x 2, eq_ix3 x⟩
    obtain rfl : u = 0 := Subsingleton.elim _ _
    exact (h2 r z).trans (congrArg G (emb_slab 2 (by decide) inb_S4x64x51_S1x64x51_2_0_0 0 r z).symm)
  · obtain ⟨u, r, z, rfl⟩ : ∃ (u : Fin 1) (r : Fin 64) (z : Fin 51), x = ix3 u r z := ⟨x 0, x 1, x 2, eq_ix3 x⟩
    obtain rfl : u = 0 := Subsingleton.elim _ _
    exact (h1 r z).trans (congrArg G (emb_slab 1 (by decide) inb_S4x64x51_S1x64x51_1_0_0 0 r z).symm)
  · obtain ⟨u, r, z, rfl⟩ : ∃ (u : Fin 1) (r : Fin 64) (z : Fin 51), x = ix3 u r z := ⟨x 0, x 1, x 2, eq_ix3 x⟩
    obtain rfl : u = 0 := Subsingleton.elim _ _
    exact (h0 r z).trans (congrArg G (emb_slab 0 (by decide) inb_S4x64x51_S1x64x51_0_0_0 0 r z).symm)

/-! ## The payloads of the four stores, named -/

section block

variable (x0 : Vec Ideal S9x64x3200 .bf16) (x1 : Vec Ideal S3200x64 .bf16) (x2 : Vec Ideal S1x64 .f32)
  (x3 : Vec Ideal S9x64x256 .f32) (x4 : Vec Ideal S1x256 .f32) (x5 : Vec Ideal S128x51 .f32) (x6 : Vec Ideal S1x51 .f32)
  (x7 : Vec Ideal S4x128x51 .f32) (x8 : Vec Ideal S4x1x51 .f32)

/-- The features `[576, 64]`. -/
abbrev T3 : FVec Ideal S576x64 .f32 := k1_pay3 (F := Ideal) (View.ld x0 r1_0) (View.ld x1 r1_1) (View.ld x2 r1_2)
/-- The hidden pre-activation after positions 0–2. -/
abbrev T4 : FVec Ideal S64x256 .f32 :=
  k1_pay4 (F := Ideal) (View.ld x0 r1_0) (View.ld x1 r1_1) (View.ld x2 r1_2) (View.ld x4 r1_3) (View.ld x3 r1_4) (View.ld x3 r1_5) (View.ld x3 r1_6)
/-- Position 3's contribution. -/
abbrev T5 : FVec Ideal S64x256 .f32 := k1_pay5 (F := Ideal) (View.ld x0 r1_0) (View.ld x1 r1_1) (View.ld x2 r1_2) (View.ld x3 r1_7)
/-- The hidden activation `[64, 256]`. -/
abbrev T6 : FVec Ideal S64x256 .f32 :=
  k1_pay6 (F := Ideal) (T3 x0 x1 x2) (T4 x0 x1 x2 x3 x4) (T5 x0 x1 x2 x3) (View.ld x3 r1_8) (View.ld x3 r1_9) (View.ld x3 r1_10) (View.ld x3 r1_11) (View.ld x3 r1_12)
/-- Its advantage half. -/
abbrev T7 : FVec Ideal S64x128 .f32 :=
  k1_pay7 (F := Ideal) (T3 x0 x1 x2) (T4 x0 x1 x2 x3 x4) (T5 x0 x1 x2 x3) (View.ld x3 r1_8) (View.ld x3 r1_9) (View.ld x3 r1_10) (View.ld x3 r1_11) (View.ld x3 r1_12)
/-- The value layer. -/
abbrev T10 : FVec Ideal S64x51 .f32 :=
  k1_pay10 (F := Ideal) (k1_pay8 (T3 x0 x1 x2) (T4 x0 x1 x2 x3 x4) (T5 x0 x1 x2 x3) (View.ld x3 r1_8) (View.ld x3 r1_9) (View.ld x3 r1_10) (View.ld x3 r1_11) (View.ld x3 r1_12) (View.ld x5 r1_13)) (k1_pay9 (View.ld x6 r1_14))
/-- The advantage layers of actions 0, 1, 2. -/
abbrev T11 : FVec Ideal S64x51 .f32 := k1_pay11 (F := Ideal) (T7 x0 x1 x2 x3 x4) (View.ld x7 r1_15) (View.ld x8 r1_16)
abbrev T12 : FVec Ideal S64x51 .f32 := k1_pay12 (F := Ideal) (T7 x0 x1 x2 x3 x4) (View.ld x7 r1_17) (View.ld x8 r1_18)
abbrev T13 : FVec Ideal S64x51 .f32 := k1_pay13 (F := Ideal) (T7 x0 x1 x2 x3 x4) (View.ld x7 r1_19) (View.ld x8 r1_20)
/-- Action 3's weights as a matrix, its advantage layer, and the mean of the four. -/
abbrev T14 : FVec Ideal S128x51 .f32 := k1_pay14 (F := Ideal) (View.ld x7 r1_21)
abbrev T15 : FVec Ideal S64x51 .f32 := k1_pay15 (F := Ideal) (T7 x0 x1 x2 x3 x4) (T14 x7) (View.ld x8 r1_22)
abbrev T16 : FVec Ideal S64x51 .f32 :=
  k1_pay16 (F := Ideal) (T7 x0 x1 x2 x3 x4) (T11 x0 x1 x2 x3 x4 x7 x8) (T12 x0 x1 x2 x3 x4 x7 x8) (T13 x0 x1 x2 x3 x4 x7 x8) (T14 x7) (View.ld x8 r1_22)

/-- The buffer after the body is the canon of the four stores over the named payloads. -/
theorem out1_9_named : out1_9 (F := Ideal) x0 x1 x2 x3 x4 x5 x6 x7 x8
    = View.canon ([⟨r1_26, k1_pay2 (T10 x0 x1 x2 x3 x4 x5 x6) (T15 x0 x1 x2 x3 x4 x7 x8) (T16 x0 x1 x2 x3 x4 x7 x8)⟩,
        ⟨r1_25, k1_pay1 (T10 x0 x1 x2 x3 x4 x5 x6) (T13 x0 x1 x2 x3 x4 x7 x8) (T16 x0 x1 x2 x3 x4 x7 x8)⟩,
        ⟨r1_24, k1_pay18 (T7 x0 x1 x2 x3 x4) (T10 x0 x1 x2 x3 x4 x5 x6) (T11 x0 x1 x2 x3 x4 x7 x8) (T12 x0 x1 x2 x3 x4 x7 x8) (T13 x0 x1 x2 x3 x4 x7 x8) (T14 x7) (View.ld x8 r1_22)⟩,
        ⟨r1_23, k1_pay17 (T7 x0 x1 x2 x3 x4) (T10 x0 x1 x2 x3 x4 x5 x6) (T11 x0 x1 x2 x3 x4 x7 x8) (T12 x0 x1 x2 x3 x4 x7 x8) (T13 x0 x1 x2 x3 x4 x7 x8) (T14 x7) (View.ld x8 r1_22)⟩]
          : List (View.Piece (Elt Ideal) S4x64x51 .f32)) := rfl

/-! ## Row `r` of every payload -/

variable (r : Fin 64)

/-- Row `r` of the hidden activation of the block. -/
abbrev hrowB : Fin 256 → EReal :=
  hidFirst (A := 64) (View.ld x0 r1_0) (View.ld x1 r1_1) (View.ld x2 r1_2) x3 (View.ld x4 r1_3) r

theorem T6_row (n : Fin 256) : T6 x0 x1 x2 x3 x4 (ix2 r n) = hrowB x0 x1 x2 x3 x4 r n :=
  hidden_apply (View.ld x0 r1_0) (View.ld x1 r1_1) (View.ld x2 r1_2) (View.ld x4 r1_3)
    (View.ld x3 r1_4) (View.ld x3 r1_5) (View.ld x3 r1_6) (View.ld x3 r1_7) (View.ld x3 r1_8) (View.ld x3 r1_9)
    (View.ld x3 r1_10) (View.ld x3 r1_11) (View.ld x3 r1_12) x3 r n
    (fun c => ld_slab x3 0 (by decide) _ 0 c n) (fun c => ld_slab x3 1 (by decide) _ 0 c n)
    (fun c => ld_slab x3 2 (by decide) _ 0 c n) (fun c => ld_slab x3 3 (by decide) _ 0 c n)
    (fun c => ld_slab x3 4 (by decide) _ 0 c n) (fun c => ld_slab x3 5 (by decide) _ 0 c n)
    (fun c => ld_slab x3 6 (by decide) _ 0 c n) (fun c => ld_slab x3 7 (by decide) _ 0 c n)
    (fun c => ld_slab x3 8 (by decide) _ 0 c n)

theorem T7_row (k : Fin 128) :
    T7 x0 x1 x2 x3 x4 (ix2 r k) = hrowB x0 x1 x2 x3 x4 r (⟨128 + k.val, by omega⟩ : Fin 256) :=
  hi_apply (hrowB x0 x1 x2 x3 x4 r) r _ _ _ _ _ _ _ _ (T6_row x0 x1 x2 x3 x4 r) k

theorem T10_row (z : Fin 51) :
    T10 x0 x1 x2 x3 x4 x5 x6 (ix2 r z) = value (hrowB x0 x1 x2 x3 x4 r) (View.ld x5 r1_13) (View.ld x6 r1_14) z :=
  value_apply (hrowB x0 x1 x2 x3 x4 r) (View.ld x5 r1_13) (View.ld x6 r1_14) r _ _ _ _ _ _ _ _ (View.ld x5 r1_13)
    (View.ld x6 r1_14) (T6_row x0 x1 x2 x3 x4 r) (fun _ _ => rfl) (fun _ => rfl) z

theorem T11_row (z : Fin 51) : T11 x0 x1 x2 x3 x4 x7 x8 (ix2 r z) = adv (hrowB x0 x1 x2 x3 x4 r) x7 x8 0 z :=
  adv0_apply (hrowB x0 x1 x2 x3 x4 r) x7 x8 r 0 (T7 x0 x1 x2 x3 x4) (View.ld x7 r1_15) (View.ld x8 r1_16)
    (T7_row x0 x1 x2 x3 x4 r) z (fun k => ld_slab x7 0 (by decide) _ 0 k z) (ld_slab x8 0 (by decide) _ 0 0 z)

theorem T12_row (z : Fin 51) : T12 x0 x1 x2 x3 x4 x7 x8 (ix2 r z) = adv (hrowB x0 x1 x2 x3 x4 r) x7 x8 1 z :=
  adv1_apply (hrowB x0 x1 x2 x3 x4 r) x7 x8 r 1 (T7 x0 x1 x2 x3 x4) (View.ld x7 r1_17) (View.ld x8 r1_18)
    (T7_row x0 x1 x2 x3 x4 r) z (fun k => ld_slab x7 1 (by decide) _ 0 k z) (ld_slab x8 1 (by decide) _ 0 0 z)

theorem T13_row (z : Fin 51) : T13 x0 x1 x2 x3 x4 x7 x8 (ix2 r z) = adv (hrowB x0 x1 x2 x3 x4 r) x7 x8 2 z :=
  adv2_apply (hrowB x0 x1 x2 x3 x4 r) x7 x8 r 2 (T7 x0 x1 x2 x3 x4) (View.ld x7 r1_19) (View.ld x8 r1_20)
    (T7_row x0 x1 x2 x3 x4 r) z (fun k => ld_slab x7 2 (by decide) _ 0 k z) (ld_slab x8 2 (by decide) _ 0 0 z)

theorem T15_row (z : Fin 51) : T15 x0 x1 x2 x3 x4 x7 x8 (ix2 r z) = adv (hrowB x0 x1 x2 x3 x4 r) x7 x8 3 z :=
  adv3_apply (hrowB x0 x1 x2 x3 x4 r) x7 x8 r 3 (T7 x0 x1 x2 x3 x4) (View.ld x7 r1_21) (View.ld x8 r1_22)
    (T7_row x0 x1 x2 x3 x4 r) z (fun k => ld_slab x7 3 (by decide) _ 0 k z) (ld_slab x8 3 (by decide) _ 0 0 z)

theorem T16_row (z : Fin 51) : T16 x0 x1 x2 x3 x4 x7 x8 (ix2 r z) = advMean (hrowB x0 x1 x2 x3 x4 r) x7 x8 z :=
  mean_apply (hrowB x0 x1 x2 x3 x4 r) x7 x8 r (T7 x0 x1 x2 x3 x4) _ _ _ (T14 x7) (View.ld x8 r1_22)
    (T11_row x0 x1 x2 x3 x4 x7 x8 r) (T12_row x0 x1 x2 x3 x4 x7 x8 r) (T13_row x0 x1 x2 x3 x4 x7 x8 r)
    (T15_row x0 x1 x2 x3 x4 x7 x8 r) z

end block

/-! ## The block as one function of its inputs -/

/-- What the body leaves in the result's staging buffer: the specification's head of the block's inputs. -/
theorem out1_9_eq (x0 : Vec Ideal S9x64x3200 .bf16) (x1 : Vec Ideal S3200x64 .bf16) (x2 : Vec Ideal S1x64 .f32)
    (x3 : Vec Ideal S9x64x256 .f32) (x4 : Vec Ideal S1x256 .f32) (x5 : Vec Ideal S128x51 .f32) (x6 : Vec Ideal S1x51 .f32)
    (x7 : Vec Ideal S4x128x51 .f32) (x8 : Vec Ideal S4x1x51 .f32) :
    out1_9 (F := Ideal) x0 x1 x2 x3 x4 x5 x6 x7 x8 = headFirst (A := 64) x0 x1 x2 x3 x4 x5 x6 x7 x8 := by
  have e : headFirst (A := 64) x0 x1 x2 x3 x4 x5 x6 x7 x8
      = headFirst (A := 64) (View.ld x0 r1_0) (View.ld x1 r1_1) (View.ld x2 r1_2) x3 (View.ld x4 r1_3)
          (View.ld x5 r1_13) (View.ld x6 r1_14) x7 x8 := by
    rw [View.ld_unit_zero (S := S9x64x3200) hz3, View.ld_unit_zero (S := S3200x64) hz2, View.ld_unit_zero (S := S1x64) hz2,
      View.ld_unit_zero (S := S1x256) hz2, View.ld_unit_zero (S := S128x51) hz2, View.ld_unit_zero (S := S1x51) hz2]
  rw [e, out1_9_named]
  refine canon4 _ _ _ _ _ (fun r z => ?_) (fun r z => ?_) (fun r z => ?_) (fun r z => ?_)
  · exact slab3_apply (hrowB x0 x1 x2 x3 x4 r) (View.ld x5 r1_13) (View.ld x6 r1_14) x7 x8 r _ _ _
      (T10_row x0 x1 x2 x3 x4 x5 x6 r) (T15_row x0 x1 x2 x3 x4 x7 x8 r) (T16_row x0 x1 x2 x3 x4 x7 x8 r) z
  · exact slab2_apply (hrowB x0 x1 x2 x3 x4 r) (View.ld x5 r1_13) (View.ld x6 r1_14) x7 x8 r _ _ _
      (T10_row x0 x1 x2 x3 x4 x5 x6 r) (T13_row x0 x1 x2 x3 x4 x7 x8 r) (T16_row x0 x1 x2 x3 x4 x7 x8 r) z
  · exact slab1_apply (hrowB x0 x1 x2 x3 x4 r) (View.ld x5 r1_13) (View.ld x6 r1_14) x7 x8 r _ _ _ _ _ _ _
      (T10_row x0 x1 x2 x3 x4 x5 x6 r) (T11_row x0 x1 x2 x3 x4 x7 x8 r) (T12_row x0 x1 x2 x3 x4 x7 x8 r)
      (T13_row x0 x1 x2 x3 x4 x7 x8 r) (T15_row x0 x1 x2 x3 x4 x7 x8 r) z
  · exact slab0_apply (hrowB x0 x1 x2 x3 x4 r) (View.ld x5 r1_13) (View.ld x6 r1_14) x7 x8 r _ _ _ _ _ _ _
      (T10_row x0 x1 x2 x3 x4 x5 x6 r) (T11_row x0 x1 x2 x3 x4 x7 x8 r) (T12_row x0 x1 x2 x3 x4 x7 x8 r)
      (T13_row x0 x1 x2 x3 x4 x7 x8 r) (T15_row x0 x1 x2 x3 x4 x7 x8 r) z

/-! ## The block of a point as a block of the whole-array function -/

/-- The head on a block of 64 images whose rows are rows `64·tq + r` of a 256-image input, with the same weights, is
    the matching entry of the head on the 256 images: every entry reads one image only. -/
theorem head_block (P2 : Arr ⟨3, ![9, 256, 3200]⟩) (x0 : Arr ⟨3, ![9, 64, 3200]⟩)
    (w2 x1 : Arr ⟨2, ![3200, 64]⟩) (b2 x2 : Arr ⟨2, ![1, 64]⟩) (w0 x3 : Arr ⟨3, ![9, 64, 256]⟩) (b0 x4 : Arr ⟨2, ![1, 256]⟩)
    (wv x5 : Arr ⟨2, ![128, 51]⟩) (bv x6 : Arr ⟨2, ![1, 51]⟩) (wa x7 : Arr ⟨3, ![4, 128, 51]⟩) (ba x8 : Arr ⟨3, ![4, 1, 51]⟩)
    (i : Fin 4) (r : Fin 64) (z : Fin 51) (r' : Fin 256)
    (h0 : ∀ (p : Fin 9) (j : Fin 3200), x0 (ix3 p r j) = P2 (ix3 p r' j))
    (h1 : x1 = w2) (h2 : x2 = b2) (h3 : x3 = w0) (h4 : x4 = b0) (h5 : x5 = wv) (h6 : x6 = bv) (h7 : x7 = wa) (h8 : x8 = ba) :
    headFirst (A := 64) x0 x1 x2 x3 x4 x5 x6 x7 x8 (ix3 i r z)
      = headFirst (A := 256) P2 w2 b2 w0 b0 wv bv wa ba (ix3 i r' z) := by
  subst h1 h2 h3 h4 h5 h6 h7 h8
  rw [headFirst_ix3, headFirst_ix3]
  have e : (fun (p : Fin 9) (j : Fin 3200) => x0 (ix3 p r j)) = fun p j => P2 (ix3 p r' j) :=
    funext fun p => funext fun j => h0 p j
  have eh : hidFirst (A := 64) x0 x1 x2 x3 x4 r = hidFirst (A := 256) P2 x1 x2 x3 x4 r' := by
    funext n
    show max (preBiasFirst (fun p j => x0 (ix3 p r j)) x1 x2 x3 x4 n) zeroW
      = max (preBiasFirst (fun p j => P2 (ix3 p r' j)) x1 x2 x3 x4 n) zeroW
    rw [e]
  rw [eh]

section array

variable (V : (c : Dev nD) → (b : Ref sig .tc) → Buf (Elt Ideal) ((c : Thread nD τ).loc b))

/-- The printed index maps over the 4 grid points: windows 0 and 9 move along the image axis with the point, every other
    window stays at its whole array. -/
theorem idx_facts : ∀ t : Fin cfg1.N,
    win1_0.index t (0 : Fin 3) = 0
    ∧ win1_0.index t (1 : Fin 3) = t.val
    ∧ win1_0.index t (2 : Fin 3) = 0
    ∧ win1_9.index t (0 : Fin 3) = 0
    ∧ win1_9.index t (1 : Fin 3) = t.val
    ∧ win1_9.index t (2 : Fin 3) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 3) = 0
    ∧ win1_3.index t (1 : Fin 3) = 0
    ∧ win1_3.index t (2 : Fin 3) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 3) = 0
    ∧ win1_7.index t (1 : Fin 3) = 0
    ∧ win1_7.index t (2 : Fin 3) = 0
    ∧ win1_8.index t (0 : Fin 3) = 0
    ∧ win1_8.index t (1 : Fin 3) = 0
    ∧ win1_8.index t (2 : Fin 3) = 0 :=
  (by decide +kernel : ∀ t : Fin grid1.N, _)

/-- Window 1's block at every point is its whole array: the index map is constantly zero. -/
theorem iblk1_1_eq (c : Dev nD) (t : Fin cfg1.N) :
    (iblk1 V c 1 t : S3200x64.Idx → Elt Ideal .bf16) = (V c main_v9 : S3200x64.Idx → Elt Ideal .bf16) := by
  obtain ⟨a0, a1, a2, o0, o1, o2, w1_0, w1_1, w2_0, w2_1, w3_0, w3_1, w3_2, w4_0, w4_1, w5_0, w5_1, w6_0, w6_1, w7_0, w7_1, w7_2, w8_0, w8_1, w8_2⟩ := idx_facts t
  funext y
  show (V c main_v9 : S3200x64.Idx → Elt Ideal .bf16) (((cfg1.win 1).blk t).view.emb y) = _
  refine congrArg _ (funext fun a => Fin.ext ?_)
  match a with
  | ⟨0, _⟩ => show win1_1.index t (0 : Fin 2) * 3200 + 1 * (y 0).val = (y 0).val; omega
  | ⟨1, _⟩ => show win1_1.index t (1 : Fin 2) * 64 + 1 * (y 1).val = (y 1).val; omega

/-- Window 2's block at every point is its whole array: the index map is constantly zero. -/
theorem iblk1_2_eq (c : Dev nD) (t : Fin cfg1.N) :
    (iblk1 V c 2 t : S1x64.Idx → Elt Ideal .f32) = (V c main_arg4 : S1x64.Idx → Elt Ideal .f32) := by
  obtain ⟨a0, a1, a2, o0, o1, o2, w1_0, w1_1, w2_0, w2_1, w3_0, w3_1, w3_2, w4_0, w4_1, w5_0, w5_1, w6_0, w6_1, w7_0, w7_1, w7_2, w8_0, w8_1, w8_2⟩ := idx_facts t
  funext y
  show (V c main_arg4 : S1x64.Idx → Elt Ideal .f32) (((cfg1.win 2).blk t).view.emb y) = _
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- Window 3's block at every point is its whole array: the index map is constantly zero. -/
theorem iblk1_3_eq (c : Dev nD) (t : Fin cfg1.N) :
    (iblk1 V c 3 t : S9x64x256.Idx → Elt Ideal .f32) = (V c main_arg5 : S9x64x256.Idx → Elt Ideal .f32) := by
  obtain ⟨a0, a1, a2, o0, o1, o2, w1_0, w1_1, w2_0, w2_1, w3_0, w3_1, w3_2, w4_0, w4_1, w5_0, w5_1, w6_0, w6_1, w7_0, w7_1, w7_2, w8_0, w8_1, w8_2⟩ := idx_facts t
  funext y
  show (V c main_arg5 : S9x64x256.Idx → Elt Ideal .f32) (((cfg1.win 3).blk t).view.emb y) = _
  refine congrArg _ (funext fun a => Fin.ext ?_)
  match a with
  | ⟨0, _⟩ => show win1_3.index t (0 : Fin 3) * 9 + 1 * (y 0).val = (y 0).val; omega
  | ⟨1, _⟩ => show win1_3.index t (1 : Fin 3) * 64 + 1 * (y 1).val = (y 1).val; omega
  | ⟨2, _⟩ => show win1_3.index t (2 : Fin 3) * 256 + 1 * (y 2).val = (y 2).val; omega

/-- Window 4's block at every point is its whole array: the index map is constantly zero. -/
theorem iblk1_4_eq (c : Dev nD) (t : Fin cfg1.N) :
    (iblk1 V c 4 t : S1x256.Idx → Elt Ideal .f32) = (V c main_arg6 : S1x256.Idx → Elt Ideal .f32) := by
  obtain ⟨a0, a1, a2, o0, o1, o2, w1_0, w1_1, w2_0, w2_1, w3_0, w3_1, w3_2, w4_0, w4_1, w5_0, w5_1, w6_0, w6_1, w7_0, w7_1, w7_2, w8_0, w8_1, w8_2⟩ := idx_facts t
  funext y
  show (V c main_arg6 : S1x256.Idx → Elt Ideal .f32) (((cfg1.win 4).blk t).view.emb y) = _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- Window 5's block at every point is its whole array: the index map is constantly zero. -/
theorem iblk1_5_eq (c : Dev nD) (t : Fin cfg1.N) :
    (iblk1 V c 5 t : S128x51.Idx → Elt Ideal .f32) = (V c main_arg7 : S128x51.Idx → Elt Ideal .f32) := by
  obtain ⟨a0, a1, a2, o0, o1, o2, w1_0, w1_1, w2_0, w2_1, w3_0, w3_1, w3_2, w4_0, w4_1, w5_0, w5_1, w6_0, w6_1, w7_0, w7_1, w7_2, w8_0, w8_1, w8_2⟩ := idx_facts t
  funext y
  show (V c main_arg7 : S128x51.Idx → Elt Ideal .f32) (((cfg1.win 5).blk t).view.emb y) = _
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 51 + 1 * (y 1).val = (y 1).val; omega

/-- Window 6's block at every point is its whole array: the index map is constantly zero. -/
theorem iblk1_6_eq (c : Dev nD) (t : Fin cfg1.N) :
    (iblk1 V c 6 t : S1x51.Idx → Elt Ideal .f32) = (V c main_arg8 : S1x51.Idx → Elt Ideal .f32) := by
  obtain ⟨a0, a1, a2, o0, o1, o2, w1_0, w1_1, w2_0, w2_1, w3_0, w3_1, w3_2, w4_0, w4_1, w5_0, w5_1, w6_0, w6_1, w7_0, w7_1, w7_2, w8_0, w8_1, w8_2⟩ := idx_facts t
  funext y
  show (V c main_arg8 : S1x51.Idx → Elt Ideal .f32) (((cfg1.win 6).blk t).view.emb y) = _
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 51 + 1 * (y 1).val = (y 1).val; omega

/-- Window 7's block at every point is its whole array: the index map is constantly zero. -/
theorem iblk1_7_eq (c : Dev nD) (t : Fin cfg1.N) :
    (iblk1 V c 7 t : S4x128x51.Idx → Elt Ideal .f32) = (V c main_arg9 : S4x128x51.Idx → Elt Ideal .f32) := by
  obtain ⟨a0, a1, a2, o0, o1, o2, w1_0, w1_1, w2_0, w2_1, w3_0, w3_1, w3_2, w4_0, w4_1, w5_0, w5_1, w6_0, w6_1, w7_0, w7_1, w7_2, w8_0, w8_1, w8_2⟩ := idx_facts t
  funext y
  show (V c main_arg9 : S4x128x51.Idx → Elt Ideal .f32) (((cfg1.win 7).blk t).view.emb y) = _
  refine congrArg _ (funext fun a => Fin.ext ?_)
  match a with
  | ⟨0, _⟩ => show win1_7.index t (0 : Fin 3) * 4 + 1 * (y 0).val = (y 0).val; omega
  | ⟨1, _⟩ => show win1_7.index t (1 : Fin 3) * 128 + 1 * (y 1).val = (y 1).val; omega
  | ⟨2, _⟩ => show win1_7.index t (2 : Fin 3) * 51 + 1 * (y 2).val = (y 2).val; omega

/-- Window 8's block at every point is its whole array: the index map is constantly zero. -/
theorem iblk1_8_eq (c : Dev nD) (t : Fin cfg1.N) :
    (iblk1 V c 8 t : S4x1x51.Idx → Elt Ideal .f32) = (V c main_arg10 : S4x1x51.Idx → Elt Ideal .f32) := by
  obtain ⟨a0, a1, a2, o0, o1, o2, w1_0, w1_1, w2_0, w2_1, w3_0, w3_1, w3_2, w4_0, w4_1, w5_0, w5_1, w6_0, w6_1, w7_0, w7_1, w7_2, w8_0, w8_1, w8_2⟩ := idx_facts t
  funext y
  show (V c main_arg10 : S4x1x51.Idx → Elt Ideal .f32) (((cfg1.win 8).blk t).view.emb y) = _
  refine congrArg _ (funext fun a => Fin.ext ?_)
  match a with
  | ⟨0, _⟩ => show win1_8.index t (0 : Fin 3) * 4 + 1 * (y 0).val = (y 0).val; omega
  | ⟨1, _⟩ => show win1_8.index t (1 : Fin 3) * 1 + 1 * (y 1).val = (y 1).val; omega
  | ⟨2, _⟩ => show win1_8.index t (2 : Fin 3) * 51 + 1 * (y 2).val = (y 2).val; omega

/-- Window 0's block at point `t` holds the images `64·t + r` of the input. -/
theorem iblk1_0_apply (c : Dev nD) (t : Fin cfg1.N) (p : Fin 9) (r : Fin 64) (j : Fin 3200) (r' : Fin 256)
    (hr' : r'.val = t.val * 64 + r.val) :
    (iblk1 V c 0 t : S9x64x3200.Idx → Elt Ideal .bf16) (ix3 p r j)
      = (V c main_v8 : S9x256x3200.Idx → Elt Ideal .bf16) (ix3 p r' j) := by
  obtain ⟨a0, a1, a2, o0, o1, o2, w1_0, w1_1, w2_0, w2_1, w3_0, w3_1, w3_2, w4_0, w4_1, w5_0, w5_1, w6_0, w6_1, w7_0, w7_1, w7_2, w8_0, w8_1, w8_2⟩ := idx_facts t
  show (V c main_v8 : S9x256x3200.Idx → Elt Ideal .bf16) (((cfg1.win 0).blk t).view.emb (ix3 p r j)) = _
  refine congrArg _ (funext fun a => Fin.ext ?_)
  match a with
  | ⟨0, _⟩ => show win1_0.index t (0 : Fin 3) * 9 + 1 * p.val = p.val; omega
  | ⟨1, _⟩ => show win1_0.index t (1 : Fin 3) * 64 + 1 * r.val = r'.val; omega
  | ⟨2, _⟩ => show win1_0.index t (2 : Fin 3) * 3200 + 1 * j.val = j.val; omega

/-- The result as ONE function of the arrays the region finds. -/
abbrev headArr (c : Dev nD) : S4x256x51.Idx → EReal :=
  headFirst (A := 256) (V c main_v8 : S9x256x3200.Idx → EReal) (V c main_v9 : S3200x64.Idx → EReal)
    (V c main_arg4 : S1x64.Idx → EReal) (V c main_arg5 : S9x64x256.Idx → EReal) (V c main_arg6 : S1x256.Idx → EReal)
    (V c main_arg7 : S128x51.Idx → EReal) (V c main_arg8 : S1x51.Idx → EReal) (V c main_arg9 : S4x128x51.Idx → EReal)
    (V c main_arg10 : S4x1x51.Idx → EReal)

/-- What point `t` writes back is block `t` of that function. -/
theorem flushed_eq (c : Dev nD) (t : Fin cfg1.N) :
    (dat1 (F := Ideal) V c).flushed 9 t = ((cfg1.win 9).blk t).view.read (Elt Ideal) (headArr V c) := by
  have ht : t.val < 4 := Nat.lt_of_lt_of_eq t.isLt N_1
  show (cfg1.win 9).cut (grid1.coords t) ((dat1 (F := Ideal) V c).after 9 t) = _
  rw [after1_9]
  rw [out1_9_eq (iblk1 V c 0 t) (iblk1 V c 1 t) (iblk1 V c 2 t) (iblk1 V c 3 t) (iblk1 V c 4 t) (iblk1 V c 5 t)
    (iblk1 V c 6 t) (iblk1 V c 7 t) (iblk1 V c 8 t)]
  obtain ⟨a0, a1, a2, o0, o1, o2, w1_0, w1_1, w2_0, w2_1, w3_0, w3_1, w3_2, w4_0, w4_1, w5_0, w5_1, w6_0, w6_1, w7_0, w7_1, w7_2, w8_0, w8_1, w8_2⟩ := idx_facts t
  funext y
  have hy0 : (y 0).val < 4 := (y 0).isLt
  have hy1 : (y 1).val < 64 := (y 1).isLt
  have hy2 : (y 2).val < 51 := (y 2).isLt
  have eL : (cfg1.win 9).xinj (grid1.coords t) y
      = ix3 (⟨(y 0).val, hy0⟩ : Fin 4) (⟨(y 1).val, hy1⟩ : Fin 64) (⟨(y 2).val, hy2⟩ : Fin 51) :=
    funext fun a => Fin.ext (by
      match a with
      | ⟨0, _⟩ => rfl
      | ⟨1, _⟩ => rfl
      | ⟨2, _⟩ => rfl)
  have eR : ((cfg1.win 9).blk t).view.emb y
      = ix3 (⟨(y 0).val, hy0⟩ : Fin 4) (⟨t.val * 64 + (y 1).val, by omega⟩ : Fin 256) (⟨(y 2).val, hy2⟩ : Fin 51) :=
    funext fun a => Fin.ext (by
      match a with
      | ⟨0, _⟩ => show win1_9.index t (0 : Fin 3) * 4 + 1 * (y 0).val = (y 0).val; omega
      | ⟨1, _⟩ => show win1_9.index t (1 : Fin 3) * 64 + 1 * (y 1).val = t.val * 64 + (y 1).val; omega
      | ⟨2, _⟩ => show win1_9.index t (2 : Fin 3) * 51 + 1 * (y 2).val = (y 2).val; omega)
  show headFirst (A := 64) (iblk1 V c 0 t) (iblk1 V c 1 t) (iblk1 V c 2 t) (iblk1 V c 3 t) (iblk1 V c 4 t) (iblk1 V c 5 t)
      (iblk1 V c 6 t) (iblk1 V c 7 t) (iblk1 V c 8 t) ((cfg1.win 9).xinj (grid1.coords t) y)
    = headArr V c (((cfg1.win 9).blk t).view.emb y)
  rw [eL, eR]
  exact head_block _ _ _ _ _ _ _ _ _ _ _ _ _ _ _ _ _ _ _ _ _ _
    (fun p j => iblk1_0_apply V c t p _ j _ rfl)
    (iblk1_1_eq V c t) (iblk1_2_eq V c t) (iblk1_3_eq V c t) (iblk1_4_eq V c t) (iblk1_5_eq V c t) (iblk1_6_eq V c t)
    (iblk1_7_eq V c t) (iblk1_8_eq V c t)

/-- An index of the result is in point `t`'s block iff each coordinate is in the block's range on its axis. -/
theorem mem_blk9 (t : Fin cfg1.N) (i : S4x256x51.Idx) :
    i ∈ ((cfg1.win 9).blk t).view.set ↔ ∀ a : Fin 3, win1_9.index t a * S4x64x51.size a ≤ (i a).val
      ∧ (i a).val < win1_9.index t a * S4x64x51.size a + S4x64x51.size a := by
  show i ∈ ((View.whole main_v10).slice (win1_9.rect t)).set ↔ _
  rw [View.set_slice_whole, Rect.mem_set_unit]
  exact Iff.rfl

/-- Image `b` lies in the block of point `b / 64`: the four blocks cover the result. -/
theorem cover9 (i : S4x256x51.Idx) :
    ∃ t : Fin cfg1.N, (cfg1.win 9).flush t = true ∧ i ∈ ((cfg1.win 9).blk t).view.set := by
  have hi0 : (i 0).val < 4 := (i 0).isLt
  have hi1 : (i 1).val < 256 := (i 1).isLt
  have hi2 : (i 2).val < 51 := (i 2).isLt
  have hN : cfg1.N = 4 := N_1
  let t : Fin cfg1.N := ⟨(i 1).val / 64, by rw [hN]; omega⟩
  have htv : t.val = (i 1).val / 64 := rfl
  obtain ⟨a0, a1, a2, o0, o1, o2, w1_0, w1_1, w2_0, w2_1, w3_0, w3_1, w3_2, w4_0, w4_1, w5_0, w5_1, w6_0, w6_1, w7_0, w7_1, w7_2, w8_0, w8_1, w8_2⟩ := idx_facts t
  refine ⟨t, flush1_9 t, ?_⟩
  rw [mem_blk9]
  intro a
  match a with
  | ⟨0, _⟩ => show win1_9.index t (0 : Fin 3) * 4 ≤ (i 0).val ∧ (i 0).val < win1_9.index t (0 : Fin 3) * 4 + 4; omega
  | ⟨1, _⟩ => show win1_9.index t (1 : Fin 3) * 64 ≤ (i 1).val ∧ (i 1).val < win1_9.index t (1 : Fin 3) * 64 + 64; omega
  | ⟨2, _⟩ => show win1_9.index t (2 : Fin 3) * 51 ≤ (i 2).val ∧ (i 2).val < win1_9.index t (2 : Fin 3) * 51 + 51; omega

/-- THE RESULT ARRAY after the region: the specification's head of the arrays the region finds. -/
theorem head_arr (c : Dev nD) :
    ((dat1 (F := Ideal) V c).arrAt 9 cfg1.N : S4x256x51.Idx → EReal)
      = headFirst (A := 256) (V c main_v8 : S9x256x3200.Idx → EReal) (V c main_v9 : S3200x64.Idx → EReal)
          (V c main_arg4 : S1x64.Idx → EReal) (V c main_arg5 : S9x64x256.Idx → EReal) (V c main_arg6 : S1x256.Idx → EReal)
          (V c main_arg7 : S128x51.Idx → EReal) (V c main_arg8 : S1x51.Idx → EReal) (V c main_arg9 : S4x128x51.Idx → EReal)
          (V c main_arg10 : S4x1x51.Idx → EReal) :=
  (dat1 (F := Ideal) V c).arrAt_eq_of_cover 9 (headArr V c) (fun t _ => flushed_eq V c t) (cover9)

end array

end Cert.KernelIdeal.HeadVal

end
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«161365_g2000107080715666_pallasbulk_1227_2_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibBiasRelu.lean ====
/-
  A bias row added to every row of a matrix and the sum rectified, `max (Z(r,j) + b(j)) 0`, over the extended reals, as ONE
  function and in its two spellings. A kernel body holds the bias as a one-row matrix `[1, M]` and repeats it down the
  rows of its block, then takes the maximum with a splat zero. The host lifts the bias vector `[M]` to `[1, M]` and then to
  `[A, M]`, and takes the maximum with a rank-0 zero broadcast to `[A, M]`. The zero is the same f32 word on both sides and is
  never evaluated. Entry `(r, j)` reads row `r` of `Z` only, so a block of rows of `Z` yields the same rows of the result.
-/
import Idealize.ShloMosaic.PureOps.Ideal.Laws
import Idealize.ShloMosaic.Lib.ValueIdx
import Idealize.ShloMosaic.Lib.ValueLayout
import Idealize.ShloMosaic.Lib.Pipeline.Value
import proofs.«161365_g2000107080715666_pallasbulk_1227_2_alg».proof.Proof.LibAffine

namespace Idealize.ShloMosaic.BiasRelu

open Idealize.ShloMosaic.ValueIdx

variable {A B M : Nat}

/-- `max (Z(r,j) + b(0,j)) 0`, the bias a one-row matrix, the zero kept as its f32 word. -/
noncomputable def biasRelu (Z : FVec Ideal ⟨2, ![A, M]⟩ .f32) (b : FVec Ideal ⟨2, ![1, M]⟩ .f32) : FVec Ideal ⟨2, ![A, M]⟩ .f32 :=
  fun i => max (Z i + b (ix2 (0 : Fin 1) ⟨(i 1).val, idx2_lt1 i⟩)) (Ideal.ofBits .f32 0x00000000#32)

theorem biasRelu_ix2 (Z : FVec Ideal ⟨2, ![A, M]⟩ .f32) (b : FVec Ideal ⟨2, ![1, M]⟩ .f32) (r : Fin A) (j : Fin M) :
    biasRelu Z b (ix2 r j) = max (Z (ix2 r j) + b (ix2 (0 : Fin 1) j)) (Ideal.ofBits .f32 0x00000000#32) := rfl

/-- The kernel body's spelling at `(p, j)` of its block (the two casts to a vector's own shape are the identity). -/
theorem body_apply (x0 : FVec Ideal ⟨2, ![B, M]⟩ .f32) (x1 : FVec Ideal ⟨2, ![1, M]⟩ .f32)
    (h0 : (⟨2, ![B, M]⟩ : Shape).ShapeCasts ⟨2, ![B, M]⟩) (h1 : (⟨2, ![1, M]⟩ : Shape).ShapeCasts ⟨2, ![1, M]⟩)
    (hb : (⟨2, ![1, M]⟩ : Shape).Broadcasts ⟨2, ![B, M]⟩) (p : Fin B) (j : Fin M) :
    maximumf (addf (shapeCast ⟨2, ![B, M]⟩ x0 h0) (broadcastTo ⟨2, ![B, M]⟩ (shapeCast ⟨2, ![1, M]⟩ x1 h1) hb))
        (broadcast ⟨2, ![B, M]⟩ (FloatOps.ofBits (F := Ideal) .f32 0x00000000#32)) (ix2 p j)
      = max (x0 (ix2 p j) + x1 (ix2 (0 : Fin 1) j)) (Ideal.ofBits .f32 0x00000000#32) := by
  rw [shapeCast_self, shapeCast_self]
  refine (maximumf_apply _ _ _).trans ?_
  refine congrArg₂ max ?_ rfl
  refine (addf_apply _ _ _).trans ?_
  exact congrArg (x0 (ix2 p j) + ·) (broadcastTo_1b_ab_apply x1 hb p j)

/-- A block holding the rows `o + p` of `Z`, with the same bias row, yields the rows `o + p` of the whole result. -/
theorem block_rows (Z : FVec Ideal ⟨2, ![A, M]⟩ .f32) (b : FVec Ideal ⟨2, ![1, M]⟩ .f32)
    (x0 : FVec Ideal ⟨2, ![B, M]⟩ .f32) (x1 : FVec Ideal ⟨2, ![1, M]⟩ .f32) (o : Nat) (p : Fin B) (j : Fin M)
    (hr : o + p.val < A) (h0 : x0 (ix2 p j) = Z (ix2 ⟨o + p.val, hr⟩ j)) (h1 : x1 (ix2 (0 : Fin 1) j) = b (ix2 (0 : Fin 1) j)) :
    max (x0 (ix2 p j) + x1 (ix2 (0 : Fin 1) j)) (Ideal.ofBits .f32 0x00000000#32) = biasRelu Z b (ix2 ⟨o + p.val, hr⟩ j) := by
  rw [biasRelu_ix2, h0, h1]

/-- The host's spelling at `(r, j)`. -/
theorem host_apply (Z : FVec Ideal ⟨2, ![A, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) (r : Fin A) (j : Fin M) :
    maximumf (addf Z (broadcastInDim ⟨2, ![A, M]⟩ ![0, 1] h2 (broadcastInDim ⟨2, ![1, M]⟩ ![1] h1 b)))
        (broadcastInDim ⟨2, ![A, M]⟩ ![] hz (constant (F := Ideal) ⟨0, ![]⟩ .f32 0x00000000#32)) (ix2 r j)
      = max (Z (ix2 r j) + b (ix1 j)) (Ideal.ofBits .f32 0x00000000#32) := by
  refine (maximumf_apply _ _ _).trans ?_
  refine congrArg₂ max ?_ ?_
  · refine (addf_apply _ _ _).trans ?_
    exact congrArg (Z (ix2 r j) + ·) (Affine.bias_rows_apply b h1 h2 r j)
  · exact broadcastInDim_apply _ hz _ (ix2 r j) (fun a => a.elim0) (fun a => a.elim0)

/-- The two spellings agree as whole arrays: the kernel's bias row is the host's bias vector recast to `[1, M]`. -/
theorem biasRelu_eq_host (Z : FVec Ideal ⟨2, ![A, M]⟩ .f32) (b : FVec Ideal ⟨1, ![M]⟩ .f32)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) :
    biasRelu Z (shapeCast ⟨2, ![1, M]⟩ b hc)
      = maximumf (addf Z (broadcastInDim ⟨2, ![A, M]⟩ ![0, 1] h2 (broadcastInDim ⟨2, ![1, M]⟩ ![1] h1 b)))
          (broadcastInDim ⟨2, ![A, M]⟩ ![] hz (constant (F := Ideal) ⟨0, ![]⟩ .f32 0x00000000#32)) := by
  funext i
  obtain ⟨r, j, rfl⟩ : ∃ (r : Fin A) (j : Fin M), i = ix2 r j := ⟨i 0, i 1, eq_ix2 i⟩
  rw [host_apply, biasRelu_ix2, shapeCast_a_1a_apply]

end Idealize.ShloMosaic.BiasRelu
-- ==== Proof.HeadRFront.lean ====
/-
  The hidden layer of the fused head, read at an entry, for the spelling that works on whole arrays.

  The body walks the nine positions p = 0..8 of the 3×3 grid. For each it takes the slab p of the input [9, 256, 3200]
  (a [1, 256, 3200] block viewed as the matrix [256, 3200]), multiplies it with the weight matrix [3200, 64], adds the
  bias row, rectifies, and multiplies the resulting [256, 64] features with slab p of the second weight array
  [9, 64, 256]; the nine products are added, one after the other, to a zero matrix. Entry (r, n) of every one of these
  matrices reads row r of the slabs only, so the accumulated matrix at (r, n) is the zero word plus the nine partial
  sums of image r — the hidden pre-activation before its bias.
-/
import proofs.«161365_g2000107080715666_pallasbulk_1227_2_alg».proof.Proof.Gen.ReferenceIdeal.Frame
import proofs.«161365_g2000107080715666_pallasbulk_1227_2_alg».proof.Proof.Spec
import proofs.«161365_g2000107080715666_pallasbulk_1227_2_alg».proof.Proof.LibPlainDot
import proofs.«161365_g2000107080715666_pallasbulk_1227_2_alg».proof.Proof.LibRowReduce
import proofs.«161365_g2000107080715666_pallasbulk_1227_2_alg».proof.Proof.LibBiasRelu

noncomputable section

namespace Cert.ReferenceIdeal.HeadVal

open Idealize.ShloMosaic Idealize.ShloMosaic.ValueIdx Cert.ReferenceIdeal Cert.ReferenceIdeal.Gen Cert.Dueling

/-! ## Slabs: a unit-stride load of one slab of a rank-3 array -/

/-- Slab `k` of a `[n, a, b]` array, loaded as a `[1, a, b]` block, holds at `(0, r, j)` the array's entry `(k, r, j)`. -/
theorem ld_slab {n a b : ℕ} (X : Vec Ideal (⟨3, ![n, a, b]⟩ : Shape) .f32) (k : ℕ) (hk : k < n)
    (inb : ∀ ax, (![k, 0, 0] : Fin 3 → ℕ) ax + (⟨3, ![1, a, b]⟩ : Shape).size ax ≤ (⟨3, ![n, a, b]⟩ : Shape).size ax)
    (r : Fin a) (j : Fin b) :
    View.ld X (Rect.unit (s := (⟨3, ![n, a, b]⟩ : Shape)) ![k, 0, 0] (⟨3, ![1, a, b]⟩ : Shape).size inb) (ix3 (0 : Fin 1) r j)
      = X (ix3 (⟨k, hk⟩ : Fin n) r j) := by
  show X ((Rect.unit (s := (⟨3, ![n, a, b]⟩ : Shape)) ![k, 0, 0] (⟨3, ![1, a, b]⟩ : Shape).size inb).idx (ix3 (0 : Fin 1) r j)) = _
  refine congrArg X ?_
  funext ax
  apply Fin.ext
  match ax with
  | ⟨0, _⟩ => show k + 1 * 0 = k; omega
  | ⟨1, _⟩ => show 0 + 1 * r.val = r.val; omega
  | ⟨2, _⟩ => show 0 + 1 * j.val = j.val; omega

/-! ## One position: features and partial sums from a slab -/

/-- Feature `c` of row `r` from an input slab `v`, the weights `w` and the bias row `b`. -/
def featB (v : FVec Ideal S1x256x3200 .f32) (w : FVec Ideal S3200x64 .f32) (b : FVec Ideal S1x64 .f32)
    (r : Fin 256) (c : Fin 64) : EReal :=
  max ((∑ j : Fin 3200, v (ix3 (0 : Fin 1) r j) * w (ix2 j c)) + b (ix2 (0 : Fin 1) c)) zeroW

/-- The slab's contribution to hidden unit `n` of row `r`, through the weight slab `u`. -/
def partB (v : FVec Ideal S1x256x3200 .f32) (w : FVec Ideal S3200x64 .f32) (b : FVec Ideal S1x64 .f32)
    (u : FVec Ideal S1x64x256 .f32) (r n : Fin 256) : EReal :=
  ∑ c : Fin 64, featB v w b r c * u (ix3 (0 : Fin 1) c n)

/-- The first product at `(r, c)`: row `r` of the slab against column `c` of the weights. -/
theorem mm1_apply (X : FVec Ideal S256x3200 .f32) (w : FVec Ideal S3200x64 .f32) (r : Fin 256) (c : Fin 64) :
    matmul dot_S256x3200_S3200x64_S256x64_1_0_0_1_n_n none X w (constant (F := Ideal) S256x64 .f32 0x00000000#32) (ix2 r c)
      = ∑ j : Fin 3200, X (ix2 r j) * w (ix2 j c) := by
  rw [show dot_S256x3200_S3200x64_S256x64_1_0_0_1_n_n = DotDims.plain 256 3200 64 from rfl]
  exact PlainDot.matmul_apply_ix2 none X w r c

/-- The second product at `(r, n)`: row `r` of the features against column `n` of the weight slab. -/
theorem mm2_apply (Fe : FVec Ideal S256x64 .f32) (u : FVec Ideal S1x64x256 .f32) (r n : Fin 256) :
    matmul dot_S256x64_S64x256_S256x256_1_0_0_1_n_n none Fe (shapeCast S64x256 u shapeCasts_S1x64x256_S64x256)
        (constant (F := Ideal) S256x256 .f32 0x00000000#32) (ix2 r n)
      = ∑ c : Fin 64, Fe (ix2 r c) * u (ix3 (0 : Fin 1) c n) := by
  rw [show dot_S256x64_S64x256_S256x256_1_0_0_1_n_n = DotDims.plain 256 64 256 from rfl]
  refine (PlainDot.matmul_apply_ix2 none Fe _ r n).trans ?_
  refine Finset.sum_congr rfl fun c _ => ?_
  rw [RowReduce.shapeCast_1ab_ab_apply]

/-- Bias added and rectified, from the product matrix `Mx` and the broadcast bias `Bb`. -/
theorem relu_apply (Mx Bb : FVec Ideal S256x64 .f32) (r : Fin 256) (c : Fin 64) :
    maximumf (addf Mx Bb) (broadcast S256x64 (Scalar.ofBits (F := Ideal) .f32 0x00000000#32)) (ix2 r c)
      = max (Mx (ix2 r c) + Bb (ix2 r c)) zeroW := by
  refine (maximumf_apply _ _ _).trans ?_
  exact congrArg₂ max (addf_apply _ _ _) rfl

/-- The rectified features of a slab at `(r, c)`. -/
theorem feat_apply (v : FVec Ideal S1x256x3200 .f32) (w : FVec Ideal S3200x64 .f32) (b : FVec Ideal S1x64 .f32)
    (r : Fin 256) (c : Fin 64) :
    maximumf (addf (matmul dot_S256x3200_S3200x64_S256x64_1_0_0_1_n_n none
          (shapeCast S256x3200 v shapeCasts_S1x256x3200_S256x3200) w (constant (F := Ideal) S256x64 .f32 0x00000000#32))
        (broadcastTo S256x64 b broadcasts_S1x64_S256x64))
      (broadcast S256x64 (Scalar.ofBits (F := Ideal) .f32 0x00000000#32)) (ix2 r c)
      = featB v w b r c := by
  refine (relu_apply _ _ r c).trans ?_
  unfold featB
  refine congrArg₂ max ?_ rfl
  refine congrArg₂ (· + ·) ?_ (broadcastTo_1b_ab_apply b _ r c)
  refine (mm1_apply _ w r c).trans ?_
  refine Finset.sum_congr rfl fun j _ => ?_
  rw [RowReduce.shapeCast_1ab_ab_apply]

/-- One position's product with its weight slab at `(r, n)`. -/
theorem part_apply (v : FVec Ideal S1x256x3200 .f32) (w : FVec Ideal S3200x64 .f32) (b : FVec Ideal S1x64 .f32)
    (u : FVec Ideal S1x64x256 .f32) (r n : Fin 256) :
    matmul dot_S256x64_S64x256_S256x256_1_0_0_1_n_n none
        (maximumf (addf (matmul dot_S256x3200_S3200x64_S256x64_1_0_0_1_n_n none
              (shapeCast S256x3200 v shapeCasts_S1x256x3200_S256x3200) w (constant (F := Ideal) S256x64 .f32 0x00000000#32))
            (broadcastTo S256x64 b broadcasts_S1x64_S256x64))
          (broadcast S256x64 (Scalar.ofBits (F := Ideal) .f32 0x00000000#32)))
        (shapeCast S64x256 u shapeCasts_S1x64x256_S64x256) (constant (F := Ideal) S256x256 .f32 0x00000000#32) (ix2 r n)
      = partB v w b u r n := by
  refine (mm2_apply _ u r n).trans ?_
  unfold partB
  exact Finset.sum_congr rfl fun c _ => congrArg (· * u (ix3 (0 : Fin 1) c n)) (feat_apply v w b r c)

/-! ## The nine positions accumulated -/

theorem hz2 : (![0, 0] : Fin 2 → Nat) = fun _ => 0 := funext fun a => by fin_cases a <;> rfl

/-- A position's contribution computed from slab `k` of the input and slab `k` of the second weight array, the first
    weights and the bias row read whole, is the specification's partial sum of position `k` on image `r`. -/
theorem part_slab (x0 : FVec Ideal S9x256x3200 .f32) (x1 : FVec Ideal S3200x64 .f32) (x2 : FVec Ideal S1x64 .f32)
    (x3 : FVec Ideal S9x64x256 .f32) (k : ℕ) (hk : k < 9)
    (inb0 : ∀ ax, (![k, 0, 0] : Fin 3 → ℕ) ax + S1x256x3200.size ax ≤ S9x256x3200.size ax)
    (inb1 : ∀ ax, (![0, 0] : Fin 2 → ℕ) ax + S3200x64.size ax ≤ S3200x64.size ax)
    (inb2 : ∀ ax, (![0, 0] : Fin 2 → ℕ) ax + S1x64.size ax ≤ S1x64.size ax)
    (inb3 : ∀ ax, (![k, 0, 0] : Fin 3 → ℕ) ax + S1x64x256.size ax ≤ S9x64x256.size ax) (r n : Fin 256) :
    partB (View.ld (Val := Elt Ideal) (e' := .f32) x0 (Rect.unit (s := S9x256x3200) ![k, 0, 0] S1x256x3200.size inb0))
        (View.ld (Val := Elt Ideal) (e' := .f32) x1 (Rect.unit (s := S3200x64) ![0, 0] S3200x64.size inb1))
        (View.ld (Val := Elt Ideal) (e' := .f32) x2 (Rect.unit (s := S1x64) ![0, 0] S1x64.size inb2))
        (View.ld (Val := Elt Ideal) (e' := .f32) x3 (Rect.unit (s := S9x64x256) ![k, 0, 0] S1x64x256.size inb3)) r n
      = part (fun p j => x0 (ix3 p r j)) x1 x2 x3 (⟨k, hk⟩ : Fin 9) n := by
  rw [View.ld_unit_zero (Val := Elt Ideal) (S := S3200x64) (e := .f32) hz2 inb1 x1,
    View.ld_unit_zero (Val := Elt Ideal) (S := S1x64) (e := .f32) hz2 inb2 x2]
  unfold partB featB part feat
  refine Finset.sum_congr rfl fun c _ => ?_
  refine congrArg₂ (· * ·) ?_ (ld_slab x3 k hk inb3 c n)
  refine congrArg₂ max (congrArg₂ (· + ·) ?_ rfl) rfl
  exact Finset.sum_congr rfl fun j _ => congrArg (· * x1 (ix2 j c)) (ld_slab x0 k hk inb0 r j)

/-- Positions 0 and 1 added to the zero matrix. -/
theorem pay2_apply (v1 : FVec Ideal S1x256x3200 .f32) (v3 : FVec Ideal S3200x64 .f32) (v5 : FVec Ideal S1x64 .f32)
    (v10 : FVec Ideal S1x64x256 .f32) (v14 : FVec Ideal S1x256x3200 .f32) (v16 : FVec Ideal S3200x64 .f32)
    (v18 : FVec Ideal S1x64 .f32) (v23 : FVec Ideal S1x64x256 .f32) (r n : Fin 256) :
    k1_pay2 (F := Ideal) v1 v3 v5 v10 v14 v16 v18 v23 (ix2 r n)
      = zeroW + partB v1 v3 v5 v10 r n + partB v14 v16 v18 v23 r n := by
  unfold k1_pay2
  refine (addf_apply _ _ _).trans ?_
  refine congrArg₂ (· + ·) ?_ (part_apply v14 v16 v18 v23 r n)
  refine (addf_apply _ _ _).trans ?_
  exact congrArg₂ (· + ·) (broadcast_apply _ _) (part_apply v1 v3 v5 v10 r n)

/-- Positions 2 and 3 added. -/
theorem pay4_apply (v26 : FVec Ideal S256x256 .f32) (v27 : FVec Ideal S1x256x3200 .f32) (v29 : FVec Ideal S3200x64 .f32)
    (v31 : FVec Ideal S1x64 .f32) (v36 : FVec Ideal S1x64x256 .f32) (v40 : FVec Ideal S1x256x3200 .f32)
    (v42 : FVec Ideal S3200x64 .f32) (v44 : FVec Ideal S1x64 .f32) (v49 : FVec Ideal S1x64x256 .f32) (r n : Fin 256) :
    k1_pay4 (F := Ideal) v26 (k1_pay3 v27) v29 v31 v36 v40 v42 v44 v49 (ix2 r n)
      = v26 (ix2 r n) + partB v27 v29 v31 v36 r n + partB v40 v42 v44 v49 r n := by
  unfold k1_pay4 k1_pay3
  refine (addf_apply _ _ _).trans ?_
  refine congrArg₂ (· + ·) ?_ (part_apply v40 v42 v44 v49 r n)
  refine (addf_apply _ _ _).trans ?_
  exact congrArg₂ (· + ·) rfl (part_apply v27 v29 v31 v36 r n)

/-- Positions 4 and 5 added. -/
theorem pay7_apply (v52 : FVec Ideal S256x256 .f32) (v53 : FVec Ideal S1x256x3200 .f32) (v55 : FVec Ideal S3200x64 .f32)
    (v57 : FVec Ideal S1x64 .f32) (v62 : FVec Ideal S1x64x256 .f32) (v66 : FVec Ideal S1x256x3200 .f32)
    (v68 : FVec Ideal S3200x64 .f32) (v70 : FVec Ideal S1x64 .f32) (v75 : FVec Ideal S1x64x256 .f32) (r n : Fin 256) :
    k1_pay7 (F := Ideal) v52 (k1_pay5 v53 v55) (k1_pay6 v57) v62 v66 v68 v70 v75 (ix2 r n)
      = v52 (ix2 r n) + partB v53 v55 v57 v62 r n + partB v66 v68 v70 v75 r n := by
  unfold k1_pay7 k1_pay5 k1_pay6
  refine (addf_apply _ _ _).trans ?_
  refine congrArg₂ (· + ·) ?_ (part_apply v66 v68 v70 v75 r n)
  refine (addf_apply _ _ _).trans ?_
  exact congrArg₂ (· + ·) rfl (part_apply v53 v55 v57 v62 r n)

/-- Positions 6, 7 and 8 added. -/
theorem pay9_apply (v78 : FVec Ideal S256x256 .f32) (v79 : FVec Ideal S1x256x3200 .f32) (v81 : FVec Ideal S3200x64 .f32)
    (v83 : FVec Ideal S1x64 .f32) (v88 : FVec Ideal S1x64x256 .f32) (v92 : FVec Ideal S1x256x3200 .f32)
    (v94 : FVec Ideal S3200x64 .f32) (v96 : FVec Ideal S1x64 .f32) (v101 : FVec Ideal S1x64x256 .f32)
    (v105 : FVec Ideal S1x256x3200 .f32) (v107 : FVec Ideal S3200x64 .f32) (v109 : FVec Ideal S1x64 .f32)
    (v114 : FVec Ideal S1x64x256 .f32) (r n : Fin 256) :
    k1_pay9 (F := Ideal) v78 (k1_pay8 v79 v81 v83) v88 v92 v94 v96 v101 v105 v107 v109 v114 (ix2 r n)
      = v78 (ix2 r n) + partB v79 v81 v83 v88 r n + partB v92 v94 v96 v101 r n + partB v105 v107 v109 v114 r n := by
  unfold k1_pay9 k1_pay8
  refine (addf_apply _ _ _).trans ?_
  refine congrArg₂ (· + ·) ?_ (part_apply v105 v107 v109 v114 r n)
  refine (addf_apply _ _ _).trans ?_
  refine congrArg₂ (· + ·) ?_ (part_apply v92 v94 v96 v101 r n)
  refine (addf_apply _ _ _).trans ?_
  exact congrArg₂ (· + ·) rfl (part_apply v79 v81 v83 v88 r n)

/-- The accumulated matrix `[256, 256]` of the nine positions, from the whole arrays (each slab a unit-stride load). -/
def acc9 (x0 : FVec Ideal S9x256x3200 .f32) (x1 : FVec Ideal S3200x64 .f32) (x2 : FVec Ideal S1x64 .f32)
    (x3 : FVec Ideal S9x64x256 .f32) : FVec Ideal S256x256 .f32 :=
  k1_pay9 (k1_pay7 (k1_pay4 (k1_pay2 (View.ld x0 r1_0) (View.ld x1 r1_1) (View.ld x2 r1_2) (View.ld x3 r1_3) (View.ld x0 r1_4) (View.ld x1 r1_1) (View.ld x2 r1_2) (View.ld x3 r1_5)) (k1_pay3 (View.ld x0 r1_6)) (View.ld x1 r1_1) (View.ld x2 r1_2) (View.ld x3 r1_7) (View.ld x0 r1_8) (View.ld x1 r1_1) (View.ld x2 r1_2) (View.ld x3 r1_9)) (k1_pay5 (View.ld x0 r1_10) (View.ld x1 r1_1)) (k1_pay6 (View.ld x2 r1_2)) (View.ld x3 r1_11) (View.ld x0 r1_12) (View.ld x1 r1_1) (View.ld x2 r1_2) (View.ld x3 r1_13)) (k1_pay8 (View.ld x0 r1_14) (View.ld x1 r1_1) (View.ld x2 r1_2)) (View.ld x3 r1_15) (View.ld x0 r1_16) (View.ld x1 r1_1) (View.ld x2 r1_2) (View.ld x3 r1_17) (View.ld x0 r1_18) (View.ld x1 r1_1) (View.ld x2 r1_2) (View.ld x3 r1_19)

/-- Its entry `(r, n)`: the zero word plus the nine partial sums of image `r`, in order. -/
theorem acc9_apply (x0 : FVec Ideal S9x256x3200 .f32) (x1 : FVec Ideal S3200x64 .f32) (x2 : FVec Ideal S1x64 .f32)
    (x3 : FVec Ideal S9x64x256 .f32) (r n : Fin 256) :
    acc9 x0 x1 x2 x3 (ix2 r n)
      = zeroW + part (fun p j => x0 (ix3 p r j)) x1 x2 x3 0 n + part (fun p j => x0 (ix3 p r j)) x1 x2 x3 1 n
        + part (fun p j => x0 (ix3 p r j)) x1 x2 x3 2 n + part (fun p j => x0 (ix3 p r j)) x1 x2 x3 3 n
        + part (fun p j => x0 (ix3 p r j)) x1 x2 x3 4 n + part (fun p j => x0 (ix3 p r j)) x1 x2 x3 5 n
        + part (fun p j => x0 (ix3 p r j)) x1 x2 x3 6 n + part (fun p j => x0 (ix3 p r j)) x1 x2 x3 7 n
        + part (fun p j => x0 (ix3 p r j)) x1 x2 x3 8 n := by
  unfold acc9
  refine (pay9_apply _ _ _ _ _ _ _ _ _ _ _ _ _ r n).trans ?_
  refine congrArg₂ (· + ·) (congrArg₂ (· + ·) (congrArg₂ (· + ·) ?_ (part_slab x0 x1 x2 x3 6 (by omega) _ _ _ _ r n))
    (part_slab x0 x1 x2 x3 7 (by omega) _ _ _ _ r n)) (part_slab x0 x1 x2 x3 8 (by omega) _ _ _ _ r n)
  refine (pay7_apply _ _ _ _ _ _ _ _ _ r n).trans ?_
  refine congrArg₂ (· + ·) (congrArg₂ (· + ·) ?_ (part_slab x0 x1 x2 x3 4 (by omega) _ _ _ _ r n))
    (part_slab x0 x1 x2 x3 5 (by omega) _ _ _ _ r n)
  refine (pay4_apply _ _ _ _ _ _ _ _ _ r n).trans ?_
  refine congrArg₂ (· + ·) (congrArg₂ (· + ·) ?_ (part_slab x0 x1 x2 x3 2 (by omega) _ _ _ _ r n))
    (part_slab x0 x1 x2 x3 3 (by omega) _ _ _ _ r n)
  refine (pay2_apply _ _ _ _ _ _ _ _ r n).trans ?_
  exact congrArg₂ (· + ·) (congrArg₂ (· + ·) rfl (part_slab x0 x1 x2 x3 0 (by omega) _ _ _ _ r n))
    (part_slab x0 x1 x2 x3 1 (by omega) _ _ _ _ r n)

/-- The hidden activation `[256, 256]`: the bias row added LAST to the accumulated matrix, then rectified. -/
def hid (x0 : FVec Ideal S9x256x3200 .f32) (x1 : FVec Ideal S3200x64 .f32) (x2 : FVec Ideal S1x64 .f32)
    (x3 : FVec Ideal S9x64x256 .f32) (x4 : FVec Ideal S1x256 .f32) : FVec Ideal S256x256 .f32 :=
  k1_pay11 (acc9 x0 x1 x2 x3) (k1_pay10 (View.ld x4 r1_20))

/-- Its entry `(r, n)` is the specification's hidden unit `n` of image `r`, summed bias last. -/
theorem hid_apply (x0 : FVec Ideal S9x256x3200 .f32) (x1 : FVec Ideal S3200x64 .f32) (x2 : FVec Ideal S1x64 .f32)
    (x3 : FVec Ideal S9x64x256 .f32) (x4 : FVec Ideal S1x256 .f32) (r n : Fin 256) :
    hid x0 x1 x2 x3 x4 (ix2 r n) = hidLast x0 x1 x2 x3 x4 r n := by
  unfold hid k1_pay11 k1_pay10
  dsimp only
  rw [View.ld_unit_zero (Val := Elt Ideal) (S := S1x256) (e := .f32) hz2 _ x4]
  refine (maximumf_apply _ _ _).trans ?_
  unfold hidLast preBiasLast
  refine congrArg₂ max ?_ rfl
  refine (addf_apply _ _ _).trans ?_
  exact congrArg₂ (· + ·) (acc9_apply x0 x1 x2 x3 r n) (broadcastTo_1b_ab_apply x4 _ r n)

end Cert.ReferenceIdeal.HeadVal

end
-- ==== Proof.HeadRTail.lean ====
/-
  The tail of the fused head on the 256 rows of the whole arrays: from the hidden activation, the rectified value layer of
  its first 128 columns, the four rectified advantage layers of its last 128 columns (one weight slab and one bias slab per
  action), their mean, the dueling logits and their softmax along the 51 atoms, each of the four results cast to a slab
  `[1, 256, 51]` and stored at its action. Every one of these arrays reads, at row `r`, row `r` of the hidden activation
  only — image `r`'s hidden row —, so slab `i` holds at `(0, r, z)` the probability of action `i`, atom `z`, of image `r`.
-/
import proofs.«161365_g2000107080715666_pallasbulk_1227_2_alg».proof.Proof.Gen.ReferenceIdeal.Frame
import proofs.«161365_g2000107080715666_pallasbulk_1227_2_alg».proof.Proof.Spec
import proofs.«161365_g2000107080715666_pallasbulk_1227_2_alg».proof.Proof.LibDuelTail
import proofs.«161365_g2000107080715666_pallasbulk_1227_2_alg».proof.Proof.HeadRFront

noncomputable section

namespace Cert.ReferenceIdeal.HeadVal

open Idealize.ShloMosaic Idealize.ShloMosaic.ValueIdx Cert.ReferenceIdeal Cert.ReferenceIdeal.Gen Cert.Dueling

variable (x0 : FVec Ideal S9x256x3200 .f32) (x1 : FVec Ideal S3200x64 .f32) (x2 : FVec Ideal S1x64 .f32)
  (x3 : FVec Ideal S9x64x256 .f32) (x4 : FVec Ideal S1x256 .f32) (x5 : FVec Ideal S128x51 .f32) (x6 : FVec Ideal S1x51 .f32)
  (x7 : FVec Ideal S4x128x51 .f32) (x8 : FVec Ideal S4x1x51 .f32)

/-! ## The arrays of the tail, named -/

/-- The last 128 columns of the hidden activation. -/
def HIt : FVec Ideal S256x128 .f32 := k1_pay12 (acc9 x0 x1 x2 x3) (k1_pay10 (View.ld x4 r1_20))
/-- The rectified value layer. -/
def VALt : FVec Ideal S256x51 .f32 := k1_pay13 (acc9 x0 x1 x2 x3) (k1_pay10 (View.ld x4 r1_20)) (View.ld x5 r1_21) (View.ld x6 r1_22)
/-- The rectified advantage layer of action 0. -/
def A0t : FVec Ideal S256x51 .f32 := k1_pay14 (acc9 x0 x1 x2 x3) (k1_pay10 (View.ld x4 r1_20)) (View.ld x7 r1_23) (View.ld x8 r1_24)
/-- The rectified advantage layer of action 1. -/
def A1t : FVec Ideal S256x51 .f32 := k1_pay15 (acc9 x0 x1 x2 x3) (k1_pay10 (View.ld x4 r1_20)) (View.ld x7 r1_25) (View.ld x8 r1_26)
/-- The product of action 2's advantage layer, before its bias. -/
def A2pt : FVec Ideal S256x51 .f32 := k1_pay16 (acc9 x0 x1 x2 x3) (k1_pay10 (View.ld x4 r1_20)) (View.ld x7 r1_27)
/-- The rectified advantage layer of action 2. -/
def A2t : FVec Ideal S256x51 .f32 := k1_pay17 (A2pt x0 x1 x2 x3 x4 x7) (View.ld x8 r1_28)
/-- The rectified advantage layer of action 3. -/
def A3t : FVec Ideal S256x51 .f32 := k1_pay18 (HIt x0 x1 x2 x3 x4) (View.ld x7 r1_29) (View.ld x8 r1_30)
/-- The mean advantage. -/
def MEANt : FVec Ideal S256x51 .f32 := k1_pay19 (HIt x0 x1 x2 x3 x4) (A0t x0 x1 x2 x3 x4 x7 x8) (A1t x0 x1 x2 x3 x4 x7 x8) (A2pt x0 x1 x2 x3 x4 x7) (View.ld x8 r1_28) (View.ld x7 r1_29) (View.ld x8 r1_30)

/-! ## The halves and the five rectified layers, at a row -/

/-- Entry `(r, k)` of the last-columns half is hidden unit `128 + k` of image `r`. -/
theorem hi_apply (r : Fin 256) (k : Fin 128) :
    HIt x0 x1 x2 x3 x4 (ix2 r k) = hidLast x0 x1 x2 x3 x4 r (⟨128 + k.val, by omega⟩ : Fin 256) := by
  unfold HIt k1_pay12
  exact (Tail.half_hi_apply _ _ r k).trans (hid_apply x0 x1 x2 x3 x4 r _)

/-- The value layer at `(r, z)` is the value logit `z` of image `r`. -/
theorem val_apply (r : Fin 256) (z : Fin 51) :
    VALt x0 x1 x2 x3 x4 x5 x6 (ix2 r z) = value (hidLast x0 x1 x2 x3 x4 r) x5 x6 z := by
  unfold VALt
  rw [View.ld_unit_zero (Val := Elt Ideal) (S := S128x51) (e := .f32) hz2 _ x5,
    View.ld_unit_zero (Val := Elt Ideal) (S := S1x51) (e := .f32) hz2 _ x6]
  unfold k1_pay13
  rw [show dot_S256x128_S128x51_S256x51_1_0_0_1_n_n = DotDims.plain 256 128 51 from rfl]
  refine (Tail.dense_apply none _ x5 x6 _ r z).trans ?_
  unfold value
  refine congrArg₂ max (congrArg₂ (· + ·) (Finset.sum_congr rfl fun k _ => congrArg (· * x5 (ix2 k z)) ?_) rfl) rfl
  exact (Tail.half_lo_apply _ _ r k).trans (hid_apply x0 x1 x2 x3 x4 r _)

/-- A rectified advantage layer from a half `HIv` that is, on row `r`, the last 128 units of a hidden row, with slab `i`
    of the weights and slab `i` of the biases: at `(r, z)` the advantage logit of action `i`, atom `z`. -/
theorem adv_of (HIv : FVec Ideal S256x128 .f32) (hrow : Fin 256 → EReal) (r : Fin 256)
    (hHI : ∀ k : Fin 128, HIv (ix2 r k) = hrow (⟨128 + k.val, by omega⟩ : Fin 256)) (i : ℕ) (hi : i < 4)
    (inb7 : ∀ ax, (![i, 0, 0] : Fin 3 → ℕ) ax + S1x128x51.size ax ≤ S4x128x51.size ax)
    (inb8 : ∀ ax, (![i, 0, 0] : Fin 3 → ℕ) ax + S1x1x51.size ax ≤ S4x1x51.size ax) (z : Fin 51) :
    maximumf (addf (matmul dot_S256x128_S128x51_S256x51_1_0_0_1_n_n none HIv
          (shapeCast S128x51 (View.ld (Val := Elt Ideal) (e' := .f32) x7
            (Rect.unit (s := S4x128x51) ![i, 0, 0] S1x128x51.size inb7)) shapeCasts_S1x128x51_S128x51 : FVec Ideal S128x51 .f32)
          (constant (F := Ideal) S256x51 .f32 0x00000000#32))
        (broadcastTo S256x51 (shapeCast S1x51 (View.ld (Val := Elt Ideal) (e' := .f32) x8
            (Rect.unit (s := S4x1x51) ![i, 0, 0] S1x1x51.size inb8)) shapeCasts_S1x1x51_S1x51 : FVec Ideal S1x51 .f32)
          broadcasts_S1x51_S256x51))
      (broadcast S256x51 (Scalar.ofBits (F := Ideal) .f32 0x00000000#32)) (ix2 r z)
      = adv hrow x7 x8 (⟨i, hi⟩ : Fin 4) z := by
  rw [show dot_S256x128_S128x51_S256x51_1_0_0_1_n_n = DotDims.plain 256 128 51 from rfl]
  refine (Tail.dense_cast_apply none HIv _ _ _ _ _ r z).trans ?_
  unfold adv
  exact congrArg₂ max (congrArg₂ (· + ·)
    (Finset.sum_congr rfl fun k _ => congrArg₂ (· * ·) (hHI k) (ld_slab x7 i hi inb7 k z))
    (ld_slab x8 i hi inb8 (0 : Fin 1) z)) rfl

theorem a0_apply (r : Fin 256) (z : Fin 51) : A0t x0 x1 x2 x3 x4 x7 x8 (ix2 r z) = adv (hidLast x0 x1 x2 x3 x4 r) x7 x8 0 z := by
  unfold A0t k1_pay14
  exact adv_of x7 x8 _ (hidLast x0 x1 x2 x3 x4 r) r (hi_apply x0 x1 x2 x3 x4 r) 0 (by omega) _ _ z

theorem a1_apply (r : Fin 256) (z : Fin 51) : A1t x0 x1 x2 x3 x4 x7 x8 (ix2 r z) = adv (hidLast x0 x1 x2 x3 x4 r) x7 x8 1 z := by
  unfold A1t k1_pay15
  exact adv_of x7 x8 _ (hidLast x0 x1 x2 x3 x4 r) r (hi_apply x0 x1 x2 x3 x4 r) 1 (by omega) _ _ z

theorem a2_apply (r : Fin 256) (z : Fin 51) : A2t x0 x1 x2 x3 x4 x7 x8 (ix2 r z) = adv (hidLast x0 x1 x2 x3 x4 r) x7 x8 2 z := by
  unfold A2t A2pt k1_pay17 k1_pay16
  exact adv_of x7 x8 _ (hidLast x0 x1 x2 x3 x4 r) r (hi_apply x0 x1 x2 x3 x4 r) 2 (by omega) _ _ z

theorem a3_apply (r : Fin 256) (z : Fin 51) : A3t x0 x1 x2 x3 x4 x7 x8 (ix2 r z) = adv (hidLast x0 x1 x2 x3 x4 r) x7 x8 3 z := by
  unfold A3t k1_pay18
  exact adv_of x7 x8 _ (hidLast x0 x1 x2 x3 x4 r) r (hi_apply x0 x1 x2 x3 x4 r) 3 (by omega) _ _ z

/-- The mean array at `(r, z)` is the mean advantage of image `r`. -/
theorem mean_apply (r : Fin 256) (z : Fin 51) : MEANt x0 x1 x2 x3 x4 x7 x8 (ix2 r z) = advMean (hidLast x0 x1 x2 x3 x4 r) x7 x8 z := by
  unfold MEANt k1_pay19
  exact Tail.mean_eq (hidLast x0 x1 x2 x3 x4 r) x7 x8 _ _ _ _ r (a0_apply x0 x1 x2 x3 x4 x7 x8 r) (a1_apply x0 x1 x2 x3 x4 x7 x8 r)
    (a2_apply x0 x1 x2 x3 x4 x7 x8 r) (a3_apply x0 x1 x2 x3 x4 x7 x8 r) z

/-! ## The four stored slabs -/

/-- The slab stored at action 0. -/
theorem st0_apply (r : Fin 256) (z : Fin 51) :
    k1_pay20 (HIt x0 x1 x2 x3 x4) (VALt x0 x1 x2 x3 x4 x5 x6) (A0t x0 x1 x2 x3 x4 x7 x8) (A1t x0 x1 x2 x3 x4 x7 x8) (A2pt x0 x1 x2 x3 x4 x7) (View.ld x8 r1_28) (View.ld x7 r1_29) (View.ld x8 r1_30) (ix3 (0 : Fin 1) r z) = prob (hidLast x0 x1 x2 x3 x4 r) x5 x6 x7 x8 0 z := by
  unfold k1_pay20
  refine (Tail.slab_apply _ _ (0 : Fin 1) r z).trans ?_
  exact Tail.prob_of_logit (hidLast x0 x1 x2 x3 x4 r) x5 x6 x7 x8 0 _ _ _ _ _ _ _ _ r
    (fun z' => Tail.logit_eq (hidLast x0 x1 x2 x3 x4 r) x5 x6 x7 x8 0 _ _ _ r (val_apply x0 x1 x2 x3 x4 x5 x6 r)
      (a0_apply x0 x1 x2 x3 x4 x7 x8 r) (mean_apply x0 x1 x2 x3 x4 x7 x8 r) z') z

/-- The logits of action 1. -/
theorem q1_apply (r : Fin 256) (z : Fin 51) :
    k1_pay21 (HIt x0 x1 x2 x3 x4) (VALt x0 x1 x2 x3 x4 x5 x6) (A0t x0 x1 x2 x3 x4 x7 x8) (A1t x0 x1 x2 x3 x4 x7 x8) (A2pt x0 x1 x2 x3 x4 x7) (View.ld x8 r1_28) (View.ld x7 r1_29) (View.ld x8 r1_30) (ix2 r z) = logit (hidLast x0 x1 x2 x3 x4 r) x5 x6 x7 x8 1 z := by
  unfold k1_pay21
  exact Tail.logit_eq (hidLast x0 x1 x2 x3 x4 r) x5 x6 x7 x8 1 _ _ _ r (val_apply x0 x1 x2 x3 x4 x5 x6 r)
    (a1_apply x0 x1 x2 x3 x4 x7 x8 r) (mean_apply x0 x1 x2 x3 x4 x7 x8 r) z

/-- The slab stored at action 1 (its row maximum was taken before the softmax group). -/
theorem st1_apply (r : Fin 256) (z : Fin 51) :
    k1_pay23 (k1_pay21 (HIt x0 x1 x2 x3 x4) (VALt x0 x1 x2 x3 x4 x5 x6) (A0t x0 x1 x2 x3 x4 x7 x8) (A1t x0 x1 x2 x3 x4 x7 x8) (A2pt x0 x1 x2 x3 x4 x7) (View.ld x8 r1_28) (View.ld x7 r1_29) (View.ld x8 r1_30)) (k1_pay22 (HIt x0 x1 x2 x3 x4) (VALt x0 x1 x2 x3 x4 x5 x6) (A0t x0 x1 x2 x3 x4 x7 x8) (A1t x0 x1 x2 x3 x4 x7 x8) (A2pt x0 x1 x2 x3 x4 x7) (View.ld x8 r1_28) (View.ld x7 r1_29) (View.ld x8 r1_30)) (ix3 (0 : Fin 1) r z) = prob (hidLast x0 x1 x2 x3 x4 r) x5 x6 x7 x8 1 z := by
  unfold k1_pay23 k1_pay22
  refine (Tail.slab_apply _ _ (0 : Fin 1) r z).trans ?_
  exact Tail.prob_of_logit (hidLast x0 x1 x2 x3 x4 r) x5 x6 x7 x8 1 _ _ _ _ _ _ _ _ r (q1_apply x0 x1 x2 x3 x4 x5 x6 x7 x8 r) z

/-- The slab stored at action 2. -/
theorem st2_apply (r : Fin 256) (z : Fin 51) :
    k1_pay24 (VALt x0 x1 x2 x3 x4 x5 x6) (A2t x0 x1 x2 x3 x4 x7 x8) (MEANt x0 x1 x2 x3 x4 x7 x8) (ix3 (0 : Fin 1) r z) = prob (hidLast x0 x1 x2 x3 x4 r) x5 x6 x7 x8 2 z := by
  unfold k1_pay24
  refine (Tail.slab_apply _ _ (0 : Fin 1) r z).trans ?_
  exact Tail.prob_of_logit (hidLast x0 x1 x2 x3 x4 r) x5 x6 x7 x8 2 _ _ _ _ _ _ _ _ r
    (fun z' => Tail.logit_eq (hidLast x0 x1 x2 x3 x4 r) x5 x6 x7 x8 2 _ _ _ r (val_apply x0 x1 x2 x3 x4 x5 x6 r)
      (a2_apply x0 x1 x2 x3 x4 x7 x8 r) (mean_apply x0 x1 x2 x3 x4 x7 x8 r) z') z

/-- The slab stored at action 3. -/
theorem st3_apply (r : Fin 256) (z : Fin 51) :
    k1_pay1 (k1_pay25 (VALt x0 x1 x2 x3 x4 x5 x6) (A3t x0 x1 x2 x3 x4 x7 x8) (MEANt x0 x1 x2 x3 x4 x7 x8)) (ix3 (0 : Fin 1) r z) = prob (hidLast x0 x1 x2 x3 x4 r) x5 x6 x7 x8 3 z := by
  unfold k1_pay1 k1_pay25
  refine (Tail.slab_apply _ _ (0 : Fin 1) r z).trans ?_
  exact Tail.prob_of_logit (hidLast x0 x1 x2 x3 x4 r) x5 x6 x7 x8 3 _ _ _ _ _ _ _ _ r
    (fun z' => Tail.logit_eq (hidLast x0 x1 x2 x3 x4 r) x5 x6 x7 x8 3 _ _ _ r (val_apply x0 x1 x2 x3 x4 x5 x6 r)
      (a3_apply x0 x1 x2 x3 x4 x7 x8 r) (mean_apply x0 x1 x2 x3 x4 x7 x8 r) z') z

end Cert.ReferenceIdeal.HeadVal

end
-- ==== Proof.HeadR.lean ====
/-
  The fused head of the whole-array spelling as ONE function of the nine arrays it reads.

  The body stores four slabs `[1, 256, 51]`, one per action, into its result `[4, 256, 51]`; the four tile it, and slab `i`
  holds at `(0, r, z)` the probability of action `i`, atom `z`, of image `r`: the result buffer is the specification's
  array, hidden units summed bias last. The kernel has no grid: its one point reads every array whole and writes the result
  whole, so the result array after the region is that function of the arrays as the region finds them.
-/
import proofs.«161365_g2000107080715666_pallasbulk_1227_2_alg».proof.Proof.Gen.ReferenceIdeal.Frame
import proofs.«161365_g2000107080715666_pallasbulk_1227_2_alg».proof.Proof.Spec
import proofs.«161365_g2000107080715666_pallasbulk_1227_2_alg».proof.Proof.HeadRFront
import proofs.«161365_g2000107080715666_pallasbulk_1227_2_alg».proof.Proof.HeadRTail

noncomputable section

namespace Cert.ReferenceIdeal.HeadVal

open Idealize.ShloMosaic Idealize.ShloMosaic.ValueIdx Idealize.ShloMosaic.TcCoe Cert.ReferenceIdeal Cert.ReferenceIdeal.Gen Cert.Dueling
open Idealize.ShloMosaic.Pipeline (Dat)

section body

variable (x0 : FVec Ideal S9x256x3200 .f32) (x1 : FVec Ideal S3200x64 .f32) (x2 : FVec Ideal S1x64 .f32)
  (x3 : FVec Ideal S9x64x256 .f32) (x4 : FVec Ideal S1x256 .f32) (x5 : FVec Ideal S128x51 .f32) (x6 : FVec Ideal S1x51 .f32)
  (x7 : FVec Ideal S4x128x51 .f32) (x8 : FVec Ideal S4x1x51 .f32)

/-- The result buffer after the body: its four stores, last first, over the named arrays of the tail. -/
theorem out_eq : Gen.out1_9 (F := Ideal) x0 x1 x2 x3 x4 x5 x6 x7 x8
    = View.canon ([⟨r1_34, k1_pay1 (k1_pay25 (VALt x0 x1 x2 x3 x4 x5 x6) (A3t x0 x1 x2 x3 x4 x7 x8) (MEANt x0 x1 x2 x3 x4 x7 x8))⟩,
        ⟨r1_33, k1_pay24 (VALt x0 x1 x2 x3 x4 x5 x6) (A2t x0 x1 x2 x3 x4 x7 x8) (MEANt x0 x1 x2 x3 x4 x7 x8)⟩,
        ⟨r1_32, k1_pay23 (k1_pay21 (HIt x0 x1 x2 x3 x4) (VALt x0 x1 x2 x3 x4 x5 x6) (A0t x0 x1 x2 x3 x4 x7 x8) (A1t x0 x1 x2 x3 x4 x7 x8) (A2pt x0 x1 x2 x3 x4 x7) (View.ld x8 r1_28) (View.ld x7 r1_29) (View.ld x8 r1_30)) (k1_pay22 (HIt x0 x1 x2 x3 x4) (VALt x0 x1 x2 x3 x4 x5 x6) (A0t x0 x1 x2 x3 x4 x7 x8) (A1t x0 x1 x2 x3 x4 x7 x8) (A2pt x0 x1 x2 x3 x4 x7) (View.ld x8 r1_28) (View.ld x7 r1_29) (View.ld x8 r1_30))⟩,
        ⟨r1_31, k1_pay20 (HIt x0 x1 x2 x3 x4) (VALt x0 x1 x2 x3 x4 x5 x6) (A0t x0 x1 x2 x3 x4 x7 x8) (A1t x0 x1 x2 x3 x4 x7 x8) (A2pt x0 x1 x2 x3 x4 x7) (View.ld x8 r1_28) (View.ld x7 r1_29) (View.ld x8 r1_30)⟩] : List (View.Piece (Elt Ideal) S4x256x51 .f32)) := rfl

/-- Slab `k` of the result: the block's index `(u, r, z)` sits at `(k, r, z)`. -/
theorem emb_slab (k : ℕ) (hk : k < 4)
    (inb : ∀ ax, (![k, 0, 0] : Fin 3 → ℕ) ax + S1x256x51.size ax ≤ S4x256x51.size ax) (u : Fin 1) (r : Fin 256) (z : Fin 51) :
    (Rect.unit (s := S4x256x51) ![k, 0, 0] S1x256x51.size inb).emb (ix3 u r z) = ix3 (⟨k, hk⟩ : Fin 4) r z := by
  funext ax
  apply Fin.ext
  match ax with
  | ⟨0, _⟩ => show k + 1 * u.val = k; omega
  | ⟨1, _⟩ => show 0 + 1 * r.val = r.val; omega
  | ⟨2, _⟩ => show 0 + 1 * z.val = z.val; omega

/-- THE BODY'S RESULT is the specification's array: each stored slab is the slab of that ONE function its rectangle names,
    and the four slabs cover the buffer. -/
theorem out_apply : Gen.out1_9 (F := Ideal) x0 x1 x2 x3 x4 x5 x6 x7 x8 = headLast (A := 256) x0 x1 x2 x3 x4 x5 x6 x7 x8 := by
  funext y
  rw [out_eq]
  refine View.canon_apply_of_pieces (Val := Elt Ideal) (S := S4x256x51) (e := .f32) (headLast (A := 256) x0 x1 x2 x3 x4 x5 x6 x7 x8) _ ?_ y (cover1_9 _ _ _ _ y)
  intro p hp x
  simp only [List.mem_cons, List.mem_singleton, List.not_mem_nil, or_false] at hp
  rcases hp with rfl | rfl | rfl | rfl
  · obtain ⟨u, r, z, rfl⟩ : ∃ (u : Fin 1) (r : Fin 256) (z : Fin 51), x = ix3 u r z := ⟨x 0, x 1, x 2, eq_ix3 x⟩
    obtain rfl : u = 0 := Subsingleton.elim _ _
    exact (st3_apply x0 x1 x2 x3 x4 x5 x6 x7 x8 r z).trans ((headLast_ix3 x0 x1 x2 x3 x4 x5 x6 x7 x8 3 r z).symm.trans
      (congrArg (headLast (A := 256) x0 x1 x2 x3 x4 x5 x6 x7 x8) (emb_slab 3 (by omega) inb_S4x256x51_S1x256x51_3_0_0 (0 : Fin 1) r z).symm))
  · obtain ⟨u, r, z, rfl⟩ : ∃ (u : Fin 1) (r : Fin 256) (z : Fin 51), x = ix3 u r z := ⟨x 0, x 1, x 2, eq_ix3 x⟩
    obtain rfl : u = 0 := Subsingleton.elim _ _
    exact (st2_apply x0 x1 x2 x3 x4 x5 x6 x7 x8 r z).trans ((headLast_ix3 x0 x1 x2 x3 x4 x5 x6 x7 x8 2 r z).symm.trans
      (congrArg (headLast (A := 256) x0 x1 x2 x3 x4 x5 x6 x7 x8) (emb_slab 2 (by omega) inb_S4x256x51_S1x256x51_2_0_0 (0 : Fin 1) r z).symm))
  · obtain ⟨u, r, z, rfl⟩ : ∃ (u : Fin 1) (r : Fin 256) (z : Fin 51), x = ix3 u r z := ⟨x 0, x 1, x 2, eq_ix3 x⟩
    obtain rfl : u = 0 := Subsingleton.elim _ _
    exact (st1_apply x0 x1 x2 x3 x4 x5 x6 x7 x8 r z).trans ((headLast_ix3 x0 x1 x2 x3 x4 x5 x6 x7 x8 1 r z).symm.trans
      (congrArg (headLast (A := 256) x0 x1 x2 x3 x4 x5 x6 x7 x8) (emb_slab 1 (by omega) inb_S4x256x51_S1x256x51_1_0_0 (0 : Fin 1) r z).symm))
  · obtain ⟨u, r, z, rfl⟩ : ∃ (u : Fin 1) (r : Fin 256) (z : Fin 51), x = ix3 u r z := ⟨x 0, x 1, x 2, eq_ix3 x⟩
    obtain rfl : u = 0 := Subsingleton.elim _ _
    exact (st0_apply x0 x1 x2 x3 x4 x5 x6 x7 x8 r z).trans ((headLast_ix3 x0 x1 x2 x3 x4 x5 x6 x7 x8 0 r z).symm.trans
      (congrArg (headLast (A := 256) x0 x1 x2 x3 x4 x5 x6 x7 x8) (emb_slab 0 (by omega) inb_S4x256x51_S1x256x51_0_0_0 (0 : Fin 1) r z).symm))

end body

/-! ## From the one point's block to the array -/

section array

variable (V : (c : Dev nD) → (b : Ref sig .tc) → Buf (Elt Ideal) ((c : Thread nD τ).loc b)) (c : Dev nD)

/-- The kernel has no grid: at its one point every window's block is its whole array at offset zero, so a block read back
    is the array. -/
theorem read_0 (f : Buf (Elt Ideal) ((c : Thread nD τ).loc main_v10)) :
    (win1_0.blk t1_0).view.read (Elt Ideal) f = f :=
  Memref.read_access_unit_zero (Elt Ideal) main_v10
    (show (fun a => (win1_0.index t1_0) a * main_v10.ty.shape.size a) = fun _ => 0 from
      funext fun a => by fin_cases a <;> decide) (fun a => by fin_cases a <;> decide) f
theorem read_1 (f : Buf (Elt Ideal) ((c : Thread nD τ).loc main_arg3)) :
    (win1_1.blk t1_0).view.read (Elt Ideal) f = f :=
  Memref.read_access_unit_zero (Elt Ideal) main_arg3
    (show (fun a => (win1_1.index t1_0) a * main_arg3.ty.shape.size a) = fun _ => 0 from
      funext fun a => by fin_cases a <;> decide) (fun a => by fin_cases a <;> decide) f
theorem read_2 (f : Buf (Elt Ideal) ((c : Thread nD τ).loc main_arg4)) :
    (win1_2.blk t1_0).view.read (Elt Ideal) f = f :=
  Memref.read_access_unit_zero (Elt Ideal) main_arg4
    (show (fun a => (win1_2.index t1_0) a * main_arg4.ty.shape.size a) = fun _ => 0 from
      funext fun a => by fin_cases a <;> decide) (fun a => by fin_cases a <;> decide) f
theorem read_3 (f : Buf (Elt Ideal) ((c : Thread nD τ).loc main_arg5)) :
    (win1_3.blk t1_0).view.read (Elt Ideal) f = f :=
  Memref.read_access_unit_zero (Elt Ideal) main_arg5
    (show (fun a => (win1_3.index t1_0) a * main_arg5.ty.shape.size a) = fun _ => 0 from
      funext fun a => by fin_cases a <;> decide) (fun a => by fin_cases a <;> decide) f
theorem read_4 (f : Buf (Elt Ideal) ((c : Thread nD τ).loc main_arg6)) :
    (win1_4.blk t1_0).view.read (Elt Ideal) f = f :=
  Memref.read_access_unit_zero (Elt Ideal) main_arg6
    (show (fun a => (win1_4.index t1_0) a * main_arg6.ty.shape.size a) = fun _ => 0 from
      funext fun a => by fin_cases a <;> decide) (fun a => by fin_cases a <;> decide) f
theorem read_5 (f : Buf (Elt Ideal) ((c : Thread nD τ).loc main_arg7)) :
    (win1_5.blk t1_0).view.read (Elt Ideal) f = f :=
  Memref.read_access_unit_zero (Elt Ideal) main_arg7
    (show (fun a => (win1_5.index t1_0) a * main_arg7.ty.shape.size a) = fun _ => 0 from
      funext fun a => by fin_cases a <;> decide) (fun a => by fin_cases a <;> decide) f
theorem read_6 (f : Buf (Elt Ideal) ((c : Thread nD τ).loc main_arg8)) :
    (win1_6.blk t1_0).view.read (Elt Ideal) f = f :=
  Memref.read_access_unit_zero (Elt Ideal) main_arg8
    (show (fun a => (win1_6.index t1_0) a * main_arg8.ty.shape.size a) = fun _ => 0 from
      funext fun a => by fin_cases a <;> decide) (fun a => by fin_cases a <;> decide) f
theorem read_7 (f : Buf (Elt Ideal) ((c : Thread nD τ).loc main_arg9)) :
    (win1_7.blk t1_0).view.read (Elt Ideal) f = f :=
  Memref.read_access_unit_zero (Elt Ideal) main_arg9
    (show (fun a => (win1_7.index t1_0) a * main_arg9.ty.shape.size a) = fun _ => 0 from
      funext fun a => by fin_cases a <;> decide) (fun a => by fin_cases a <;> decide) f
theorem read_8 (f : Buf (Elt Ideal) ((c : Thread nD τ).loc main_arg10)) :
    (win1_8.blk t1_0).view.read (Elt Ideal) f = f :=
  Memref.read_access_unit_zero (Elt Ideal) main_arg10
    (show (fun a => (win1_8.index t1_0) a * main_arg10.ty.shape.size a) = fun _ => 0 from
      funext fun a => by fin_cases a <;> decide) (fun a => by fin_cases a <;> decide) f
theorem read_9 (f : Buf (Elt Ideal) ((c : Thread nD τ).loc main_v11)) :
    (win1_9.blk t1_0).view.read (Elt Ideal) f = f :=
  Memref.read_access_unit_zero (Elt Ideal) main_v11
    (show (fun a => (win1_9.index t1_0) a * main_v11.ty.shape.size a) = fun _ => 0 from
      funext fun a => by fin_cases a <;> decide) (fun a => by fin_cases a <;> decide) f

/-- So each input window's block is its array as the region finds it. -/
theorem iblk_0 : Gen.iblk1 (F := Ideal) V c 0 t1_0 = V c main_v10 := by
  show (win1_0.blk t1_0).view.read (Elt Ideal) (V c main_v10) = _
  exact read_0 c _
theorem iblk_1 : Gen.iblk1 (F := Ideal) V c 1 t1_0 = V c main_arg3 := by
  show (win1_1.blk t1_0).view.read (Elt Ideal) (V c main_arg3) = _
  exact read_1 c _
theorem iblk_2 : Gen.iblk1 (F := Ideal) V c 2 t1_0 = V c main_arg4 := by
  show (win1_2.blk t1_0).view.read (Elt Ideal) (V c main_arg4) = _
  exact read_2 c _
theorem iblk_3 : Gen.iblk1 (F := Ideal) V c 3 t1_0 = V c main_arg5 := by
  show (win1_3.blk t1_0).view.read (Elt Ideal) (V c main_arg5) = _
  exact read_3 c _
theorem iblk_4 : Gen.iblk1 (F := Ideal) V c 4 t1_0 = V c main_arg6 := by
  show (win1_4.blk t1_0).view.read (Elt Ideal) (V c main_arg6) = _
  exact read_4 c _
theorem iblk_5 : Gen.iblk1 (F := Ideal) V c 5 t1_0 = V c main_arg7 := by
  show (win1_5.blk t1_0).view.read (Elt Ideal) (V c main_arg7) = _
  exact read_5 c _
theorem iblk_6 : Gen.iblk1 (F := Ideal) V c 6 t1_0 = V c main_arg8 := by
  show (win1_6.blk t1_0).view.read (Elt Ideal) (V c main_arg8) = _
  exact read_6 c _
theorem iblk_7 : Gen.iblk1 (F := Ideal) V c 7 t1_0 = V c main_arg9 := by
  show (win1_7.blk t1_0).view.read (Elt Ideal) (V c main_arg9) = _
  exact read_7 c _
theorem iblk_8 : Gen.iblk1 (F := Ideal) V c 8 t1_0 = V c main_arg10 := by
  show (win1_8.blk t1_0).view.read (Elt Ideal) (V c main_arg10) = _
  exact read_8 c _

/-- What the one point writes back is the specification's array of the arrays as the region finds them. -/
theorem flushed_9 : (Gen.dat1 (F := Ideal) V c).flushed 9 t1_0 = headLast (A := 256) (V c main_v10) (V c main_arg3) (V c main_arg4) (V c main_arg5) (V c main_arg6) (V c main_arg7) (V c main_arg8) (V c main_arg9) (V c main_arg10) := by
  show (cfg1.win 9).cut _ ((Gen.dat1 (F := Ideal) V c).after 9 t1_0) = _
  rw [after1_9, iblk_0, iblk_1, iblk_2, iblk_3, iblk_4, iblk_5, iblk_6, iblk_7, iblk_8]
  exact funext fun j => congrFun (out_apply (V c main_v10) (V c main_arg3) (V c main_arg4) (V c main_arg5) (V c main_arg6) (V c main_arg7) (V c main_arg8) (V c main_arg9) (V c main_arg10)) _

/-- THE RESULT ARRAY after the region: the one block covers it. -/
theorem head_arr : ((Gen.dat1 (F := Ideal) V c).arrAt 9 cfg1.N : S4x256x51.Idx → EReal)
    = headLast (A := 256) (V c main_v10) (V c main_arg3) (V c main_arg4) (V c main_arg5) (V c main_arg6) (V c main_arg7) (V c main_arg8) (V c main_arg9) (V c main_arg10) := by
  refine (Gen.dat1 (F := Ideal) V c).arrAt_eq_of_cover 9 (headLast (A := 256) (V c main_v10) (V c main_arg3) (V c main_arg4) (V c main_arg5) (V c main_arg6) (V c main_arg7) (V c main_arg8) (V c main_arg9) (V c main_arg10)) (fun t _ => ?_)
    (fun i => ⟨t1_0, flush1_9 t1_0, ?_⟩)
  · obtain rfl := fin_N1 t
    rw [flushed_9]
    exact (read_9 c _).symm
  · show i ∈ ((View.whole main_v11).slice (win1_9.rect t1_0)).set
    rw [View.set_slice_whole, Rect.mem_set_unit]
    intro a
    have h0 : (i 0 : Nat) < 4 := (i 0).isLt
    have h1 : (i 1 : Nat) < 256 := (i 1).isLt
    have h2 : (i 2 : Nat) < 51 := (i 2).isLt
    match a with
    | ⟨0, _⟩ =>
      show win1_9.index t1_0 0 * win1_9.size 0 ≤ (i 0 : Nat)
        ∧ (i 0 : Nat) < win1_9.index t1_0 0 * win1_9.size 0 + win1_9.xsize (grid1.coords t1_0) 0
      rw [show win1_9.index t1_0 0 * win1_9.size 0 = 0 from by decide +kernel,
        show win1_9.xsize (grid1.coords t1_0) 0 = 4 from by decide +kernel]
      omega
    | ⟨1, _⟩ =>
      show win1_9.index t1_0 1 * win1_9.size 1 ≤ (i 1 : Nat)
        ∧ (i 1 : Nat) < win1_9.index t1_0 1 * win1_9.size 1 + win1_9.xsize (grid1.coords t1_0) 1
      rw [show win1_9.index t1_0 1 * win1_9.size 1 = 0 from by decide +kernel,
        show win1_9.xsize (grid1.coords t1_0) 1 = 256 from by decide +kernel]
      omega
    | ⟨2, _⟩ =>
      show win1_9.index t1_0 2 * win1_9.size 2 ≤ (i 2 : Nat)
        ∧ (i 2 : Nat) < win1_9.index t1_0 2 * win1_9.size 2 + win1_9.xsize (grid1.coords t1_0) 2
      rw [show win1_9.index t1_0 2 * win1_9.size 2 = 0 from by decide +kernel,
        show win1_9.xsize (grid1.coords t1_0) 2 = 51 from by decide +kernel]
      omega

end array

end Cert.ReferenceIdeal.HeadVal

end
-- ==== Proof.lean ====
/-
  Two spellings of one dueling distributional value network on stacks of 84×84 images compute the same array.

  Both programs run a 5×5 stride-5 convolution as a product of patch rows with a weight matrix (a first pipelined
  region), gather its outputs per 5×5 neighbourhood of a 3×3 grid, and run a fused head (a second region): a second
  rectified convolution as a dense layer, a dense layer of 256 hidden units, a value head and four advantage heads of
  51 atoms, the dueling combination value + advantage − mean advantage, and a softmax along the atoms; the result is
  transposed to [256, 4, 51]. They differ in the order of the patch rows (neighbourhood-major against image-major), in
  the height of the row blocks the regions walk (1440 and 64 rows against 256 rows and everything at once), in rounding
  the matrix operands to a narrower format (the identity on the extended reals), in computing the second convolution as
  one tall product against nine products, and in adding the hidden bias first or last.

  On the extended reals every entry of every stage is a function of ONE image's rows, so the tilings do not matter; the
  two row orders reach the same patch rows; and a sum of extended reals does not depend on its order. So both programs'
  result buffers end at one function of the argument arrays (`Cert.Dueling.resultArr`): each program's run names every
  buffer of the final state, the result buffer is read back through the host operations and the two regions' outputs,
  each region's output is shown to be a whole-array function of its operand arrays, and the two second-stage inputs are
  shown equal to one array index by index. No finiteness of the inputs is used.
-/
import proofs.«161365_g2000107080715666_pallasbulk_1227_2_alg».proof.Defs
import proofs.«161365_g2000107080715666_pallasbulk_1227_2_alg».proof.Proof.Gen.Kernel
import proofs.«161365_g2000107080715666_pallasbulk_1227_2_alg».proof.Proof.Gen.Kernel.Frame
import proofs.«161365_g2000107080715666_pallasbulk_1227_2_alg».proof.Proof.Gen.KernelIdeal
import proofs.«161365_g2000107080715666_pallasbulk_1227_2_alg».proof.Proof.Gen.KernelIdeal.Frame
import proofs.«161365_g2000107080715666_pallasbulk_1227_2_alg».proof.Proof.Gen.ReferenceIdeal
import proofs.«161365_g2000107080715666_pallasbulk_1227_2_alg».proof.Proof.Gen.ReferenceIdeal.Frame
import proofs.«161365_g2000107080715666_pallasbulk_1227_2_alg».proof.Proof.Gen.Pre_finite_inputs
import proofs.«161365_g2000107080715666_pallasbulk_1227_2_alg».proof.Proof.Final
import proofs.«161365_g2000107080715666_pallasbulk_1227_2_alg».proof.Proof.ConvK
import proofs.«161365_g2000107080715666_pallasbulk_1227_2_alg».proof.Proof.ConvR
import proofs.«161365_g2000107080715666_pallasbulk_1227_2_alg».proof.Proof.ChainKAt
import proofs.«161365_g2000107080715666_pallasbulk_1227_2_alg».proof.Proof.ChainRAt
import proofs.«161365_g2000107080715666_pallasbulk_1227_2_alg».proof.Proof.HeadK
import proofs.«161365_g2000107080715666_pallasbulk_1227_2_alg».proof.Proof.HeadR

noncomputable section

namespace Cert.Proof

open Idealize.ShloMosaic Idealize.SL.Sem

/-- The word-level program runs, faults nowhere and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the idealized reference. -/
theorem frame_ri : Cert.frame_ReferenceIdeal := fun m ρ _ => Cert.ReferenceIdeal.Gen.frame m ρ

/-- The idealization rewrote no operation: nothing to preserve. -/
theorem preserves : Cert.preserves_Kernel_KernelIdeal := trivial

/-- Both idealized programs end with the result array at the same function of the arguments: the transposed softmax
    of the dueling logits of the second stage applied to the first stage's outputs gathered per 5×5 neighbourhood. -/
theorem algebraic : Cert.algebraic_KernelIdeal_ReferenceIdeal :=
  Pair.algebraic_of (fun V c => Cert.KernelIdeal.ConvVal.conv_arr V c) (fun V c => Cert.KernelIdeal.HeadVal.head_arr V c)
    Cert.KernelIdeal.ChainAt.cast_apply Cert.KernelIdeal.ChainAt.patches_at
    (fun V c => Cert.ReferenceIdeal.ConvVal.conv_arr V c) (fun V c => Cert.ReferenceIdeal.HeadVal.head_arr V c)
    Cert.ReferenceIdeal.ChainAt.relay_apply Cert.ReferenceIdeal.ChainAt.patches_at

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
